-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x128 : Shape := ⟨3, ![2048, 4, 128]⟩
abbrev S2048 : Shape := ⟨1, ![2048]⟩
abbrev S_ : Shape := ⟨0, ![]⟩

class Facts : Prop where
  bcast_S_S2048x4x128 : S_.BroadcastsInDim S2048x4x128 (![] : Fin 0 → Fin S2048x4x128.rank)
  reducesTo_S2048x4x128_S_d0_1_2 : S2048x4x128.ReducesTo [0, 1, 2] S_
  h_S_ : 0 < S_.numel

variable [Facts]

def fn {F : FTy → Type} [FloatOps F] (main_arg0 : FVec F S2048x4x128 .f32) (main_arg1 : IVec S2048 32) : IVec S_ 1 :=
  let main_v0 : FVec F S2048x4x128 .f32 := Host.absf main_arg0
  let main_cst : FVec F S_ .f32 := constant S_ .f32 0x7F800000#32
  let main_v1 : FVec F S2048x4x128 .f32 := broadcastInDim S2048x4x128 ![] bcast_S_S2048x4x128 main_cst
  let main_v2 : IVec S2048x4x128 1 := cmpf .olt main_v0 main_v1
  let main_c : IVec S_ 1 := constantI S_ 1 1#1
  let main_v3 : IVec S_ 1 := (fun x v => Host.reduce IntOp.andi x v reducesTo_S2048x4x128_S_d0_1_2 h_S_) main_v2 main_c
  main_v3
-- ==== Kernel.lean ====
abbrev S2048x4x128 : Shape := ⟨3, ![2048, 4, 128]⟩
abbrev S2048 : Shape := ⟨1, ![2048]⟩
abbrev S8192x128 : Shape := ⟨2, ![8192, 128]⟩
abbrev S2048x4 : Shape := ⟨2, ![2048, 4]⟩
abbrev S8192 : Shape := ⟨1, ![8192]⟩
abbrev S4 : Shape := ⟨1, ![4]⟩
abbrev S1x4 : Shape := ⟨2, ![1, 4]⟩
abbrev S_ : Shape := ⟨0, ![]⟩
abbrev S8192x1 : Shape := ⟨2, ![8192, 1]⟩
abbrev S1x8192 : Shape := ⟨2, ![1, 8192]⟩
abbrev S8192x5 : Shape := ⟨2, ![8192, 5]⟩
abbrev S256x128 : Shape := ⟨2, ![256, 128]⟩
abbrev S1024x128 : Shape := ⟨2, ![1024, 128]⟩
abbrev S256x1 : Shape := ⟨2, ![256, 1]⟩
abbrev S1x1024 : Shape := ⟨2, ![1, 1024]⟩
abbrev S256x5 : Shape := ⟨2, ![256, 5]⟩
abbrev S256x1024 : Shape := ⟨2, ![256, 1024]⟩
abbrev S256 : Shape := ⟨1, ![256]⟩

abbrev nBuf : Space → Nat
  | .hbm => 64
  | .vmem => 23
  | .smem => 0
  | _ => 0

abbrev bufTy : (tb : Table) → Fin (tcTables nBuf tb) → BufTy
  | .hbm, ⟨0, _⟩ => ⟨S2048x4x128, .f32⟩
  | .hbm, ⟨1, _⟩ => ⟨S2048, .i32⟩
  | .hbm, ⟨2, _⟩ => ⟨S8192x128, .f32⟩
  | .hbm, ⟨3, _⟩ => ⟨S2048x4, .i32⟩
  | .hbm, ⟨4, _⟩ => ⟨S8192, .i32⟩
  | .hbm, ⟨5, _⟩ => ⟨S4, .i32⟩
  | .hbm, ⟨6, _⟩ => ⟨S1x4, .i32⟩
  | .hbm, ⟨7, _⟩ => ⟨S2048x4, .i32⟩
  | .hbm, ⟨8, _⟩ => ⟨S8192, .i32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1x8192, .f32⟩
  | .hbm, ⟨14, _⟩ => ⟨S8192x1, .i32⟩
  | .hbm, ⟨15, _⟩ => ⟨S1x8192, .i32⟩
  | .hbm, ⟨16, _⟩ => ⟨S8192x1, .i32⟩
  | .hbm, ⟨17, _⟩ => ⟨S1x8192, .i32⟩
  | .hbm, ⟨18, _⟩ => ⟨S8192x5, .f32⟩
  | .hbm, ⟨19, _⟩ => ⟨S8192x1, .f32⟩
  | .hbm, ⟨20, _⟩ => ⟨S8192, .f32⟩
  | .hbm, ⟨21, _⟩ => ⟨S8192x1, .f32⟩
  | .hbm, ⟨22, _⟩ => ⟨S8192, .f32⟩
  | .hbm, ⟨23, _⟩ => ⟨S8192x1, .f32⟩
  | .hbm, ⟨24, _⟩ => ⟨S8192, .f32⟩
  | .hbm, ⟨25, _⟩ => ⟨S8192x1, .f32⟩
  | .hbm, ⟨26, _⟩ => ⟨S8192, .f32⟩
  | .hbm, ⟨27, _⟩ => ⟨S8192x1, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S1024x128, .f32⟩
  | .local _ .vmem, ⟨3, _⟩ => ⟨S1024x128, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S1x1024, .f32⟩
  | .local _ .vmem, ⟨8, _⟩ => ⟨S256x1, .i32⟩
  | .local _ .vmem, ⟨9, _⟩ => ⟨S256x1, .i32⟩
  | .local _ .vmem, ⟨10, _⟩ => ⟨S1x1024, .i32⟩
  | .local _ .vmem, ⟨11, _⟩ => ⟨S1x1024, .i32⟩
  | .local _ .vmem, ⟨12, _⟩ => ⟨S256x1, .i32⟩
  | .local _ .vmem, ⟨13, _⟩ => ⟨S256x1, .i32⟩
  | .local _ .vmem, ⟨14, _⟩ => ⟨S1x1024, .i32⟩
  | .local _ .vmem, ⟨15, _⟩ => ⟨S1x1024, .i32⟩
  | .local _ .vmem, ⟨16, _⟩ => ⟨S256x5, .f32⟩
  | .local _ .vmem, ⟨17, _⟩ => ⟨S256x5, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | _, _ => ⟨S2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_call0_cst : Ref sig .tc := ⟨.hbm, 33, rfl⟩
abbrev main_call0_v0 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_call1_cst : Ref sig .tc := ⟨.hbm, 44, rfl⟩
abbrev main_call1_v0 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_call2_cst : Ref sig .tc := ⟨.hbm, 56, rfl⟩
abbrev main_call2_v0 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v91 : BitVec 1 := Scalar.cmpi .eq arg1 c7_i32
  let v92 : BitVec 32 := Scalar.extui v91
  let c0_i32_53 : BitVec 32 := 0#32
  let v93 : BitVec 1 := Scalar.cmpi .ne v92 c0_i32_53
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2048x4x128_S8192x128 : S2048x4x128.ShapeCasts S8192x128
  bcast_S2048_S2048x4_0 : S2048.BroadcastsInDim S2048x4 (![0] : Fin 1 → Fin S2048x4.rank)
  shapeCasts_S2048x4_S8192 : S2048x4.ShapeCasts S8192
  shapeCasts_S4_S1x4 : S4.ShapeCasts S1x4
  bcast_S1x4_S2048x4_0_1 : S1x4.BroadcastsInDim S2048x4 (![0, 1] : Fin 2 → Fin S2048x4.rank)
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  inb_S256x5_S256x1_0_0 : ∀ a, (![0, 0] : Fin 2 → Nat) a + S256x1.size a ≤ S256x5.size a
  inb_S256x5_S256x1_0_1 : ∀ a, (![0, 1] : Fin 2 → Nat) a + S256x1.size a ≤ S256x5.size a
  inb_S256x5_S256x1_0_2 : ∀ a, (![0, 2] : Fin 2 → Nat) a + S256x1.size a ≤ S256x5.size a
  inb_S256x5_S256x1_0_3 : ∀ a, (![0, 3] : Fin 2 → Nat) a + S256x1.size a ≤ S256x5.size a
  inb_S256x5_S256x1_0_4 : ∀ a, (![0, 4] : Fin 2 → Nat) a + S256x1.size a ≤ S256x5.size a
  slices_S8192x5_S8192x1_0_0 : S8192x5.Slices ![0, 0] S8192x1
  shapeCasts_S8192x1_S8192 : S8192x1.ShapeCasts S8192
  slices_S8192x5_S8192x1_0_1 : S8192x5.Slices ![0, 1] S8192x1
  slices_S8192x5_S8192x1_0_2 : S8192x5.Slices ![0, 2] S8192x1
  slices_S8192x5_S8192x1_0_3 : S8192x5.Slices ![0, 3] S8192x1
  slices_S8192x5_S8192x1_0_4 : S8192x5.Slices ![0, 4] S8192x1
  bcast_S_S8192 : S_.BroadcastsInDim S8192 (![] : Fin 0 → Fin S8192.rank)
  reducesTo_S8192_S_d0 : S8192.ReducesTo [0] S_
  dot_S256x128_S1024x128_S256x1024_1_1_0_0_n_n_wf : DotDims.WF S256x128 S1024x128 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .i32 = 32 ∨ (Rect.block (s := S8192x1) S256x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .i32 = 32 ∨ (Rect.block (s := S8192x1) S256x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .i32 = 32 ∨ (Rect.block (s := S1x8192) S1x1024.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x5.size a ≤ S8192x5.size a
  hwx0_8 : ∀ i : grid0.Coords, EltTy.bits .f32 = 32 ∨ (Rect.block (s := S8192x5) S256x5.size (cc0_transform_8 i) (hinb0_8 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S256x5.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2048x4x128 : Shape := ⟨3, ![2048, 4, 128]⟩
abbrev S2048 : Shape := ⟨1, ![2048]⟩
abbrev S8192x128 : Shape := ⟨2, ![8192, 128]⟩
abbrev S2048x4 : Shape := ⟨2, ![2048, 4]⟩
abbrev S8192 : Shape := ⟨1, ![8192]⟩
abbrev S4 : Shape := ⟨1, ![4]⟩
abbrev S1x4 : Shape := ⟨2, ![1, 4]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 118
  | .vmem => 0
  | .smem => 0
  | _ => 0

abbrev bufTy : (tb : Table) → Fin (tcTables nBuf tb) → BufTy
  | .hbm, ⟨0, _⟩ => ⟨S2048x4x128, .f32⟩
  | .hbm, ⟨1, _⟩ => ⟨S2048, .i32⟩
  | .hbm, ⟨2, _⟩ => ⟨S8192x128, .f32⟩
  | .hbm, ⟨3, _⟩ => ⟨S2048x4, .i32⟩
  | .hbm, ⟨4, _⟩ => ⟨S8192, .i32⟩
  | .hbm, ⟨5, _⟩ => ⟨S4, .i32⟩
  | .hbm, ⟨6, _⟩ => ⟨S1x4, .i32⟩
  | .hbm, ⟨7, _⟩ => ⟨S2048x4, .i32⟩
  | .hbm, ⟨8, _⟩ => ⟨S8192, .i32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S128x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S8192x1, .i32⟩
  | .hbm, ⟨34, _⟩ => ⟨S1x8192, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S8192x8192, .i1⟩
  | .hbm, ⟨42, _⟩ => ⟨S8192x8192, .i1⟩
  | .hbm, ⟨43, _⟩ => ⟨S8192x8192, .i1⟩
  | .hbm, ⟨44, _⟩ => ⟨S8192x8192, .i1⟩
  | .hbm, ⟨45, _⟩ => ⟨S8192x8192, .i1⟩
  | .hbm, ⟨46, _⟩ => ⟨S_, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x8192, .i1⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S8192, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S8192, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_cst_6 : Ref sig .tc := ⟨.hbm, 59, rfl⟩
abbrev main_call3_v0 : Ref sig .tc := ⟨.hbm, 60, rfl⟩
abbrev main_call3_v1 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_call4_v0 : Ref sig .tc := ⟨.hbm, 66, rfl⟩
abbrev main_call4_v1 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_call5_v0 : Ref sig .tc := ⟨.hbm, 72, rfl⟩
abbrev main_call5_v1 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_cst_12 : Ref sig .tc := ⟨.hbm, 77, rfl⟩
abbrev main_call6_v0 : Ref sig .tc := ⟨.hbm, 78, rfl⟩
abbrev main_call6_v1 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_call7_cst : Ref sig .tc := ⟨.hbm, 87, rfl⟩
abbrev main_call7_v0 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_cst_16 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_call8_cst : Ref sig .tc := ⟨.hbm, 98, rfl⟩
abbrev main_call8_v0 : Ref sig .tc := ⟨.hbm, 99, rfl⟩
abbrev main_v61 : Ref sig .tc := ⟨.hbm, 100, rfl⟩
abbrev main_cst_18 : Ref sig .tc := ⟨.hbm, 101, rfl⟩
abbrev main_v62 : Ref sig .tc := ⟨.hbm, 102, rfl⟩
abbrev main_cst_19 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_20 : Ref sig .tc := ⟨.hbm, 107, rfl⟩
abbrev main_v66 : Ref sig .tc := ⟨.hbm, 108, rfl⟩
abbrev main_v67 : Ref sig .tc := ⟨.hbm, 109, rfl⟩
abbrev main_call9_cst : Ref sig .tc := ⟨.hbm, 110, rfl⟩
abbrev main_call9_v0 : Ref sig .tc := ⟨.hbm, 111, rfl⟩
abbrev main_v68 : Ref sig .tc := ⟨.hbm, 112, rfl⟩
abbrev main_cst_21 : Ref sig .tc := ⟨.hbm, 113, rfl⟩
abbrev main_v69 : Ref sig .tc := ⟨.hbm, 114, rfl⟩
abbrev main_cst_22 : Ref sig .tc := ⟨.hbm, 115, rfl⟩
abbrev main_v70 : Ref sig .tc := ⟨.hbm, 116, rfl⟩
abbrev main_v71 : Ref sig .tc := ⟨.hbm, 117, rfl⟩

abbrev nD : Nat := 1
abbrev τ : Topo := Topo.v7x

variable {F : FTy → Type} [FloatOps F]

class Facts₀ : Prop where
  shapeCasts_S2048x4x128_S8192x128 : S2048x4x128.ShapeCasts S8192x128
  bcast_S2048_S2048x4_0 : S2048.BroadcastsInDim S2048x4 (![0] : Fin 1 → Fin S2048x4.rank)
  shapeCasts_S2048x4_S8192 : S2048x4.ShapeCasts S8192
  shapeCasts_S4_S1x4 : S4.ShapeCasts S1x4
  bcast_S1x4_S2048x4_0_1 : S1x4.BroadcastsInDim S2048x4 (![0, 1] : Fin 2 → Fin S2048x4.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibFrameSharedAround.lean ====
/-
  The frame run for a pipeline whose windows SHARE AN ARRAY, in an @main that goes on after the region.

  The pipeline library runs the host lines that follow a region from the region's exit with the windows' arrays held
  window by window, which presupposes that the arrays are pairwise distinct buffers. When one array is handed to the
  kernel through several input windows the exit state holds that buffer in several shares, one per window, and the lines
  after the region cannot be run against it as it stands. Nothing deep is in the way: the lines touch only the DISTINCT
  buffers behind the arrays and the buffers that bypass the region, and those are one separating conjunction whether or
  not two windows name the same buffer (`held_tailRefs_shared`). So the certificate says, besides how the buffers behind
  the arrays are dealt to the windows at the region's entry (`hsplit`), how the windows' shares are gathered again at
  its exit into those buffers, each whole at an exit valuation `VN` (`hjoin`), and dealt back once the lines have run
  (`hsplitN`); the lines write no array (`hkeep`), so the arrays end at the proof data's final contents and every
  bypassing buffer at the lines' result from the exit valuation.

  `θ_run_frame_around_track_shared` is the library's frame run around a region with a tracking invariant, the layout
  bundle replaced by its separate facts and the arrays' distinctness by those three entailments; its conclusion is the
  same `FramePost`, read at `StableHlo.after` of the lines from `VN`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section TailShared

variable {Ix : Type} [DecidableEq Ix] {Name : Type} [DecidableEq Name] {U : Type} [URA U] {Lvl : Type}

local notation "𝕄" => MT nD τ sig Ix Val Name U Lvl

/-- The buffers a line after the region may touch, held at `Wv`, are the distinct buffers behind the windows' arrays
    and the bypassing buffers at `Wv` - whether or not two windows share an array. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

end TailShared

section FrameAroundShared

variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- THE FRAME RUN with a tracking invariant, for a pipeline whose windows may share arrays, in an @main that continues
    after the region with the host lines `opss`. -/
theorem θ_run_frame_around_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ) (howed : ∀ c t, (dats p c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (VN : Dev nD → Valuation τ sig Val)
    (hVN : ∀ c, ∀ b ∈ restRefs sig (cfgs p).spec, VN c (Proc.devRef .tc b) = V₀ c (Proc.devRef .tc b))
    (hjoin : ∀ c, (dats p c).arrays ((dats p c).arrAt · (cfgs p).N) ⊢ (arrBufs (cfgs p).spec c (fun b => VN c (Proc.devRef .tc b)) : sProp 𝕄))
    (hsplitN : ∀ c, (arrBufs (cfgs p).spec c (fun b => VN c (Proc.devRef .tc b)) : sProp 𝕄) ⊢ (dats p c).arrays ((dats p c).arrAt · (cfgs p).N))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (VN c) (Proc.devRef .tc b))) := by
  classical
  exact θ_run_region_pf_tail (fun q => (cfgs q).toPCfg (Val := Val)) (fun q => (cfgs q).toPCfg_adm) dats () hinj p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (VN c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      have hW : (StableHlo.held (c.tc : Thread nD τ) (tailRefs sig Prefetch.none (cfgs p).spec) (VN c) : sProp 𝕄)
          = iprop(arrBufs (cfgs p).spec c (fun b => VN c (Proc.devRef .tc b))
              ∗ unscopedRest (cfgs p).spec c (fun b => V₀ c (Proc.devRef .tc b))) := by
        rw [held_tailRefs_shared, unscopedRestP_none]
        congr 1
        unfold unscopedRest
        exact bigSep_congr fun b hb => by dsimp only; rw [hVN c b hb]
      have hW' : (StableHlo.held (c.tc : Thread nD τ) (tailRefs sig Prefetch.none (cfgs p).spec) (StableHlo.after opss.flatten (VN c)) : sProp 𝕄)
          = iprop(arrBufs (cfgs p).spec c (fun b => VN c (Proc.devRef .tc b))
              ∗ unscopedRest (cfgs p).spec c (fun b => StableHlo.after opss.flatten (VN c) (Proc.devRef .tc b))) := by
        rw [held_tailRefs_shared, unscopedRestP_none]
        congr 1
        unfold arrBufs
        exact bigSep_congr fun b hb => by
          obtain ⟨w, -, rfl⟩ := Finset.mem_image.mp hb
          dsimp only
          rw [StableHlo.after_of_forall_not_mem _ _ fun op hop => ?_]
          obtain ⟨ops, hops, hop⟩ := List.mem_flatten.mp hop
          exact hkeep ops hops op hop w
      have step1 : iprop((iprop((dats p c).arrays ((dats p c).arrAt · (cfgs p).N)
              ∗ unscopedRest (cfgs p).spec c (fun b => StableHlo.after opss.flatten (VN c) (Proc.devRef .tc b))) -∗ Q' ⟨⟩)
            ∗ boundary (c.tc : Thread nD τ) ∗ (dats p c).arrays ((dats p c).arrAt · (cfgs p).N)
            ∗ unscopedRest (cfgs p).spec c (fun b => V₀ c (Proc.devRef .tc b)))
          ⊢ (iprop((iprop((dats p c).arrays ((dats p c).arrAt · (cfgs p).N)
              ∗ unscopedRest (cfgs p).spec c (fun b => StableHlo.after opss.flatten (VN c) (Proc.devRef .tc b))) -∗ Q' ⟨⟩)
            ∗ boundary (c.tc : Thread nD τ)
            ∗ StableHlo.held (c.tc : Thread nD τ) (tailRefs sig Prefetch.none (cfgs p).spec) (VN c)) : sProp 𝕄) := by
        rw [hW]
        iintro ⟨Hk, Hb, HA, HZ⟩
        isplitl [Hk]; · iexact Hk
        isplitl [Hb]; · iexact Hb
        isplitl [HA]
        · iapply (hjoin c); iexact HA
        · iexact HZ
      refine step1.trans ?_
      rw [← List.append_nil (opss.map StableHlo.seq)]
      iintro ⟨Hk, Hb⟩
      iapply (wp_seqs_then (fun q => (cfgs q).toPCfg (Val := Val)) defs₀ 𝒱₀ c (tailRefs sig Prefetch.none (cfgs p).spec) [] opss hsub hfresh (VN c)) $$ Hb
      iintro Hb
      rw [chain_nil, wp_pure, hW']
      imodintro
      iapply Hk
      icases Hb with ⟨-, HA, HZ⟩
      isplitl [HA]
      · iapply (hsplitN c); iexact HA
      · iexact HZ)
    (QY := fun c s => ∀ b ∈ restRefs sig (cfgs p).spec, s.mem ((c.tc : Thread nD τ).loc b) = StableHlo.after opss.flatten (VN c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (VN c) (Proc.devRef .tc b)) s')
      isplitl [HU] <;> iassumption)
    (hQ := fun s h c => ⟨(h c).1, (h c).2.2⟩)

end FrameAroundShared

end Pipeline

end Idealize.ShloMosaic
-- ==== Proof.BitsSetting.lean ====
/-
  The setting of the kernel's run: the host lines around the one region, the contents the region finds, the blocks its
  windows read, where the body's two conditions hold over the 32 x 8 grid (the first column tile, the last column
  tile), and where the output window is idle.
-/
import proofs.«147969_j19104014532689_1_alg».proof.Proof.Gen.Kernel.Launch
import proofs.«147969_j19104014532689_1_alg».proof.Proof.Gen.Kernel.Skeleton
import proofs.«147969_j19104014532689_1_alg».proof.Proof.Gen.Kernel.Points
import proofs.«147969_j19104014532689_1_alg».proof.Proof.LibFrameSharedAround
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents when the region is entered: after the sixteen host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host lines after the region, stretch by stretch. -/
abbrev tail : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- No window's array is a scoped buffer. -/
theorem arr_unscoped0 : ∀ w, (Pipeline.arrRef spec0 w).isScoped = false := winFacts₀0.arr_unscoped

/-- The lines after the region touch unscoped buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 arr_unscoped0]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
set_option maxHeartbeats 8000000 in
/-- And write no array of the region: each writes its own result buffer only. -/
theorem sfx_keeps : ∀ ops ∈ (tail : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_2, List.mem_cons, List.mem_nil_iff, or_false] at hop
    rcases hop with rfl | rfl | rfl | rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_6, List.mem_cons, List.mem_nil_iff, or_false] at hop
    rcases hop with rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: the point is in the first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second condition: the point is in the last column tile. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Off the last column tile the output window is idle and not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- On the last column tile it is live. -/
theorem liveAt0_8 : ∀ t : Fin cfg0.N, cond0_1 (grid0.coords t) → cfg0.idle 8 (grid0.coords t) = false := by decide +kernel

/-! ## The memrefs the body is called with -/

/-- One staging buffer of the output window, through which its contents are stated. -/
abbrev VO0_8 : View sig .tc .vmem S256x5 .f32 := (Memref.whole cc0_stg8_0 : Memref sig .tc .vmem S256x5 .f32).view
abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5 .f32 := win0_8.stage (cfg0.slots t 8)
abbrev hs0_8 (t : Fin cfg0.N) : (ms0_8 t).IsWhole := hstage0_8 ((cfg0.slots t 8).cast nbuf0_8)
/-- Accumulator 0: a whole scoped buffer of the kernel's own. -/
abbrev scM0_0 : Memref sig .tc .vmem S256x1 .f32 := Memref.whole cc0_scratch0
abbrev VS0_0 : View sig .tc .vmem S256x1 .f32 := scM0_0.view
/-- Accumulator 1: a whole scoped buffer of the kernel's own. -/
abbrev scM0_1 : Memref sig .tc .vmem S256x1 .f32 := Memref.whole cc0_scratch1
abbrev VS0_1 : View sig .tc .vmem S256x1 .f32 := scM0_1.view
/-- Accumulator 2: a whole scoped buffer of the kernel's own. -/
abbrev scM0_2 : Memref sig .tc .vmem S256x1 .f32 := Memref.whole cc0_scratch2
abbrev VS0_2 : View sig .tc .vmem S256x1 .f32 := scM0_2.view
/-- Accumulator 3: a whole scoped buffer of the kernel's own. -/
abbrev scM0_3 : Memref sig .tc .vmem S256x1 .f32 := Memref.whole cc0_scratch3
abbrev VS0_3 : View sig .tc .vmem S256x1 .f32 := scM0_3.view
/-- Accumulator 4: a whole scoped buffer of the kernel's own. -/
abbrev scM0_4 : Memref sig .tc .vmem S256x1 .f32 := Memref.whole cc0_scratch4
abbrev VS0_4 : View sig .tc .vmem S256x1 .f32 := scM0_4.view

/-- The class invariant with the five accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.BitsRunA.lean ====
/-
  The body's run at a point of the first column tile: the accumulators are reset to the neutral literals before the tile is folded in; the output window is left as found.
-/
import proofs.«147969_j19104014532689_1_alg».proof.Proof.BitsSetting

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the five accumulators, as pieces, with the proof that from
    whole memrefs holding the inputs' blocks the body runs to the continuation holding the inputs as they were and each
    written buffer with its pieces written. -/
noncomputable def kernelRun0_A (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i)
    (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    Σ' (L8 : List (View.Piece (Elt F) S256x5 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi8 : Vec F S256x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__npairs_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, fun xi8 E K => ?run⟩
  case run =>
    simp only [cc0__npairs_kernel_eq_skeleton]; unfold cc0__npairs_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsRunB.lean ====
/-
  The body's run at a point of a middle column tile: the tile is folded into the accumulators; the output window is left as found.
-/
import proofs.«147969_j19104014532689_1_alg».proof.Proof.BitsSetting

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the five accumulators, as pieces, with the proof that from
    whole memrefs holding the inputs' blocks the body runs to the continuation holding the inputs as they were and each
    written buffer with its pieces written. -/
noncomputable def kernelRun0_B (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i)
    (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    Σ' (L8 : List (View.Piece (Elt F) S256x5 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi8 : Vec F S256x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__npairs_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, fun xi8 E K => ?run⟩
  case run =>
    simp only [cc0__npairs_kernel_eq_skeleton]; unfold cc0__npairs_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3; obtain rfl := harg15.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsRunC.lean ====
/-
  The body's run at a point of the last column tile: the tile is folded into the accumulators, which are then copied into the five columns of the output block.
-/
import proofs.«147969_j19104014532689_1_alg».proof.Proof.BitsSetting

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the five accumulators, as pieces, with the proof that from
    whole memrefs holding the inputs' blocks the body runs to the continuation holding the inputs as they were and each
    written buffer with its pieces written. -/
noncomputable def kernelRun0_C (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i)
    (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    Σ' (L8 : List (View.Piece (Elt F) S256x5 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__npairs_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__npairs_kernel_eq_skeleton]; unfold cc0__npairs_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2; obtain rfl := harg14.eq_unread hfs3; obtain rfl := harg15.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsFrame.lean ====
/-
  The frame of the kernel's program: what the output block and the five accumulators hold after every grid point, by
  recursion on the point (the first column tile resets the accumulators, every tile folds itself in, the last column tile
  copies them to the output block); the body's obligation at every point; how the one array read through two windows is
  dealt to them in halves and gathered again; and the run of @main, from which the frame claim is read.
-/
import proofs.«147969_j19104014532689_1_alg».proof.Proof.BitsRunA
import proofs.«147969_j19104014532689_1_alg».proof.Proof.BitsRunB
import proofs.«147969_j19104014532689_1_alg».proof.Proof.BitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for accumulator 0 cover it. -/
theorem scover0_A_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1 S256x1.size (by sl_kernel_rfl) y
/-- What case A leaves in accumulator 0. -/
def sout0_A_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1)
/-- Case A's pieces for accumulator 1 cover it. -/
theorem scover0_A_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1 S256x1.size (by sl_kernel_rfl) y
/-- What case A leaves in accumulator 1. -/
def sout0_A_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1)
/-- Case A's pieces for accumulator 2 cover it. -/
theorem scover0_A_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1 S256x1.size (by sl_kernel_rfl) y
/-- What case A leaves in accumulator 2. -/
def sout0_A_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1)
/-- Case A's pieces for accumulator 3 cover it. -/
theorem scover0_A_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1 S256x1.size (by sl_kernel_rfl) y
/-- What case A leaves in accumulator 3. -/
def sout0_A_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1)
/-- Case A's pieces for accumulator 4 cover it. -/
theorem scover0_A_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1 S256x1.size (by sl_kernel_rfl) y
/-- What case A leaves in accumulator 4. -/
def sout0_A_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1)
/-- Case B's pieces for accumulator 0 cover it. -/
theorem scover0_B_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1 S256x1.size (by sl_kernel_rfl) y
/-- What case B leaves in accumulator 0. -/
def sout0_B_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1)
/-- Case B's pieces for accumulator 1 cover it. -/
theorem scover0_B_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1 S256x1.size (by sl_kernel_rfl) y
/-- What case B leaves in accumulator 1. -/
def sout0_B_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1)
/-- Case B's pieces for accumulator 2 cover it. -/
theorem scover0_B_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1 S256x1.size (by sl_kernel_rfl) y
/-- What case B leaves in accumulator 2. -/
def sout0_B_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1)
/-- Case B's pieces for accumulator 3 cover it. -/
theorem scover0_B_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1 S256x1.size (by sl_kernel_rfl) y
/-- What case B leaves in accumulator 3. -/
def sout0_B_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1)
/-- Case B's pieces for accumulator 4 cover it. -/
theorem scover0_B_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1 S256x1.size (by sl_kernel_rfl) y
/-- What case B leaves in accumulator 4. -/
def sout0_B_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1)
/-- Case C's pieces for accumulator 0 cover it. -/
theorem scover0_C_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1 S256x1.size (by sl_kernel_rfl) y
/-- What case C leaves in accumulator 0. -/
def sout0_C_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1)
/-- Case C's pieces for accumulator 1 cover it. -/
theorem scover0_C_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1 S256x1.size (by sl_kernel_rfl) y
/-- What case C leaves in accumulator 1. -/
def sout0_C_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1)
/-- Case C's pieces for accumulator 2 cover it. -/
theorem scover0_C_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1 S256x1.size (by sl_kernel_rfl) y
/-- What case C leaves in accumulator 2. -/
def sout0_C_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1)
/-- Case C's pieces for accumulator 3 cover it. -/
theorem scover0_C_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1 S256x1.size (by sl_kernel_rfl) y
/-- What case C leaves in accumulator 3. -/
def sout0_C_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1)
/-- Case C's pieces for accumulator 4 cover it. -/
theorem scover0_C_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1 S256x1.size (by sl_kernel_rfl) y
/-- What case C leaves in accumulator 4. -/
def sout0_C_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1)
/-- Case C's five column pieces tile the output block. -/
theorem cover0_C_8 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x5.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).1 S256x1.size (by sl_kernel_rfl) y
/-- What case C leaves in the output block. -/
def out0_C_8 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x5 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).1)

/-! ## Point by point -/

/-- The output block and the five accumulators. -/
abbrev Outs (F : FTy → Type) [FloatOps F] : Type := Vec F S256x5 .f32 × Vec F S256x1 .f32 × Vec F S256x1 .f32 × Vec F S256x1 .f32 × Vec F S256x1 .f32 × Vec F S256x1 .f32

theorem not7_of_0 {n : ℕ} (h : n % 8 = 0) : ¬ n % 8 = 7 := by omega

/-- After a point of the first column tile (the output block is idle there: a placeholder nothing consults). -/
def stepA (c : Dev nD) (t : Fin cfg0.N) (h0 : t.val % 8 = 0) : Outs F :=
  (VO0_8.read (Elt F) VO0_8.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t))
/-- After a point of a middle column tile, over what the point before left. -/
def stepB (c : Dev nD) (t : Fin cfg0.N) (h0 : ¬t.val % 8 = 0) (h1 : ¬t.val % 8 = 7) (p : Outs F) : Outs F :=
  (VO0_8.read (Elt F) VO0_8.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2)
/-- After a point of the last column tile, over what the point before left. -/
def stepC (c : Dev nD) (t : Fin cfg0.N) (h0 : ¬t.val % 8 = 0) (h1 : t.val % 8 = 7) (p : Outs F) : Outs F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2)

/-- What the output block and the accumulators hold after the body at position n. -/
def outsAt0 (c : Dev nD) : (n : ℕ) → n < cfg0.N → Outs F
  | 0, hn => stepA m c ⟨0, hn⟩ (Nat.zero_mod 8)
  | n + 1, hn =>
    if h0 : (n + 1) % 8 = 0 then stepA m c ⟨n + 1, hn⟩ h0
    else if h1 : (n + 1) % 8 = 7 then stepC m c ⟨n + 1, hn⟩ h0 h1 (outsAt0 c n (Nat.lt_of_succ_lt hn))
    else stepB m c ⟨n + 1, hn⟩ h0 h1 (outsAt0 c n (Nat.lt_of_succ_lt hn))

theorem outsAt0_A (c : Dev nD) (t : Fin cfg0.N) (h0 : t.val % 8 = 0) : outsAt0 m c t.val t.isLt = stepA m c t h0 := by
  obtain ⟨n, hn⟩ := t
  cases n with
  | zero => rfl
  | succ n => exact dif_pos h0
theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The region invariant before position n: before the first point the accumulators hold anything; afterwards what the
    point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The proof data -/

/-- The arrays as the region finds them; each input's buffer at its block, the output's at the recursion's first
    component; the invariant above; the row array read through windows 0 and 1 held by them in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at any point: the inputs' buffers hold their blocks; the point's column tile says which case it is in; the
    invariant hands the body the accumulators at what the point before left (anything, at a first column tile) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · have h1 : ¬t.val % 8 = 7 := not7_of_0 h0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8 t (fun h => h1 ((hcond0_1 t).mp h))) (noFlush0_8 t (fun h => h1 ((hcond0_1 t).mp h)))]
    rw [outsAt0_A m c t h0]
    unfold stepA sout0_A_0 sout0_A_1 sout0_A_2 sout0_A_3 sout0_A_4; (try dsimp only)
    by_cases hz : t.val = 0
    · rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_A_0 _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_A_4 _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, H8, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_A_0 _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_A_4 _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [outsAt0_C m c t h0 h1]
      unfold stepC out0_C_8 sout0_C_0 sout0_C_1 sout0_C_2 sout0_C_3 sout0_C_4; (try dsimp only)
      have hz : t.val ≠ 0 := fun hz => h0 (by rw [hz])
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_C_0 _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_C_2 _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_C_3 _ _ _ _ _ _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_C_4 _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_B m c t h0 h1]
      unfold stepB sout0_B_0 sout0_B_1 sout0_B_2 sout0_B_3 sout0_B_4; (try dsimp only)
      have hz : t.val ≠ 0 := fun hz => h0 (by rw [hz])
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_B_0 _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_B_2 _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_B_3 _ _ _ _ _ _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_B_4 _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.BitsMain.lean ====
/-
  The run of @main. The row array is read through two windows: at the region's entry its one buffer is dealt to them in
  halves, at the exit the halves are gathered; the lines after the region then run from the exit contents (every array at
  what the write-backs left, every other buffer as the region found it), and every execution ends with the arrays at
  those contents and every other buffer at what the lines after the region computed.
-/
import proofs.«147969_j19104014532689_1_alg».proof.Proof.BitsFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the nine windows' arrays. -/
theorem arr_image : Finset.univ.image (Pipeline.arrRef spec0) = [main_v0, main_v9, main_v10, main_v11, main_v12, main_v13, main_v14, main_v15].toFinset := by decide

set_option maxHeartbeats 4000000 in
/-- The buffers behind the arrays, whole at contents G, are the windows' arrays at those contents: the row array's
    buffer in two halves, one per window that reads it. -/
theorem arrays_iff (c : Dev nD) (G : (b : Ref sig .tc) → Buf (Elt F) ((c : Thread nD τ).loc b))
    (Fw : (w : Fin cfg0.W) → Buf (Elt F) ((cfg0.win w).arr.view.loc (c.tc : Thread nD τ)))
    (hF : ∀ w, Fw w = G (Pipeline.arrRef spec0 w)) :
    (Pipeline.arrBufs spec0 c G : sProp 𝕄) ⊣⊢ (dats m 0 c).arrays Fw := by
  unfold Pipeline.arrBufs Dat.arrays
  rw [bigSep_W0, Idealize.SL.BI.bigSep_eq_bigSepL_of_eq _ arr_image (by decide)]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  have e7 : (cfg0.win 7).arr.view.set = Finset.univ := (arr_whole0 7).set_eq_univ
  have e8 : (cfg0.win 8).arr.view.set = Finset.univ := (arr_whole0 8).set_eq_univ
  have h0 : ((cfg0.win 0).arr.view.loc (c.tc : Thread nD τ) ↦[(cfg0.win 0).arr.view.set]{(dats m 0 c).share 0} Fw 0 : sProp 𝕄)
      = ((c.tc : Thread nD τ).loc main_v0 ↦{fullShare.left} G main_v0) := by
    rw [e0, hF 0]; rfl
  have h1 : ((cfg0.win 1).arr.view.loc (c.tc : Thread nD τ) ↦[(cfg0.win 1).arr.view.set]{(dats m 0 c).share 1} Fw 1 : sProp 𝕄)
      = ((c.tc : Thread nD τ).loc main_v0 ↦{fullShare.right} G main_v0) := by
    rw [e1, hF 1]; rfl
  have h2 : ((cfg0.win 2).arr.view.loc (c.tc : Thread nD τ) ↦[(cfg0.win 2).arr.view.set]{(dats m 0 c).share 2} Fw 2 : sProp 𝕄)
      = ((c.tc : Thread nD τ).loc main_v9 ↦{fullShare} G main_v9) := by
    rw [e2, hF 2]; rfl
  have h3 : ((cfg0.win 3).arr.view.loc (c.tc : Thread nD τ) ↦[(cfg0.win 3).arr.view.set]{(dats m 0 c).share 3} Fw 3 : sProp 𝕄)
      = ((c.tc : Thread nD τ).loc main_v10 ↦{fullShare} G main_v10) := by
    rw [e3, hF 3]; rfl
  have h4 : ((cfg0.win 4).arr.view.loc (c.tc : Thread nD τ) ↦[(cfg0.win 4).arr.view.set]{(dats m 0 c).share 4} Fw 4 : sProp 𝕄)
      = ((c.tc : Thread nD τ).loc main_v11 ↦{fullShare} G main_v11) := by
    rw [e4, hF 4]; rfl
  have h5 : ((cfg0.win 5).arr.view.loc (c.tc : Thread nD τ) ↦[(cfg0.win 5).arr.view.set]{(dats m 0 c).share 5} Fw 5 : sProp 𝕄)
      = ((c.tc : Thread nD τ).loc main_v12 ↦{fullShare} G main_v12) := by
    rw [e5, hF 5]; rfl
  have h6 : ((cfg0.win 6).arr.view.loc (c.tc : Thread nD τ) ↦[(cfg0.win 6).arr.view.set]{(dats m 0 c).share 6} Fw 6 : sProp 𝕄)
      = ((c.tc : Thread nD τ).loc main_v13 ↦{fullShare} G main_v13) := by
    rw [e6, hF 6]; rfl
  have h7 : ((cfg0.win 7).arr.view.loc (c.tc : Thread nD τ) ↦[(cfg0.win 7).arr.view.set]{(dats m 0 c).share 7} Fw 7 : sProp 𝕄)
      = ((c.tc : Thread nD τ).loc main_v14 ↦{fullShare} G main_v14) := by
    rw [e7, hF 7]; rfl
  have h8 : ((cfg0.win 8).arr.view.loc (c.tc : Thread nD τ) ↦[(cfg0.win 8).arr.view.set]{(dats m 0 c).share 8} Fw 8 : sProp 𝕄)
      = ((c.tc : Thread nD τ).loc main_v15 ↦{fullShare} G main_v15) := by
    rw [e8, hF 8]; rfl
  rw [h0, h1, h2, h3, h4, h5, h6, h7, h8]
  simp only [Idealize.SL.BI.bigSepL]
  show (iprop(((c.tc : Thread nD τ).loc main_v0 ↦{fullShare} G main_v0) ∗ ((c.tc : Thread nD τ).loc main_v9 ↦{fullShare} G main_v9) ∗ ((c.tc : Thread nD τ).loc main_v10 ↦{fullShare} G main_v10) ∗ ((c.tc : Thread nD τ).loc main_v11 ↦{fullShare} G main_v11) ∗ ((c.tc : Thread nD τ).loc main_v12 ↦{fullShare} G main_v12) ∗ ((c.tc : Thread nD τ).loc main_v13 ↦{fullShare} G main_v13) ∗ ((c.tc : Thread nD τ).loc main_v14 ↦{fullShare} G main_v14) ∗ ((c.tc : Thread nD τ).loc main_v15 ↦{fullShare} G main_v15)) : sProp 𝕄) ⊣⊢ _
  constructor
  · iintro ⟨H0, H9, H10, H11, H12, H13, H14, H15⟩
    ihave H0' := (pointsTo_share (PosShare.mem_left_op_right fullShare)).1 $$ H0
    icases H0' with ⟨Hl, Hr⟩
    isplitl [Hl]; · iexact Hl
    isplitl [Hr]; · iexact Hr
    isplitl [H9]; · iexact H9
    isplitl [H10]; · iexact H10
    isplitl [H11]; · iexact H11
    isplitl [H12]; · iexact H12
    isplitl [H13]; · iexact H13
    isplitl [H14]; · iexact H14
    iexact H15
  · iintro ⟨Hl, Hr, H9, H10, H11, H12, H13, H14, H15⟩
    isplitl [Hl Hr]
    · iapply (pointsTo_share (PosShare.mem_left_op_right fullShare)).2
      isplitl [Hl]; · iexact Hl
      iexact Hr
    isplitl [H9]; · iexact H9
    isplitl [H10]; · iexact H10
    isplitl [H11]; · iexact H11
    isplitl [H12]; · iexact H12
    isplitl [H13]; · iexact H13
    isplitl [H14]; · iexact H14
    iexact H15

/-- The exit contents: the output array at what the write-backs left, every other buffer as the region found it. -/
def VN (c : Dev nD) : Valuation τ sig (Elt F) :=
  Function.update (V0 m c) (Proc.devRef .tc main_v15) ((dats m 0 c).arrAt 8 cfg0.N)

/-- A buffer that is no window's array is as the region found it. -/
theorem hVN (c : Dev nD) : ∀ b ∈ Pipeline.restRefs sig spec0, VN m c (Proc.devRef .tc b) = V0 m c (Proc.devRef .tc b) := by
  intro b hb
  unfold VN
  have hb' : b ∉ Finset.univ.image (Pipeline.arrRef spec0) := (Finset.mem_sdiff.mp hb).2
  have hne : Proc.devRef (τ := τ) .tc b ≠ Proc.devRef .tc main_v15 := fun e =>
    hb' (Finset.mem_image.mpr ⟨8, Finset.mem_univ _, (Proc.devRef_injective _ e).symm⟩)
  exact Function.update_of_ne hne _ _

/-- Every window's array after the last point is the exit contents of its buffer: an input array is never written. -/
theorem arrAtN_eq (c : Dev nD) (w : Fin cfg0.W) :
    (dats m 0 c).arrAt w cfg0.N = VN m c (Proc.devRef .tc (Pipeline.arrRef spec0 w)) := by
  match w with
  | ⟨0, _⟩ => exact ((dats m 0 c).arrAt_in 0 rfl _).trans ((A_eq m c 0).trans (Function.update_of_ne (StableHlo.devRef_ne_of_ne (by decide)) _ _).symm)
  | ⟨1, _⟩ => exact ((dats m 0 c).arrAt_in 1 rfl _).trans ((A_eq m c 1).trans (Function.update_of_ne (StableHlo.devRef_ne_of_ne (by decide)) _ _).symm)
  | ⟨2, _⟩ => exact ((dats m 0 c).arrAt_in 2 rfl _).trans ((A_eq m c 2).trans (Function.update_of_ne (StableHlo.devRef_ne_of_ne (by decide)) _ _).symm)
  | ⟨3, _⟩ => exact ((dats m 0 c).arrAt_in 3 rfl _).trans ((A_eq m c 3).trans (Function.update_of_ne (StableHlo.devRef_ne_of_ne (by decide)) _ _).symm)
  | ⟨4, _⟩ => exact ((dats m 0 c).arrAt_in 4 rfl _).trans ((A_eq m c 4).trans (Function.update_of_ne (StableHlo.devRef_ne_of_ne (by decide)) _ _).symm)
  | ⟨5, _⟩ => exact ((dats m 0 c).arrAt_in 5 rfl _).trans ((A_eq m c 5).trans (Function.update_of_ne (StableHlo.devRef_ne_of_ne (by decide)) _ _).symm)
  | ⟨6, _⟩ => exact ((dats m 0 c).arrAt_in 6 rfl _).trans ((A_eq m c 6).trans (Function.update_of_ne (StableHlo.devRef_ne_of_ne (by decide)) _ _).symm)
  | ⟨7, _⟩ => exact ((dats m 0 c).arrAt_in 7 rfl _).trans ((A_eq m c 7).trans (Function.update_of_ne (StableHlo.devRef_ne_of_ne (by decide)) _ _).symm)
  | ⟨8, _⟩ => exact (show VN m c (Proc.devRef .tc main_v15) = (dats m 0 c).arrAt 8 cfg0.N from Function.update_self (Proc.devRef (τ := τ) .tc main_v15) _ (V0 m c)).symm

/-- At the region's entry the buffers behind the arrays are dealt to the windows. -/
theorem hsplit (c : Dev nD) : (Pipeline.arrBufs spec0 c (fun b => V0 m c (Proc.devRef .tc b)) : sProp 𝕄) ⊢ (dats m 0 c).arrays ((dats m 0 c).arrAt · 0) :=
  (arrays_iff m c _ _ (fun w => (show (dats m 0 c).arrAt w 0 = (dats m 0 c).A w from rfl).trans (A_eq m c w))).1
/-- At its exit the windows' shares are gathered into the buffers, each whole at the exit contents, -/
theorem hjoin (c : Dev nD) : (dats m 0 c).arrays ((dats m 0 c).arrAt · cfg0.N) ⊢ (Pipeline.arrBufs spec0 c (fun b => VN m c (Proc.devRef .tc b)) : sProp 𝕄) :=
  (arrays_iff m c _ _ (arrAtN_eq m c)).2
/-- and dealt back once the lines after the region have run. -/
theorem hsplitN (c : Dev nD) : (Pipeline.arrBufs spec0 c (fun b => VN m c (Proc.devRef .tc b)) : sProp 𝕄) ⊢ (dats m 0 c).arrays ((dats m 0 c).arrAt · cfg0.N) :=
  (arrays_iff m c _ _ (arrAtN_eq m c)).1

set_option backward.isDefEq.respectTransparency.types false in
/-- Every weakly fair execution of @main terminates; every final state has every array of the region at what the
    write-backs left and every other unscoped buffer at what the lines after the region computed from the exit contents. -/
theorem run_main : θ_run defs (onTc (τ := τ) (main (F := F))) (s₀ m ρ)
    (Pipeline.FramePost cfgs (dats m) 0 (fun c b => StableHlo.after (tail (F := F)).flatten (VN m c) (Proc.devRef .tc b))) :=
  Pipeline.θ_run_frame_around_track_shared cfgs (dats m) (0 : Fin 1) cellOf_inj winFacts₀0 block_pos0 arr_whole0 stage_whole0 defs₀ Variants.none m ρ main
    (hbody := fun c => (body_obligation m c).loose) (howed := fun _ _ => rfl) (V₀ := V0 m) (opss := tail)
    (hsub := sfx_sub) (hfresh := sfx_fresh) (hkeep := sfx_keeps) (hmain := hmain m Variants.none)
    (hsplit := hsplit m) (VN := VN m) (hVN := hVN m) (hjoin := hjoin m) (hsplitN := hsplitN m) (hin := hin m) (hout := hout m)

/-- No line after the region writes an argument. -/
theorem tail_arg0 (W : Valuation τ sig (Elt F)) : StableHlo.after (tail (F := F)).flatten W (Proc.devRef .tc main_arg0) = W (Proc.devRef .tc main_arg0) :=
  StableHlo.after_of_forall_not_mem (b := Proc.devRef .tc main_arg0) _ _ (List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem tail_arg1 (W : Valuation τ sig (Elt F)) : StableHlo.after (tail (F := F)).flatten W (Proc.devRef .tc main_arg1) = W (Proc.devRef .tc main_arg1) :=
  StableHlo.after_of_forall_not_mem (b := Proc.devRef .tc main_arg1) _ _ (List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

theorem restRef_arg0 : main_arg0 ∈ Pipeline.restRefs sig spec0 := Pipeline.mem_restRefs_of _ (by decide) (by decide)
theorem restRef_arg1 : main_arg1 ∈ Pipeline.restRefs sig spec0 := Pipeline.mem_restRefs_of _ (by decide) (by decide)
theorem restRef_v45 : main_v45 ∈ Pipeline.restRefs sig spec0 := Pipeline.mem_restRefs_of _ (by decide) (by decide)

/-- An argument's buffer ends as launched: no line writes it, before or after the region, and the region does not stage it. -/
theorem end_arg0 (c : Dev nD) : StableHlo.after (tail (F := F)).flatten (VN m c) (Proc.devRef .tc main_arg0) = m ((c : Thread nD τ).loc main_arg0) :=
  (tail_arg0 _).trans ((hVN m c main_arg0 restRef_arg0).trans (V_main_arg0 m c))
theorem end_arg1 (c : Dev nD) : StableHlo.after (tail (F := F)).flatten (VN m c) (Proc.devRef .tc main_arg1) = m ((c : Thread nD τ).loc main_arg1) :=
  (tail_arg1 _).trans ((hVN m c main_arg1 restRef_arg1).trans (V_main_arg1 m c))

/-- THE FRAME: @main runs to the end and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 restRef_arg0).trans (end_arg0 m c), ((h c).2 main_arg1 restRef_arg1).trans (end_arg1 m c)⟩) (run_main m ρ)

end Cert.Kernel.Hand

end
-- ==== Proof.IdealSetting.lean ====
/-
  The setting of the kernel's run: the host lines around the one region, the contents the region finds, the blocks its
  windows read, where the body's two conditions hold over the 32 x 8 grid (the first column tile, the last column
  tile), and where the output window is idle.
-/
import proofs.«147969_j19104014532689_1_alg».proof.Proof.Gen.KernelIdeal.Launch
import proofs.«147969_j19104014532689_1_alg».proof.Proof.Gen.KernelIdeal.Skeleton
import proofs.«147969_j19104014532689_1_alg».proof.Proof.Gen.KernelIdeal.Points
import proofs.«147969_j19104014532689_1_alg».proof.Proof.LibFrameSharedAround
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents when the region is entered: after the sixteen host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host lines after the region, stretch by stretch. -/
abbrev tail : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- No window's array is a scoped buffer. -/
theorem arr_unscoped0 : ∀ w, (Pipeline.arrRef spec0 w).isScoped = false := winFacts₀0.arr_unscoped

/-- The lines after the region touch unscoped buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 arr_unscoped0]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
set_option maxHeartbeats 8000000 in
/-- And write no array of the region: each writes its own result buffer only. -/
theorem sfx_keeps : ∀ ops ∈ (tail : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_2, List.mem_cons, List.mem_nil_iff, or_false] at hop
    rcases hop with rfl | rfl | rfl | rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)
  · simp only [hostOps1_6, List.mem_cons, List.mem_nil_iff, or_false] at hop
    rcases hop with rfl | rfl | rfl | rfl | rfl
    all_goals intro w; fin_cases w <;> simp only [StableHlo.TRef.nullary, StableHlo.TRef.unary, StableHlo.TRef.binary, StableHlo.nullary_writes, StableHlo.unary_writes, StableHlo.binary_writes, StableHlo.reshape_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: the point is in the first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second condition: the point is in the last column tile. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Off the last column tile the output window is idle and not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- On the last column tile it is live. -/
theorem liveAt0_8 : ∀ t : Fin cfg0.N, cond0_1 (grid0.coords t) → cfg0.idle 8 (grid0.coords t) = false := by decide +kernel

/-! ## The memrefs the body is called with -/

/-- One staging buffer of the output window, through which its contents are stated. -/
abbrev VO0_8 : View sig .tc .vmem S256x5 .f32 := (Memref.whole cc0_stg8_0 : Memref sig .tc .vmem S256x5 .f32).view
abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5 .f32 := win0_8.stage (cfg0.slots t 8)
abbrev hs0_8 (t : Fin cfg0.N) : (ms0_8 t).IsWhole := hstage0_8 ((cfg0.slots t 8).cast nbuf0_8)
/-- Accumulator 0: a whole scoped buffer of the kernel's own. -/
abbrev scM0_0 : Memref sig .tc .vmem S256x1 .f32 := Memref.whole cc0_scratch0
abbrev VS0_0 : View sig .tc .vmem S256x1 .f32 := scM0_0.view
/-- Accumulator 1: a whole scoped buffer of the kernel's own. -/
abbrev scM0_1 : Memref sig .tc .vmem S256x1 .f32 := Memref.whole cc0_scratch1
abbrev VS0_1 : View sig .tc .vmem S256x1 .f32 := scM0_1.view
/-- Accumulator 2: a whole scoped buffer of the kernel's own. -/
abbrev scM0_2 : Memref sig .tc .vmem S256x1 .f32 := Memref.whole cc0_scratch2
abbrev VS0_2 : View sig .tc .vmem S256x1 .f32 := scM0_2.view
/-- Accumulator 3: a whole scoped buffer of the kernel's own. -/
abbrev scM0_3 : Memref sig .tc .vmem S256x1 .f32 := Memref.whole cc0_scratch3
abbrev VS0_3 : View sig .tc .vmem S256x1 .f32 := scM0_3.view
/-- Accumulator 4: a whole scoped buffer of the kernel's own. -/
abbrev scM0_4 : Memref sig .tc .vmem S256x1 .f32 := Memref.whole cc0_scratch4
abbrev VS0_4 : View sig .tc .vmem S256x1 .f32 := scM0_4.view

/-- The class invariant with the five accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.IdealRunA.lean ====
/-
  The body's run at a point of the first column tile: the accumulators are reset to the neutral literals before the tile is folded in; the output window is left as found.
-/
import proofs.«147969_j19104014532689_1_alg».proof.Proof.IdealSetting

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the five accumulators, as pieces, with the proof that from
    whole memrefs holding the inputs' blocks the body runs to the continuation holding the inputs as they were and each
    written buffer with its pieces written. -/
noncomputable def kernelRun0_A (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i)
    (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    Σ' (L8 : List (View.Piece (Elt F) S256x5 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi8 : Vec F S256x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__npairs_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, fun xi8 E K => ?run⟩
  case run =>
    simp only [cc0__npairs_kernel_eq_skeleton]; unfold cc0__npairs_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.IdealRunB.lean ====
/-
  The body's run at a point of a middle column tile: the tile is folded into the accumulators; the output window is left as found.
-/
import proofs.«147969_j19104014532689_1_alg».proof.Proof.IdealSetting

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the five accumulators, as pieces, with the proof that from
    whole memrefs holding the inputs' blocks the body runs to the continuation holding the inputs as they were and each
    written buffer with its pieces written. -/
noncomputable def kernelRun0_B (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i)
    (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    Σ' (L8 : List (View.Piece (Elt F) S256x5 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (xi8 : Vec F S256x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__npairs_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, fun xi8 E K => ?run⟩
  case run =>
    simp only [cc0__npairs_kernel_eq_skeleton]; unfold cc0__npairs_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3; obtain rfl := harg15.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.IdealRunC.lean ====
/-
  The body's run at a point of the last column tile: the tile is folded into the accumulators, which are then copied into the five columns of the output block.
-/
import proofs.«147969_j19104014532689_1_alg».proof.Proof.IdealSetting

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the five accumulators, as pieces, with the proof that from
    whole memrefs holding the inputs' blocks the body runs to the continuation holding the inputs as they were and each
    written buffer with its pieces written. -/
noncomputable def kernelRun0_C (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i)
    (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    Σ' (L8 : List (View.Piece (Elt F) S256x5 .f32)) (LS0 : List (View.Piece (Elt F) S256x1 .f32)) (LS1 : List (View.Piece (Elt F) S256x1 .f32)) (LS2 : List (View.Piece (Elt F) S256x1 .f32)) (LS3 : List (View.Piece (Elt F) S256x1 .f32)), { LS4 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4)) -∗ K ⟨⟩))
          ⊢ wp frame (wpE (defs₀ (F := F)) Variants.none c none) E (cc0__npairs_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__npairs_kernel_eq_skeleton]; unfold cc0__npairs_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2; obtain rfl := harg14.eq_unread hfs3; obtain rfl := harg15.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.IdealFrame.lean ====
/-
  The frame of the kernel's program: what the output block and the five accumulators hold after every grid point, by
  recursion on the point (the first column tile resets the accumulators, every tile folds itself in, the last column tile
  copies them to the output block); the body's obligation at every point; how the one array read through two windows is
  dealt to them in halves and gathered again; and the run of @main, from which the frame claim is read.
-/
import proofs.«147969_j19104014532689_1_alg».proof.Proof.IdealRunA
import proofs.«147969_j19104014532689_1_alg».proof.Proof.IdealRunB
import proofs.«147969_j19104014532689_1_alg».proof.Proof.IdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for accumulator 0 cover it. -/
theorem scover0_A_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1 S256x1.size (by sl_kernel_rfl) y
/-- What case A leaves in accumulator 0. -/
def sout0_A_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1)
/-- Case A's pieces for accumulator 1 cover it. -/
theorem scover0_A_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1 S256x1.size (by sl_kernel_rfl) y
/-- What case A leaves in accumulator 1. -/
def sout0_A_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1)
/-- Case A's pieces for accumulator 2 cover it. -/
theorem scover0_A_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1 S256x1.size (by sl_kernel_rfl) y
/-- What case A leaves in accumulator 2. -/
def sout0_A_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1)
/-- Case A's pieces for accumulator 3 cover it. -/
theorem scover0_A_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1 S256x1.size (by sl_kernel_rfl) y
/-- What case A leaves in accumulator 3. -/
def sout0_A_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1)
/-- Case A's pieces for accumulator 4 cover it. -/
theorem scover0_A_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1 S256x1.size (by sl_kernel_rfl) y
/-- What case A leaves in accumulator 4. -/
def sout0_A_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) : Vec F S256x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1)
/-- Case B's pieces for accumulator 0 cover it. -/
theorem scover0_B_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1 S256x1.size (by sl_kernel_rfl) y
/-- What case B leaves in accumulator 0. -/
def sout0_B_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1)
/-- Case B's pieces for accumulator 1 cover it. -/
theorem scover0_B_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1 S256x1.size (by sl_kernel_rfl) y
/-- What case B leaves in accumulator 1. -/
def sout0_B_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1)
/-- Case B's pieces for accumulator 2 cover it. -/
theorem scover0_B_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1 S256x1.size (by sl_kernel_rfl) y
/-- What case B leaves in accumulator 2. -/
def sout0_B_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1)
/-- Case B's pieces for accumulator 3 cover it. -/
theorem scover0_B_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1 S256x1.size (by sl_kernel_rfl) y
/-- What case B leaves in accumulator 3. -/
def sout0_B_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1)
/-- Case B's pieces for accumulator 4 cover it. -/
theorem scover0_B_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1 S256x1.size (by sl_kernel_rfl) y
/-- What case B leaves in accumulator 4. -/
def sout0_B_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1)
/-- Case C's pieces for accumulator 0 cover it. -/
theorem scover0_C_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1 S256x1.size (by sl_kernel_rfl) y
/-- What case C leaves in accumulator 0. -/
def sout0_C_0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.1)
/-- Case C's pieces for accumulator 1 cover it. -/
theorem scover0_C_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1 S256x1.size (by sl_kernel_rfl) y
/-- What case C leaves in accumulator 1. -/
def sout0_C_1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.1)
/-- Case C's pieces for accumulator 2 cover it. -/
theorem scover0_C_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1 S256x1.size (by sl_kernel_rfl) y
/-- What case C leaves in accumulator 2. -/
def sout0_C_2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.1)
/-- Case C's pieces for accumulator 3 cover it. -/
theorem scover0_C_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1 S256x1.size (by sl_kernel_rfl) y
/-- What case C leaves in accumulator 3. -/
def sout0_C_3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.1)
/-- Case C's pieces for accumulator 4 cover it. -/
theorem scover0_C_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1 S256x1.size (by sl_kernel_rfl) y
/-- What case C leaves in accumulator 4. -/
def sout0_C_4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).2.2.2.2.2.1)
/-- Case C's five column pieces tile the output block. -/
theorem cover0_C_8 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (y : S256x5.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).1 S256x1.size (by sl_kernel_rfl) y
/-- What case C leaves in the output block. -/
def out0_C_8 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) : Vec F S256x5 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4).1)

/-! ## Point by point -/

/-- The output block and the five accumulators. -/
abbrev Outs (F : FTy → Type) [FloatOps F] : Type := Vec F S256x5 .f32 × Vec F S256x1 .f32 × Vec F S256x1 .f32 × Vec F S256x1 .f32 × Vec F S256x1 .f32 × Vec F S256x1 .f32

theorem not7_of_0 {n : ℕ} (h : n % 8 = 0) : ¬ n % 8 = 7 := by omega

/-- After a point of the first column tile (the output block is idle there: a placeholder nothing consults). -/
def stepA (c : Dev nD) (t : Fin cfg0.N) (h0 : t.val % 8 = 0) : Outs F :=
  (VO0_8.read (Elt F) VO0_8.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t),
    sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t))
/-- After a point of a middle column tile, over what the point before left. -/
def stepB (c : Dev nD) (t : Fin cfg0.N) (h0 : ¬t.val % 8 = 0) (h1 : ¬t.val % 8 = 7) (p : Outs F) : Outs F :=
  (VO0_8.read (Elt F) VO0_8.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2)
/-- After a point of the last column tile, over what the point before left. -/
def stepC (c : Dev nD) (t : Fin cfg0.N) (h0 : ¬t.val % 8 = 0) (h1 : t.val % 8 = 7) (p : Outs F) : Outs F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2,
    sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) p.2.1 p.2.2.1 p.2.2.2.1 p.2.2.2.2.1 p.2.2.2.2.2)

/-- What the output block and the accumulators hold after the body at position n. -/
def outsAt0 (c : Dev nD) : (n : ℕ) → n < cfg0.N → Outs F
  | 0, hn => stepA m c ⟨0, hn⟩ (Nat.zero_mod 8)
  | n + 1, hn =>
    if h0 : (n + 1) % 8 = 0 then stepA m c ⟨n + 1, hn⟩ h0
    else if h1 : (n + 1) % 8 = 7 then stepC m c ⟨n + 1, hn⟩ h0 h1 (outsAt0 c n (Nat.lt_of_succ_lt hn))
    else stepB m c ⟨n + 1, hn⟩ h0 h1 (outsAt0 c n (Nat.lt_of_succ_lt hn))

theorem outsAt0_A (c : Dev nD) (t : Fin cfg0.N) (h0 : t.val % 8 = 0) : outsAt0 m c t.val t.isLt = stepA m c t h0 := by
  obtain ⟨n, hn⟩ := t
  cases n with
  | zero => rfl
  | succ n => exact dif_pos h0
theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The region invariant before position n: before the first point the accumulators hold anything; afterwards what the
    point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The proof data -/

/-- The arrays as the region finds them; each input's buffer at its block, the output's at the recursion's first
    component; the invariant above; the row array read through windows 0 and 1 held by them in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at any point: the inputs' buffers hold their blocks; the point's column tile says which case it is in; the
    invariant hands the body the accumulators at what the point before left (anything, at a first column tile) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · have h1 : ¬t.val % 8 = 7 := not7_of_0 h0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8 t (fun h => h1 ((hcond0_1 t).mp h))) (noFlush0_8 t (fun h => h1 ((hcond0_1 t).mp h)))]
    rw [outsAt0_A m c t h0]
    unfold stepA sout0_A_0 sout0_A_1 sout0_A_2 sout0_A_3 sout0_A_4; (try dsimp only)
    by_cases hz : t.val = 0
    · rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_A_0 _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_A_4 _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, H7, H8, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_A_0 _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_A_4 _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [outsAt0_C m c t h0 h1]
      unfold stepC out0_C_8 sout0_C_0 sout0_C_1 sout0_C_2 sout0_C_3 sout0_C_4; (try dsimp only)
      have hz : t.val ≠ 0 := fun hz => h0 (by rw [hz])
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_C_0 _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_C_2 _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_C_3 _ _ _ _ _ _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_C_4 _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_B m c t h0 h1]
      unfold stepB sout0_B_0 sout0_B_1 sout0_B_2 sout0_B_3 sout0_B_4; (try dsimp only)
      have hz : t.val ≠ 0 := fun hz => h0 (by rw [hz])
      rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        isplitl [HS0]
        · unfold owns; iexists _; isplitr
          swap; · iexact HS0
          ipureintro; exact View.read_writes_of_cover _ _ _ _ _ (scover0_B_0 _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_B_2 _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_B_3 _ _ _ _ _ _ _ _ _ _ _ _ _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_B_4 _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.IdealMain.lean ====
/-
  The run of @main. The row array is read through two windows: at the region's entry its one buffer is dealt to them in
  halves, at the exit the halves are gathered; the lines after the region then run from the exit contents (every array at
  what the write-backs left, every other buffer as the region found it), and every execution ends with the arrays at
  those contents and every other buffer at what the lines after the region computed.
-/
import proofs.«147969_j19104014532689_1_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the nine windows' arrays. -/
theorem arr_image : Finset.univ.image (Pipeline.arrRef spec0) = [main_v0, main_v9, main_v10, main_v11, main_v12, main_v13, main_v14, main_v15].toFinset := by decide

set_option maxHeartbeats 4000000 in
/-- The buffers behind the arrays, whole at contents G, are the windows' arrays at those contents: the row array's
    buffer in two halves, one per window that reads it. -/
theorem arrays_iff (c : Dev nD) (G : (b : Ref sig .tc) → Buf (Elt F) ((c : Thread nD τ).loc b))
    (Fw : (w : Fin cfg0.W) → Buf (Elt F) ((cfg0.win w).arr.view.loc (c.tc : Thread nD τ)))
    (hF : ∀ w, Fw w = G (Pipeline.arrRef spec0 w)) :
    (Pipeline.arrBufs spec0 c G : sProp 𝕄) ⊣⊢ (dats m 0 c).arrays Fw := by
  unfold Pipeline.arrBufs Dat.arrays
  rw [bigSep_W0, Idealize.SL.BI.bigSep_eq_bigSepL_of_eq _ arr_image (by decide)]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  have e7 : (cfg0.win 7).arr.view.set = Finset.univ := (arr_whole0 7).set_eq_univ
  have e8 : (cfg0.win 8).arr.view.set = Finset.univ := (arr_whole0 8).set_eq_univ
  have h0 : ((cfg0.win 0).arr.view.loc (c.tc : Thread nD τ) ↦[(cfg0.win 0).arr.view.set]{(dats m 0 c).share 0} Fw 0 : sProp 𝕄)
      = ((c.tc : Thread nD τ).loc main_v0 ↦{fullShare.left} G main_v0) := by
    rw [e0, hF 0]; rfl
  have h1 : ((cfg0.win 1).arr.view.loc (c.tc : Thread nD τ) ↦[(cfg0.win 1).arr.view.set]{(dats m 0 c).share 1} Fw 1 : sProp 𝕄)
      = ((c.tc : Thread nD τ).loc main_v0 ↦{fullShare.right} G main_v0) := by
    rw [e1, hF 1]; rfl
  have h2 : ((cfg0.win 2).arr.view.loc (c.tc : Thread nD τ) ↦[(cfg0.win 2).arr.view.set]{(dats m 0 c).share 2} Fw 2 : sProp 𝕄)
      = ((c.tc : Thread nD τ).loc main_v9 ↦{fullShare} G main_v9) := by
    rw [e2, hF 2]; rfl
  have h3 : ((cfg0.win 3).arr.view.loc (c.tc : Thread nD τ) ↦[(cfg0.win 3).arr.view.set]{(dats m 0 c).share 3} Fw 3 : sProp 𝕄)
      = ((c.tc : Thread nD τ).loc main_v10 ↦{fullShare} G main_v10) := by
    rw [e3, hF 3]; rfl
  have h4 : ((cfg0.win 4).arr.view.loc (c.tc : Thread nD τ) ↦[(cfg0.win 4).arr.view.set]{(dats m 0 c).share 4} Fw 4 : sProp 𝕄)
      = ((c.tc : Thread nD τ).loc main_v11 ↦{fullShare} G main_v11) := by
    rw [e4, hF 4]; rfl
  have h5 : ((cfg0.win 5).arr.view.loc (c.tc : Thread nD τ) ↦[(cfg0.win 5).arr.view.set]{(dats m 0 c).share 5} Fw 5 : sProp 𝕄)
      = ((c.tc : Thread nD τ).loc main_v12 ↦{fullShare} G main_v12) := by
    rw [e5, hF 5]; rfl
  have h6 : ((cfg0.win 6).arr.view.loc (c.tc : Thread nD τ) ↦[(cfg0.win 6).arr.view.set]{(dats m 0 c).share 6} Fw 6 : sProp 𝕄)
      = ((c.tc : Thread nD τ).loc main_v13 ↦{fullShare} G main_v13) := by
    rw [e6, hF 6]; rfl
  have h7 : ((cfg0.win 7).arr.view.loc (c.tc : Thread nD τ) ↦[(cfg0.win 7).arr.view.set]{(dats m 0 c).share 7} Fw 7 : sProp 𝕄)
      = ((c.tc : Thread nD τ).loc main_v14 ↦{fullShare} G main_v14) := by
    rw [e7, hF 7]; rfl
  have h8 : ((cfg0.win 8).arr.view.loc (c.tc : Thread nD τ) ↦[(cfg0.win 8).arr.view.set]{(dats m 0 c).share 8} Fw 8 : sProp 𝕄)
      = ((c.tc : Thread nD τ).loc main_v15 ↦{fullShare} G main_v15) := by
    rw [e8, hF 8]; rfl
  rw [h0, h1, h2, h3, h4, h5, h6, h7, h8]
  simp only [Idealize.SL.BI.bigSepL]
  show (iprop(((c.tc : Thread nD τ).loc main_v0 ↦{fullShare} G main_v0) ∗ ((c.tc : Thread nD τ).loc main_v9 ↦{fullShare} G main_v9) ∗ ((c.tc : Thread nD τ).loc main_v10 ↦{fullShare} G main_v10) ∗ ((c.tc : Thread nD τ).loc main_v11 ↦{fullShare} G main_v11) ∗ ((c.tc : Thread nD τ).loc main_v12 ↦{fullShare} G main_v12) ∗ ((c.tc : Thread nD τ).loc main_v13 ↦{fullShare} G main_v13) ∗ ((c.tc : Thread nD τ).loc main_v14 ↦{fullShare} G main_v14) ∗ ((c.tc : Thread nD τ).loc main_v15 ↦{fullShare} G main_v15)) : sProp 𝕄) ⊣⊢ _
  constructor
  · iintro ⟨H0, H9, H10, H11, H12, H13, H14, H15⟩
    ihave H0' := (pointsTo_share (PosShare.mem_left_op_right fullShare)).1 $$ H0
    icases H0' with ⟨Hl, Hr⟩
    isplitl [Hl]; · iexact Hl
    isplitl [Hr]; · iexact Hr
    isplitl [H9]; · iexact H9
    isplitl [H10]; · iexact H10
    isplitl [H11]; · iexact H11
    isplitl [H12]; · iexact H12
    isplitl [H13]; · iexact H13
    isplitl [H14]; · iexact H14
    iexact H15
  · iintro ⟨Hl, Hr, H9, H10, H11, H12, H13, H14, H15⟩
    isplitl [Hl Hr]
    · iapply (pointsTo_share (PosShare.mem_left_op_right fullShare)).2
      isplitl [Hl]; · iexact Hl
      iexact Hr
    isplitl [H9]; · iexact H9
    isplitl [H10]; · iexact H10
    isplitl [H11]; · iexact H11
    isplitl [H12]; · iexact H12
    isplitl [H13]; · iexact H13
    isplitl [H14]; · iexact H14
    iexact H15

/-- The exit contents: the output array at what the write-backs left, every other buffer as the region found it. -/
def VN (c : Dev nD) : Valuation τ sig (Elt F) :=
  Function.update (V0 m c) (Proc.devRef .tc main_v15) ((dats m 0 c).arrAt 8 cfg0.N)

/-- A buffer that is no window's array is as the region found it. -/
theorem hVN (c : Dev nD) : ∀ b ∈ Pipeline.restRefs sig spec0, VN m c (Proc.devRef .tc b) = V0 m c (Proc.devRef .tc b) := by
  intro b hb
  unfold VN
  have hb' : b ∉ Finset.univ.image (Pipeline.arrRef spec0) := (Finset.mem_sdiff.mp hb).2
  have hne : Proc.devRef (τ := τ) .tc b ≠ Proc.devRef .tc main_v15 := fun e =>
    hb' (Finset.mem_image.mpr ⟨8, Finset.mem_univ _, (Proc.devRef_injective _ e).symm⟩)
  exact Function.update_of_ne hne _ _

/-- Every window's array after the last point is the exit contents of its buffer: an input array is never written. -/
theorem arrAtN_eq (c : Dev nD) (w : Fin cfg0.W) :
    (dats m 0 c).arrAt w cfg0.N = VN m c (Proc.devRef .tc (Pipeline.arrRef spec0 w)) := by
  match w with
  | ⟨0, _⟩ => exact ((dats m 0 c).arrAt_in 0 rfl _).trans ((A_eq m c 0).trans (Function.update_of_ne (StableHlo.devRef_ne_of_ne (by decide)) _ _).symm)
  | ⟨1, _⟩ => exact ((dats m 0 c).arrAt_in 1 rfl _).trans ((A_eq m c 1).trans (Function.update_of_ne (StableHlo.devRef_ne_of_ne (by decide)) _ _).symm)
  | ⟨2, _⟩ => exact ((dats m 0 c).arrAt_in 2 rfl _).trans ((A_eq m c 2).trans (Function.update_of_ne (StableHlo.devRef_ne_of_ne (by decide)) _ _).symm)
  | ⟨3, _⟩ => exact ((dats m 0 c).arrAt_in 3 rfl _).trans ((A_eq m c 3).trans (Function.update_of_ne (StableHlo.devRef_ne_of_ne (by decide)) _ _).symm)
  | ⟨4, _⟩ => exact ((dats m 0 c).arrAt_in 4 rfl _).trans ((A_eq m c 4).trans (Function.update_of_ne (StableHlo.devRef_ne_of_ne (by decide)) _ _).symm)
  | ⟨5, _⟩ => exact ((dats m 0 c).arrAt_in 5 rfl _).trans ((A_eq m c 5).trans (Function.update_of_ne (StableHlo.devRef_ne_of_ne (by decide)) _ _).symm)
  | ⟨6, _⟩ => exact ((dats m 0 c).arrAt_in 6 rfl _).trans ((A_eq m c 6).trans (Function.update_of_ne (StableHlo.devRef_ne_of_ne (by decide)) _ _).symm)
  | ⟨7, _⟩ => exact ((dats m 0 c).arrAt_in 7 rfl _).trans ((A_eq m c 7).trans (Function.update_of_ne (StableHlo.devRef_ne_of_ne (by decide)) _ _).symm)
  | ⟨8, _⟩ => exact (show VN m c (Proc.devRef .tc main_v15) = (dats m 0 c).arrAt 8 cfg0.N from Function.update_self (Proc.devRef (τ := τ) .tc main_v15) _ (V0 m c)).symm

/-- At the region's entry the buffers behind the arrays are dealt to the windows. -/
theorem hsplit (c : Dev nD) : (Pipeline.arrBufs spec0 c (fun b => V0 m c (Proc.devRef .tc b)) : sProp 𝕄) ⊢ (dats m 0 c).arrays ((dats m 0 c).arrAt · 0) :=
  (arrays_iff m c _ _ (fun w => (show (dats m 0 c).arrAt w 0 = (dats m 0 c).A w from rfl).trans (A_eq m c w))).1
/-- At its exit the windows' shares are gathered into the buffers, each whole at the exit contents, -/
theorem hjoin (c : Dev nD) : (dats m 0 c).arrays ((dats m 0 c).arrAt · cfg0.N) ⊢ (Pipeline.arrBufs spec0 c (fun b => VN m c (Proc.devRef .tc b)) : sProp 𝕄) :=
  (arrays_iff m c _ _ (arrAtN_eq m c)).2
/-- and dealt back once the lines after the region have run. -/
theorem hsplitN (c : Dev nD) : (Pipeline.arrBufs spec0 c (fun b => VN m c (Proc.devRef .tc b)) : sProp 𝕄) ⊢ (dats m 0 c).arrays ((dats m 0 c).arrAt · cfg0.N) :=
  (arrays_iff m c _ _ (arrAtN_eq m c)).1

set_option backward.isDefEq.respectTransparency.types false in
/-- Every weakly fair execution of @main terminates; every final state has every array of the region at what the
    write-backs left and every other unscoped buffer at what the lines after the region computed from the exit contents. -/
theorem run_main : θ_run defs (onTc (τ := τ) (main (F := F))) (s₀ m ρ)
    (Pipeline.FramePost cfgs (dats m) 0 (fun c b => StableHlo.after (tail (F := F)).flatten (VN m c) (Proc.devRef .tc b))) :=
  Pipeline.θ_run_frame_around_track_shared cfgs (dats m) (0 : Fin 1) cellOf_inj winFacts₀0 block_pos0 arr_whole0 stage_whole0 defs₀ Variants.none m ρ main
    (hbody := fun c => (body_obligation m c).loose) (howed := fun _ _ => rfl) (V₀ := V0 m) (opss := tail)
    (hsub := sfx_sub) (hfresh := sfx_fresh) (hkeep := sfx_keeps) (hmain := hmain m Variants.none)
    (hsplit := hsplit m) (VN := VN m) (hVN := hVN m) (hjoin := hjoin m) (hsplitN := hsplitN m) (hin := hin m) (hout := hout m)

/-- No line after the region writes an argument. -/
theorem tail_arg0 (W : Valuation τ sig (Elt F)) : StableHlo.after (tail (F := F)).flatten W (Proc.devRef .tc main_arg0) = W (Proc.devRef .tc main_arg0) :=
  StableHlo.after_of_forall_not_mem (b := Proc.devRef .tc main_arg0) _ _ (List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem tail_arg1 (W : Valuation τ sig (Elt F)) : StableHlo.after (tail (F := F)).flatten W (Proc.devRef .tc main_arg1) = W (Proc.devRef .tc main_arg1) :=
  StableHlo.after_of_forall_not_mem (b := Proc.devRef .tc main_arg1) _ _ (List.forall_iff_forall_mem.mp (by
    simp only [tail, hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

theorem restRef_arg0 : main_arg0 ∈ Pipeline.restRefs sig spec0 := Pipeline.mem_restRefs_of _ (by decide) (by decide)
theorem restRef_arg1 : main_arg1 ∈ Pipeline.restRefs sig spec0 := Pipeline.mem_restRefs_of _ (by decide) (by decide)
theorem restRef_v45 : main_v45 ∈ Pipeline.restRefs sig spec0 := Pipeline.mem_restRefs_of _ (by decide) (by decide)

/-- An argument's buffer ends as launched: no line writes it, before or after the region, and the region does not stage it. -/
theorem end_arg0 (c : Dev nD) : StableHlo.after (tail (F := F)).flatten (VN m c) (Proc.devRef .tc main_arg0) = m ((c : Thread nD τ).loc main_arg0) :=
  (tail_arg0 _).trans ((hVN m c main_arg0 restRef_arg0).trans (V_main_arg0 m c))
theorem end_arg1 (c : Dev nD) : StableHlo.after (tail (F := F)).flatten (VN m c) (Proc.devRef .tc main_arg1) = m ((c : Thread nD τ).loc main_arg1) :=
  (tail_arg1 _).trans ((hVN m c main_arg1 restRef_arg1).trans (V_main_arg1 m c))

/-- THE FRAME: @main runs to the end and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 restRef_arg0).trans (end_arg0 m c), ((h c).2 main_arg1 restRef_arg1).trans (end_arg1 m c)⟩) (run_main m ρ)

end Cert.KernelIdeal.Hand

end
-- ==== Proof.Spec.lean ====
/-
  The mathematics both programs compute, stated once over abstract data.

  There are n = 8192 rows x_r in dimension 128, their squared norms s_r, a class label t_r and a part label p_r.
  The distance of rows r and c is d(r,c) = sqrt (max (s_r + s_c - 2 <x_r, x_c>) eps). For a row r five extremal
  distances are taken over all columns c, each over the columns selected by a condition on the labels, a column not
  selected contributing the neutral element of the extremum (-inf for a maximum, +inf for a minimum):
    maxSameSame  r = max over { c | t_r = t_c and p_r = p_c } of d(r,c)
    minNotSame   r = min over { c | not (t_r = t_c and p_r = p_c) } of d(r,c)
    maxDiffSame  r = max over { c | t_r ≠ t_c and p_r = p_c } of d(r,c)
    minDiffDiff  r = min over { c | t_r ≠ t_c and p_r ≠ p_c } of d(r,c)
    maxSameDiff  r = max over { c | t_r = t_c and p_r ≠ p_c } of d(r,c)
  An extremum over all 8192 columns is written as the fold of max (min) from the neutral literal over Fin 8192.
  The literals are kept as the words the programs print; none is evaluated here.
-/
import Idealize.ShloMosaic.PureOps.Ideal
import Idealize.ShloMosaic.Lib.ValueIdx

noncomputable section

namespace Cert.HardPairs

open Idealize.ShloMosaic Idealize.ShloMosaic.ValueIdx

/-- The rows: an [8192, 128] table. -/
abbrev SX : Shape := ⟨2, ![8192, 128]⟩
/-- One entry per row: a vector of length 8192. -/
abbrev SN : Shape := ⟨1, ![8192]⟩

/-- The words of the float literals: 2, eps, -inf, +inf. -/
abbrev two : EReal := Ideal.ofBits .f32 0x40000000#32
abbrev eps : EReal := Ideal.ofBits .f32 0x2B8CBCCC#32
abbrev negInf : EReal := Ideal.ofBits .f32 0xFF800000#32
abbrev posInf : EReal := Ideal.ofBits .f32 0x7F800000#32

/-- The inner product of rows r and c. -/
def gram (x : SX.Idx → EReal) (r c : Fin 8192) : EReal := ∑ k : Fin 128, x (ix2 r k) * x (ix2 c k)

/-- The clamped distance of rows r and c. -/
def dist (x : SX.Idx → EReal) (s : SN.Idx → EReal) (r c : Fin 8192) : EReal :=
  Ideal.sqrt (max (s (ix1 r) + s (ix1 c) - two * gram x r c) eps)

/-- Rows r and c carry the same class label. -/
def sameT (t : SN.Idx → BitVec 32) (r c : Fin 8192) : Prop := t (ix1 r) = t (ix1 c)
/-- Rows r and c carry the same part label. -/
def sameP (p : SN.Idx → BitVec 32) (r c : Fin 8192) : Prop := p (ix1 r) = p (ix1 c)

instance (t : SN.Idx → BitVec 32) (r c : Fin 8192) : Decidable (sameT t r c) := by unfold sameT; infer_instance
instance (p : SN.Idx → BitVec 32) (r c : Fin 8192) : Decidable (sameP p r c) := by unfold sameP; infer_instance

/-- The maximum over all columns of g, from -inf. -/
def colMax (g : Fin 8192 → EReal) : EReal := (Finset.univ : Finset (Fin 8192)).fold max negInf g
/-- The minimum over all columns of g, from +inf. -/
def colMin (g : Fin 8192 → EReal) : EReal := (Finset.univ : Finset (Fin 8192)).fold min posInf g

variable (x : SX.Idx → EReal) (s : SN.Idx → EReal) (t p : SN.Idx → BitVec 32)

def maxSameSame (r : Fin 8192) : EReal := colMax fun c => if sameT t r c ∧ sameP p r c then dist x s r c else negInf
def minNotSame (r : Fin 8192) : EReal := colMin fun c => if ¬(sameT t r c ∧ sameP p r c) then dist x s r c else posInf
def maxDiffSame (r : Fin 8192) : EReal := colMax fun c => if ¬sameT t r c ∧ sameP p r c then dist x s r c else negInf
def minDiffDiff (r : Fin 8192) : EReal := colMin fun c => if ¬sameT t r c ∧ ¬sameP p r c then dist x s r c else posInf
def maxSameDiff (r : Fin 8192) : EReal := colMax fun c => if sameT t r c ∧ ¬sameP p r c then dist x s r c else negInf

/-- The five extremal distances of every row, as the five columns of an [8192, 5] table (column order: maxSameSame,
    minNotSame, maxDiffSame, minDiffDiff, maxSameDiff). -/
def stats (r : Fin 8192) (k : Fin 5) : EReal :=
  match k with
  | ⟨0, _⟩ => maxSameSame x s t p r
  | ⟨1, _⟩ => minNotSame x s t p r
  | ⟨2, _⟩ => maxDiffSame x s t p r
  | ⟨3, _⟩ => minDiffDiff x s t p r
  | ⟨4, _⟩ => maxSameDiff x s t p r

/-! ## The loss of the five vectors

Each margin term is the mean over the rows of max (margin - (an - ap)) 0; the loss is the sum of three such terms:
(minNotSame, maxSameSame) at 0.3, (minDiffDiff, maxDiffSame) at 0.2, (minDiffDiff, maxSameDiff) at 0.4. The terms are
spelt with the host operations both programs end with, so neither program's last lines are ever opened. -/

/-- The scalar shape. -/
abbrev S0 : Shape := ⟨0, ![]⟩

/-- max (margin - (an - ap)) 0, row by row. -/
def hinge (hb : S0.BroadcastsInDim SN (![] : Fin 0 → Fin SN.rank)) (margin : BitVec 32) (an ap : FVec Ideal SN .f32) : FVec Ideal SN .f32 :=
  maximumf (subf (broadcastInDim SN ![] hb (constant (F := Ideal) S0 .f32 margin)) (subf an ap))
    (broadcastInDim SN ![] hb (constant (F := Ideal) S0 .f32 0x00000000#32))

/-- The mean over the 8192 rows: the host sum from 0 divided by the literal 8192. -/
def meanRows (hr : SN.ReducesTo [0] S0) (h0 : 0 < S0.numel) (v : FVec Ideal SN .f32) : FVec Ideal S0 .f32 :=
  Host.divf (Host.reduceAdd (F := Ideal) v (constant (F := Ideal) S0 .f32 0x00000000#32) hr h0) (constant (F := Ideal) S0 .f32 0x46000000#32)

/-- The loss of the five vectors (in the table's column order). -/
def loss (hb : S0.BroadcastsInDim SN (![] : Fin 0 → Fin SN.rank)) (hr : SN.ReducesTo [0] S0) (h0 : 0 < S0.numel)
    (v0 v1 v2 v3 v4 : FVec Ideal SN .f32) : FVec Ideal S0 .f32 :=
  addf (addf (meanRows hr h0 (hinge hb 0x3E99999A#32 v1 v0)) (meanRows hr h0 (hinge hb 0x3E4CCCCD#32 v3 v2)))
    (meanRows hr h0 (hinge hb 0x3ECCCCCD#32 v3 v4))

/-! ## The data both programs derive from the two arguments

Both programs first reshape the [2048, 4, 128] input to the 8192 rows, take the rows' squared norms by a host sum,
repeat each of the 2048 class labels four times, and number the four parts 0..3 within each group of four rows. The
terms are spelt with the host operations both programs begin with. -/

abbrev SA : Shape := ⟨3, ![2048, 4, 128]⟩
abbrev SB : Shape := ⟨1, ![2048]⟩
abbrev SB4 : Shape := ⟨2, ![2048, 4]⟩
abbrev S4 : Shape := ⟨1, ![4]⟩
abbrev S14 : Shape := ⟨2, ![1, 4]⟩

/-- The rows. -/
def rowsOf (h : SA.ShapeCasts SX) (a0 : FVec Ideal SA .f32) : FVec Ideal SX .f32 := shapeCast SX a0 h
/-- The rows' squared norms. -/
def sqOf (hr : SX.ReducesTo [1] SN) (h0 : 0 < S0.numel) (xr : FVec Ideal SX .f32) : FVec Ideal SN .f32 :=
  Host.reduceAdd (F := Ideal) (mulf xr xr) (constant (F := Ideal) S0 .f32 0x00000000#32) hr h0
/-- The rows' class labels. -/
def clsOf (hb : SB.BroadcastsInDim SB4 (![0] : Fin 1 → Fin SB4.rank)) (hc : SB4.ShapeCasts SN) (a1 : IVec SB 32) : IVec SN 32 :=
  shapeCast SN (broadcastInDim SB4 ![0] hb a1) hc
/-- The rows' part labels. -/
def partsOf (h4 : S4.ShapeCasts S14) (hb : S14.BroadcastsInDim SB4 (![0, 1] : Fin 2 → Fin SB4.rank)) (hc : SB4.ShapeCasts SN) : IVec SN 32 :=
  shapeCast SN (broadcastInDim SB4 ![0, 1] hb (shapeCast S14 (iotaInDim S4 32 0) h4)) hc

end Cert.HardPairs

end
-- ==== Proof.IdealHostLines.lean ====
/-
  The host lines around the region in the kernel's program: what the region's input arrays hold, entry by entry, in
  terms of the data derived from the two arguments, and the lines after the region as the loss of the five columns of
  the region's output table.
-/
import proofs.«147969_j19104014532689_1_alg».proof.Proof.IdealSetting
import proofs.«147969_j19104014532689_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.HardPairs Idealize.ShloMosaic Idealize.ShloMosaic.TcCoe Idealize.ShloMosaic.ValueIdx

variable (m : (ℓ : Loc nD τ sig) → Buf (Elt Ideal) ℓ)

/-! ## The data derived from the arguments -/

/-- The 8192 rows. -/
def rowsK (c : Dev nD) : FVec Ideal SX .f32 := rowsOf shapeCasts_S2048x4x128_S8192x128 (m ((c.tc : Thread nD τ).loc main_arg0))
/-- Their squared norms. -/
def sqK (c : Dev nD) : FVec Ideal SN .f32 := sqOf reducesTo_S8192x128_S8192_d1 h_S_ (rowsK m c)
/-- Their class labels. -/
def clsK (c : Dev nD) : IVec SN 32 := clsOf bcast_S2048_S2048x4_0 shapeCasts_S2048x4_S8192 (m ((c.tc : Thread nD τ).loc main_arg1))
/-- Their part labels. -/
def partsK : IVec SN 32 := partsOf shapeCasts_S4_S1x4 bcast_S1x4_S2048x4_0_1 shapeCasts_S2048x4_S8192

/-! ## A vector of length 8192 viewed as a column and as a row -/

/-- Entry (r, 0) of the column is entry r of the vector. -/
theorem col_read {α : Type} (x : S8192.Idx → α) (r : Fin 8192) :
    shapeCast S8192x1 x shapeCasts_S8192_S8192x1 (ix2 r 0) = x (ix1 r) :=
  shapeCast_apply x shapeCasts_S8192_S8192x1 (ix2 r 0) (ix1 r)
    (by rewrite [Shape.rowMajor_val_one, Shape.rowMajor_val_two]; show r.val = r.val * 1 + 0; omega)

/-- Entry (0, q) of the row is entry q of the vector. -/
theorem row_read {α : Type} (x : S8192.Idx → α) (q : Fin 8192) :
    shapeCast S1x8192 x shapeCasts_S8192_S1x8192 (ix2 0 q) = x (ix1 q) :=
  shapeCast_apply x shapeCasts_S8192_S1x8192 (ix2 0 q) (ix1 q)
    (by rewrite [Shape.rowMajor_val_one, Shape.rowMajor_val_two]; show q.val = 0 * 8192 + q.val; omega)

/-! ## What the region's input arrays hold -/

theorem V_v0_eq (c : Dev nD) : (V m c main_v0 : S8192x128.Idx → EReal) = rowsK m c := by
  dsimp only [V, V0]
  simp only [hostOps0, List.flatten_cons, List.flatten_nil, List.append_nil]
  after_results
  rfl

theorem V_v9_eq (c : Dev nD) : (V m c main_v9 : S8192x1.Idx → EReal) = shapeCast S8192x1 (sqK m c) shapeCasts_S8192_S8192x1 := by
  dsimp only [V, V0]
  simp only [hostOps0, List.flatten_cons, List.flatten_nil, List.append_nil]
  after_results
  rfl

theorem V_v10_eq (c : Dev nD) : (V m c main_v10 : S1x8192.Idx → EReal) = shapeCast S1x8192 (sqK m c) shapeCasts_S8192_S1x8192 := by
  dsimp only [V, V0]
  simp only [hostOps0, List.flatten_cons, List.flatten_nil, List.append_nil]
  after_results
  rfl

theorem V_v11_eq (c : Dev nD) : (V m c main_v11 : S8192x1.Idx → BitVec 32) = shapeCast S8192x1 (clsK m c) shapeCasts_S8192_S8192x1 := by
  dsimp only [V, V0]
  simp only [hostOps0, List.flatten_cons, List.flatten_nil, List.append_nil]
  after_results
  rfl

theorem V_v12_eq (c : Dev nD) : (V m c main_v12 : S1x8192.Idx → BitVec 32) = shapeCast S1x8192 (clsK m c) shapeCasts_S8192_S1x8192 := by
  dsimp only [V, V0]
  simp only [hostOps0, List.flatten_cons, List.flatten_nil, List.append_nil]
  after_results
  rfl

theorem V_v13_eq (c : Dev nD) : (V m c main_v13 : S8192x1.Idx → BitVec 32) = shapeCast S8192x1 partsK shapeCasts_S8192_S8192x1 := by
  dsimp only [V, V0]
  simp only [hostOps0, List.flatten_cons, List.flatten_nil, List.append_nil]
  after_results
  rfl

theorem V_v14_eq (c : Dev nD) : (V m c main_v14 : S1x8192.Idx → BitVec 32) = shapeCast S1x8192 partsK shapeCasts_S8192_S1x8192 := by
  dsimp only [V, V0]
  simp only [hostOps0, List.flatten_cons, List.flatten_nil, List.append_nil]
  after_results
  rfl

/-- The rows' array holds the rows. -/
theorem V_rows (c : Dev nD) (r : Fin 8192) (k : Fin 128) : V m c main_v0 (ix2 r k) = rowsK m c (ix2 r k) :=
  congrFun (V_v0_eq m c) (ix2 r k)
/-- The squared norms as a column. -/
theorem V_sqCol (c : Dev nD) (r : Fin 8192) : V m c main_v9 (ix2 r 0) = sqK m c (ix1 r) :=
  (congrFun (V_v9_eq m c) (ix2 r 0)).trans (col_read (sqK m c) r)
/-- The squared norms as a row. -/
theorem V_sqRow (c : Dev nD) (q : Fin 8192) : V m c main_v10 (ix2 0 q) = sqK m c (ix1 q) :=
  (congrFun (V_v10_eq m c) (ix2 0 q)).trans (row_read (sqK m c) q)
/-- The class labels as a column. -/
theorem V_clsCol (c : Dev nD) (r : Fin 8192) : V m c main_v11 (ix2 r 0) = clsK m c (ix1 r) :=
  (congrFun (V_v11_eq m c) (ix2 r 0)).trans (col_read (clsK m c) r)
/-- The class labels as a row. -/
theorem V_clsRow (c : Dev nD) (q : Fin 8192) : V m c main_v12 (ix2 0 q) = clsK m c (ix1 q) :=
  (congrFun (V_v12_eq m c) (ix2 0 q)).trans (row_read (clsK m c) q)
/-- The part labels as a column. -/
theorem V_partsCol (c : Dev nD) (r : Fin 8192) : V m c main_v13 (ix2 r 0) = partsK (ix1 r) :=
  (congrFun (V_v13_eq m c) (ix2 r 0)).trans (col_read partsK r)
/-- The part labels as a row. -/
theorem V_partsRow (c : Dev nD) (q : Fin 8192) : V m c main_v14 (ix2 0 q) = partsK (ix1 q) :=
  (congrFun (V_v14_eq m c) (ix2 0 q)).trans (row_read partsK q)

/-! ## The lines after the region -/

/-- Column 0 of an [8192, 5] table, cut out as a slab and flattened, is the table's entries (r, 0). -/
theorem column0 {α : Type} (x : S8192x5.Idx → α) :
    shapeCast S8192 (extractStridedSlice S8192x1 ![0, 0] x slices_S8192x5_S8192x1_0_0) shapeCasts_S8192x1_S8192
      = fun i => x (ix2 (i 0) 0) := by
  funext i
  refine (shapeCast_apply _ shapeCasts_S8192x1_S8192 i (ix2 (i 0) 0)
    (by rewrite [Shape.rowMajor_val_one, Shape.rowMajor_val_two]; show (i 0).val * 1 + 0 = (i 0).val; omega)).trans ?_
  exact extractStridedSlice_apply _ x slices_S8192x5_S8192x1_0_0 (ix2 (i 0) 0) (ix2 (i 0) 0) (fun a => match a with
    | ⟨0, _⟩ => by show (i 0).val = 0 + (i 0).val; omega
    | ⟨1, _⟩ => by show 0 = 0 + 0; rfl)

/-- Column 1 of an [8192, 5] table, cut out as a slab and flattened, is the table's entries (r, 1). -/
theorem column1 {α : Type} (x : S8192x5.Idx → α) :
    shapeCast S8192 (extractStridedSlice S8192x1 ![0, 1] x slices_S8192x5_S8192x1_0_1) shapeCasts_S8192x1_S8192
      = fun i => x (ix2 (i 0) 1) := by
  funext i
  refine (shapeCast_apply _ shapeCasts_S8192x1_S8192 i (ix2 (i 0) 0)
    (by rewrite [Shape.rowMajor_val_one, Shape.rowMajor_val_two]; show (i 0).val * 1 + 0 = (i 0).val; omega)).trans ?_
  exact extractStridedSlice_apply _ x slices_S8192x5_S8192x1_0_1 (ix2 (i 0) 0) (ix2 (i 0) 1) (fun a => match a with
    | ⟨0, _⟩ => by show (i 0).val = 0 + (i 0).val; omega
    | ⟨1, _⟩ => by show 1 = 1 + 0; rfl)

/-- Column 2 of an [8192, 5] table, cut out as a slab and flattened, is the table's entries (r, 2). -/
theorem column2 {α : Type} (x : S8192x5.Idx → α) :
    shapeCast S8192 (extractStridedSlice S8192x1 ![0, 2] x slices_S8192x5_S8192x1_0_2) shapeCasts_S8192x1_S8192
      = fun i => x (ix2 (i 0) 2) := by
  funext i
  refine (shapeCast_apply _ shapeCasts_S8192x1_S8192 i (ix2 (i 0) 0)
    (by rewrite [Shape.rowMajor_val_one, Shape.rowMajor_val_two]; show (i 0).val * 1 + 0 = (i 0).val; omega)).trans ?_
  exact extractStridedSlice_apply _ x slices_S8192x5_S8192x1_0_2 (ix2 (i 0) 0) (ix2 (i 0) 2) (fun a => match a with
    | ⟨0, _⟩ => by show (i 0).val = 0 + (i 0).val; omega
    | ⟨1, _⟩ => by show 2 = 2 + 0; rfl)

/-- Column 3 of an [8192, 5] table, cut out as a slab and flattened, is the table's entries (r, 3). -/
theorem column3 {α : Type} (x : S8192x5.Idx → α) :
    shapeCast S8192 (extractStridedSlice S8192x1 ![0, 3] x slices_S8192x5_S8192x1_0_3) shapeCasts_S8192x1_S8192
      = fun i => x (ix2 (i 0) 3) := by
  funext i
  refine (shapeCast_apply _ shapeCasts_S8192x1_S8192 i (ix2 (i 0) 0)
    (by rewrite [Shape.rowMajor_val_one, Shape.rowMajor_val_two]; show (i 0).val * 1 + 0 = (i 0).val; omega)).trans ?_
  exact extractStridedSlice_apply _ x slices_S8192x5_S8192x1_0_3 (ix2 (i 0) 0) (ix2 (i 0) 3) (fun a => match a with
    | ⟨0, _⟩ => by show (i 0).val = 0 + (i 0).val; omega
    | ⟨1, _⟩ => by show 3 = 3 + 0; rfl)

/-- Column 4 of an [8192, 5] table, cut out as a slab and flattened, is the table's entries (r, 4). -/
theorem column4 {α : Type} (x : S8192x5.Idx → α) :
    shapeCast S8192 (extractStridedSlice S8192x1 ![0, 4] x slices_S8192x5_S8192x1_0_4) shapeCasts_S8192x1_S8192
      = fun i => x (ix2 (i 0) 4) := by
  funext i
  refine (shapeCast_apply _ shapeCasts_S8192x1_S8192 i (ix2 (i 0) 0)
    (by rewrite [Shape.rowMajor_val_one, Shape.rowMajor_val_two]; show (i 0).val * 1 + 0 = (i 0).val; omega)).trans ?_
  exact extractStridedSlice_apply _ x slices_S8192x5_S8192x1_0_4 (ix2 (i 0) 0) (ix2 (i 0) 4) (fun a => match a with
    | ⟨0, _⟩ => by show (i 0).val = 0 + (i 0).val; omega
    | ⟨1, _⟩ => by show 4 = 4 + 0; rfl)

/-- The lines after the region are the loss of the five columns of the region's output table. -/
theorem tail_result (W : Valuation τ sig (Elt Ideal)) :
    StableHlo.after (tail (F := Ideal)).flatten W (Proc.devRef .tc main_v45)
      = loss bcast_S_S8192 reducesTo_S8192_S_d0 h_S_
          (fun i => W (Proc.devRef .tc main_v15) (ix2 (i 0) 0)) (fun i => W (Proc.devRef .tc main_v15) (ix2 (i 0) 1))
          (fun i => W (Proc.devRef .tc main_v15) (ix2 (i 0) 2)) (fun i => W (Proc.devRef .tc main_v15) (ix2 (i 0) 3))
          (fun i => W (Proc.devRef .tc main_v15) (ix2 (i 0) 4)) := by
  have e : StableHlo.after (tail (F := Ideal)).flatten W (Proc.devRef .tc main_v45)
      = loss bcast_S_S8192 reducesTo_S8192_S_d0 h_S_
          (shapeCast S8192 (extractStridedSlice S8192x1 ![0, 0] (W (Proc.devRef .tc main_v15) : S8192x5.Idx → EReal) slices_S8192x5_S8192x1_0_0) shapeCasts_S8192x1_S8192)
          (shapeCast S8192 (extractStridedSlice S8192x1 ![0, 1] (W (Proc.devRef .tc main_v15) : S8192x5.Idx → EReal) slices_S8192x5_S8192x1_0_1) shapeCasts_S8192x1_S8192)
          (shapeCast S8192 (extractStridedSlice S8192x1 ![0, 2] (W (Proc.devRef .tc main_v15) : S8192x5.Idx → EReal) slices_S8192x5_S8192x1_0_2) shapeCasts_S8192x1_S8192)
          (shapeCast S8192 (extractStridedSlice S8192x1 ![0, 3] (W (Proc.devRef .tc main_v15) : S8192x5.Idx → EReal) slices_S8192x5_S8192x1_0_3) shapeCasts_S8192x1_S8192)
          (shapeCast S8192 (extractStridedSlice S8192x1 ![0, 4] (W (Proc.devRef .tc main_v15) : S8192x5.Idx → EReal) slices_S8192x5_S8192x1_0_4) shapeCasts_S8192x1_S8192) := by
    simp only [tail, List.flatten_cons, List.flatten_nil, List.append_nil, hostOps1, hostOps1_1, hostOps1_2, hostOps1_3,
      hostOps1_4, hostOps1_5, hostOps1_6, List.cons_append, List.nil_append]
    after_results_simp
    rfl
  rw [column0, column1, column2, column3, column4] at e
  exact e

/-- No line after the region writes the first argument. -/
theorem tail_keeps_arg0 (W : Valuation τ sig (Elt Ideal)) :
    StableHlo.after (tail (F := Ideal)).flatten W (Proc.devRef .tc main_arg0) = W (Proc.devRef .tc main_arg0) := by
  simp only [tail, List.flatten_cons, List.flatten_nil, List.append_nil, hostOps1, hostOps1_1, hostOps1_2, hostOps1_3,
    hostOps1_4, hostOps1_5, hostOps1_6, List.cons_append, List.nil_append]
  after_results_simp

/-- No line after the region writes the second argument. -/
theorem tail_keeps_arg1 (W : Valuation τ sig (Elt Ideal)) :
    StableHlo.after (tail (F := Ideal)).flatten W (Proc.devRef .tc main_arg1) = W (Proc.devRef .tc main_arg1) := by
  simp only [tail, List.flatten_cons, List.flatten_nil, List.append_nil, hostOps1, hostOps1_1, hostOps1_2, hostOps1_3,
    hostOps1_4, hostOps1_5, hostOps1_6, List.cons_append, List.nil_append]
  after_results_simp

/-! ## Buffers that bypass the region -/

/-- The result buffer is unscoped and no window's array. -/
theorem rest_v45 : main_v45 ∈ Pipeline.restRefs sig spec0 :=
  Pipeline.mem_restRefs_of main_v45 (by decide) (by decide)
/-- The first argument is unscoped and no window's array. -/
theorem rest_arg0 : main_arg0 ∈ Pipeline.restRefs sig spec0 :=
  Pipeline.mem_restRefs_of main_arg0 (by decide) (by decide)
/-- The second argument is unscoped and no window's array. -/
theorem rest_arg1 : main_arg1 ∈ Pipeline.restRefs sig spec0 :=
  Pipeline.mem_restRefs_of main_arg1 (by decide) (by decide)

end Cert.KernelIdeal.Hand

end
-- ==== Proof.IdealTable.lean ====
/-
  The output array after the run, as one table. The output window's block at the point (bi, j) is rows 256·bi … 256·bi + 255
  of the [8192, 5] array, and it is written back at the last column tile j = 7 only; those 32 blocks tile the array. So if
  at each such point the block holds the five statistics of its rows, the array ends holding the statistics of every row.
-/
import proofs.«147969_j19104014532689_1_alg».proof.Proof.IdealMain
import proofs.«147969_j19104014532689_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.HardPairs
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The five statistics of every row, as an [8192, 5] table. -/
def statsTable (x : SX.Idx → EReal) (s : SN.Idx → EReal) (t p : SN.Idx → BitVec 32) : S8192x5.Idx → EReal :=
  fun j => stats x s t p ⟨(j 0).val, idx2_lt0 j⟩ ⟨(j 1).val, idx2_lt1 j⟩

theorem statsTable_ix2 (x : SX.Idx → EReal) (s : SN.Idx → EReal) (t p : SN.Idx → BitVec 32) (r : Fin 8192) (k : Fin 5) :
    statsTable x s t p (ix2 r k) = stats x s t p r k := rfl

/-- The output window's block index at a point: the row block, and column block 0. -/
theorem idx8 : ∀ t : Fin cfg0.N, win0_8.index t (0 : Fin 2) = t.val / 8 ∧ win0_8.index t (1 : Fin 2) = 0 :=
  (by decide +kernel : ∀ t : Fin grid0.N, win0_8.index t (0 : Fin 2) = t.val / 8 ∧ win0_8.index t (1 : Fin 2) = 0)

/-- Every row block is written back at some point (its last column tile). -/
theorem onto8 : ∀ q : Fin 32, ∃ t : Fin cfg0.N, (cfg0.win 8).flush t = true ∧ t.val / 8 = q.val :=
  (by decide +kernel : ∀ q : Fin 32, ∃ t : Fin grid0.N, win0_8.flush t = true ∧ t.val / 8 = q.val)

/-- An index of the array is in a point's block iff each coordinate is in the block's range on its axis. -/
theorem mem_blk8 (t : Fin cfg0.N) (i : S8192x5.Idx) :
    i ∈ ((cfg0.win 8).blk t).view.set ↔ ∀ a : Fin 2, win0_8.index t a * S256x5.size a ≤ (i a).val ∧ (i a).val < win0_8.index t a * S256x5.size a + S256x5.size a := by
  show i ∈ ((View.whole main_v15).slice (win0_8.rect t)).set ↔ _
  rw [View.set_slice_whole, Rect.mem_set_unit]
  exact Iff.rfl

/-- The blocks written back tile the array. -/
theorem cover8 (i : S8192x5.Idx) : ∃ t : Fin cfg0.N, (cfg0.win 8).flush t = true ∧ i ∈ ((cfg0.win 8).blk t).view.set := by
  have hi0 : (i 0).val < 8192 := idx2_lt0 i
  have hi1 : (i 1).val < 5 := idx2_lt1 i
  obtain ⟨t, hf, ht⟩ := onto8 ⟨(i 0).val / 256, by omega⟩
  obtain ⟨e0, e1⟩ := idx8 t
  refine ⟨t, hf, ?_⟩
  rw [mem_blk8]
  intro a
  match a with
  | ⟨0, _⟩ => show win0_8.index t (0 : Fin 2) * 256 ≤ (i 0).val ∧ (i 0).val < win0_8.index t (0 : Fin 2) * 256 + 256; simp only at ht; omega
  | ⟨1, _⟩ => show win0_8.index t (1 : Fin 2) * 5 ≤ (i 1).val ∧ (i 1).val < win0_8.index t (1 : Fin 2) * 5 + 5; omega

/-- If at every last column tile the output block holds the statistics of its 256 rows, the array ends as the table. -/
theorem table_eq (c : Dev nD) (x : SX.Idx → EReal) (s : SN.Idx → EReal) (tt p : SN.Idx → BitVec 32)
    (hlast : ∀ (t : Fin cfg0.N) (h7 : t.val % 8 = 7) (a : Fin 256) (k : Fin 5),
      (outsAt0 m c t.val t.isLt).1 (ix2 a k) = stats x s tt p ⟨256 * (t.val / 8) + a.val, by have := t.isLt; have hN : cfg0.N = 256 := N_0; have := a.isLt; omega⟩ k) :
    (dats m 0 c).arrAt 8 cfg0.N = statsTable x s tt p := by
  refine (dats m 0 c).arrAt_eq_of_cover 8 (statsTable x s tt p) (fun t hf => ?_) cover8
  have h7 : t.val % 8 = 7 := (flush0_8 t).mp hf
  obtain ⟨e0, e1⟩ := idx8 t
  show (cfg0.win 8).cut (grid0.coords t) ((dats m 0 c).after 8 t) = _
  rw [after0_8]
  funext y
  obtain ⟨a, k, rfl⟩ : ∃ (a : Fin 256) (k : Fin 5), y = ix2 a k := ⟨y 0, y 1, eq_ix2 y⟩
  show (outsAt0 m c t.val t.isLt).1 (ix2 a k) = statsTable x s tt p (((cfg0.win 8).blk t).view.emb (ix2 a k))
  rw [hlast t h7 a k]
  unfold statsTable
  congr 1
  · apply Fin.ext
    show 256 * (t.val / 8) + a.val = win0_8.index t (0 : Fin 2) * 256 + 1 * a.val
    omega
  · apply Fin.ext
    show k.val = win0_8.index t (1 : Fin 2) * 5 + 1 * k.val
    omega

end Cert.KernelIdeal.Hand

end
-- ==== Proof.TileMath.lean ====
/-
  How the running extremum over column tiles relates to the extremum over a whole row.

  A row of 8192 entries g is cut into 8 tiles of 1024 consecutive columns. The maximum of a tile is the fold of max
  from a start value b over its 1024 columns; the running maximum starts as max b (tile 0) and takes in one tile at a
  time. After the last tile it is the fold of max from b over all 8192 columns: each side is bounded by the other,
  because a column c lies in tile c / 1024 at position c % 1024, and every tile entry is an entry of the row.
  The same holds with min in place of max.
-/
import proofs.«147969_j19104014532689_1_alg».proof.Proof.Spec
import Mathlib.Data.Finset.Fold

noncomputable section

namespace Cert.HardPairs

/-- The column of the row that sits at position q of tile j. -/
def tileCol (j : Fin 8) (q : Fin 1024) : Fin 8192 := ⟨1024 * j.val + q.val, by have := j.isLt; have := q.isLt; omega⟩

@[simp] theorem tileCol_val (j : Fin 8) (q : Fin 1024) : (tileCol j q).val = 1024 * j.val + q.val := rfl

/-- Every column is a tile entry: column c sits at position c % 1024 of tile c / 1024. -/
theorem tileCol_div_mod (c : Fin 8192) :
    tileCol ⟨c.val / 1024, by have := c.isLt; omega⟩ ⟨c.val % 1024, Nat.mod_lt _ (by norm_num)⟩ = c := by
  apply Fin.ext
  simp only [tileCol_val]
  exact Nat.div_add_mod c.val 1024

/-! ## Maximum -/

/-- The maximum of tile j from the start value b. -/
def tileMax (b : EReal) (g : Fin 8192 → EReal) (j : Fin 8) : EReal :=
  (Finset.univ : Finset (Fin 1024)).fold max b (fun q => g (tileCol j q))

/-- The maximum of tile j for a natural number j; the start value b beyond the last tile. -/
def tileMaxN (b : EReal) (g : Fin 8192 → EReal) (j : ℕ) : EReal :=
  if h : j < 8 then tileMax b g ⟨j, h⟩ else b

/-- The running maximum after tiles 0..j. -/
def accMax (b : EReal) (g : Fin 8192 → EReal) : ℕ → EReal
  | 0 => max b (tileMaxN b g 0)
  | j + 1 => max (accMax b g j) (tileMaxN b g (j + 1))

@[simp] theorem accMax_zero (b : EReal) (g : Fin 8192 → EReal) : accMax b g 0 = max b (tileMaxN b g 0) := rfl
@[simp] theorem accMax_succ (b : EReal) (g : Fin 8192 → EReal) (j : ℕ) :
    accMax b g (j + 1) = max (accMax b g j) (tileMaxN b g (j + 1)) := rfl

theorem tileMaxN_of_lt (b : EReal) (g : Fin 8192 → EReal) {j : ℕ} (h : j < 8) : tileMaxN b g j = tileMax b g ⟨j, h⟩ := by
  simp [tileMaxN, h]

theorem tileMax_le_fold (b : EReal) (g : Fin 8192 → EReal) (j : Fin 8) :
    tileMax b g j ≤ (Finset.univ : Finset (Fin 8192)).fold max b g := by
  unfold tileMax
  rw [Finset.fold_max_le]
  refine ⟨(Finset.le_fold_max _).mpr (Or.inl le_rfl), fun q _ => ?_⟩
  exact (Finset.le_fold_max _).mpr (Or.inr ⟨tileCol j q, Finset.mem_univ _, le_rfl⟩)

theorem tileMaxN_le_fold (b : EReal) (g : Fin 8192 → EReal) (j : ℕ) :
    tileMaxN b g j ≤ (Finset.univ : Finset (Fin 8192)).fold max b g := by
  unfold tileMaxN
  split
  · exact tileMax_le_fold b g _
  · exact (Finset.le_fold_max _).mpr (Or.inl le_rfl)

theorem accMax_le_fold (b : EReal) (g : Fin 8192 → EReal) (j : ℕ) :
    accMax b g j ≤ (Finset.univ : Finset (Fin 8192)).fold max b g := by
  induction j with
  | zero => exact max_le ((Finset.le_fold_max _).mpr (Or.inl le_rfl)) (tileMaxN_le_fold b g 0)
  | succ j ih => exact max_le ih (tileMaxN_le_fold b g (j + 1))

theorem start_le_accMax (b : EReal) (g : Fin 8192 → EReal) (k : ℕ) : b ≤ accMax b g k := by
  induction k with
  | zero => exact le_max_left _ _
  | succ k ih => exact le_trans ih (le_max_left _ _)

theorem tileMaxN_le_accMax (b : EReal) (g : Fin 8192 → EReal) {j k : ℕ} (h : j ≤ k) : tileMaxN b g j ≤ accMax b g k := by
  induction k with
  | zero =>
    have : j = 0 := Nat.le_zero.mp h
    subst this
    exact le_max_right _ _
  | succ k ih =>
    rcases Nat.lt_or_ge j (k + 1) with hlt | hge
    · exact le_trans (ih (Nat.lt_succ_iff.mp hlt)) (le_max_left _ _)
    · have : j = k + 1 := le_antisymm h hge
      subst this
      exact le_max_right _ _

theorem entry_le_tileMax (b : EReal) (g : Fin 8192 → EReal) (j : Fin 8) (q : Fin 1024) : g (tileCol j q) ≤ tileMax b g j :=
  (Finset.le_fold_max _).mpr (Or.inr ⟨q, Finset.mem_univ _, le_rfl⟩)

/-- After the last tile the running maximum is the maximum of the whole row. -/
theorem accMax_last (b : EReal) (g : Fin 8192 → EReal) :
    accMax b g 7 = (Finset.univ : Finset (Fin 8192)).fold max b g := by
  apply le_antisymm (accMax_le_fold b g 7)
  rw [Finset.fold_max_le]
  refine ⟨start_le_accMax b g 7, fun c _ => ?_⟩
  have hj : c.val / 1024 < 8 := by have := c.isLt; omega
  have h1 : g c ≤ tileMax b g ⟨c.val / 1024, hj⟩ := by
    have := entry_le_tileMax b g ⟨c.val / 1024, hj⟩ ⟨c.val % 1024, Nat.mod_lt _ (by norm_num)⟩
    rwa [tileCol_div_mod] at this
  have h2 : tileMaxN b g (c.val / 1024) ≤ accMax b g 7 := tileMaxN_le_accMax b g (by omega)
  rw [tileMaxN_of_lt b g hj] at h2
  exact le_trans h1 h2

/-! ## Minimum -/

/-- The minimum of tile j from the start value b. -/
def tileMin (b : EReal) (g : Fin 8192 → EReal) (j : Fin 8) : EReal :=
  (Finset.univ : Finset (Fin 1024)).fold min b (fun q => g (tileCol j q))

/-- The minimum of tile j for a natural number j; the start value b beyond the last tile. -/
def tileMinN (b : EReal) (g : Fin 8192 → EReal) (j : ℕ) : EReal :=
  if h : j < 8 then tileMin b g ⟨j, h⟩ else b

/-- The running minimum after tiles 0..j. -/
def accMin (b : EReal) (g : Fin 8192 → EReal) : ℕ → EReal
  | 0 => min b (tileMinN b g 0)
  | j + 1 => min (accMin b g j) (tileMinN b g (j + 1))

@[simp] theorem accMin_zero (b : EReal) (g : Fin 8192 → EReal) : accMin b g 0 = min b (tileMinN b g 0) := rfl
@[simp] theorem accMin_succ (b : EReal) (g : Fin 8192 → EReal) (j : ℕ) :
    accMin b g (j + 1) = min (accMin b g j) (tileMinN b g (j + 1)) := rfl

theorem tileMinN_of_lt (b : EReal) (g : Fin 8192 → EReal) {j : ℕ} (h : j < 8) : tileMinN b g j = tileMin b g ⟨j, h⟩ := by
  simp [tileMinN, h]

theorem fold_le_tileMin (b : EReal) (g : Fin 8192 → EReal) (j : Fin 8) :
    (Finset.univ : Finset (Fin 8192)).fold min b g ≤ tileMin b g j := by
  unfold tileMin
  rw [Finset.le_fold_min]
  refine ⟨(Finset.fold_min_le _).mpr (Or.inl le_rfl), fun q _ => ?_⟩
  exact (Finset.fold_min_le _).mpr (Or.inr ⟨tileCol j q, Finset.mem_univ _, le_rfl⟩)

theorem fold_le_tileMinN (b : EReal) (g : Fin 8192 → EReal) (j : ℕ) :
    (Finset.univ : Finset (Fin 8192)).fold min b g ≤ tileMinN b g j := by
  unfold tileMinN
  split
  · exact fold_le_tileMin b g _
  · exact (Finset.fold_min_le _).mpr (Or.inl le_rfl)

theorem fold_le_accMin (b : EReal) (g : Fin 8192 → EReal) (j : ℕ) :
    (Finset.univ : Finset (Fin 8192)).fold min b g ≤ accMin b g j := by
  induction j with
  | zero => exact le_min ((Finset.fold_min_le _).mpr (Or.inl le_rfl)) (fold_le_tileMinN b g 0)
  | succ j ih => exact le_min ih (fold_le_tileMinN b g (j + 1))

theorem accMin_le_start (b : EReal) (g : Fin 8192 → EReal) (k : ℕ) : accMin b g k ≤ b := by
  induction k with
  | zero => exact min_le_left _ _
  | succ k ih => exact le_trans (min_le_left _ _) ih

theorem accMin_le_tileMinN (b : EReal) (g : Fin 8192 → EReal) {j k : ℕ} (h : j ≤ k) : accMin b g k ≤ tileMinN b g j := by
  induction k with
  | zero =>
    have : j = 0 := Nat.le_zero.mp h
    subst this
    exact min_le_right _ _
  | succ k ih =>
    rcases Nat.lt_or_ge j (k + 1) with hlt | hge
    · exact le_trans (min_le_left _ _) (ih (Nat.lt_succ_iff.mp hlt))
    · have : j = k + 1 := le_antisymm h hge
      subst this
      exact min_le_right _ _

theorem tileMin_le_entry (b : EReal) (g : Fin 8192 → EReal) (j : Fin 8) (q : Fin 1024) : tileMin b g j ≤ g (tileCol j q) :=
  (Finset.fold_min_le _).mpr (Or.inr ⟨q, Finset.mem_univ _, le_rfl⟩)

/-- After the last tile the running minimum is the minimum of the whole row. -/
theorem accMin_last (b : EReal) (g : Fin 8192 → EReal) :
    accMin b g 7 = (Finset.univ : Finset (Fin 8192)).fold min b g := by
  apply le_antisymm _ (fold_le_accMin b g 7)
  rw [Finset.le_fold_min]
  refine ⟨accMin_le_start b g 7, fun c _ => ?_⟩
  have hj : c.val / 1024 < 8 := by have := c.isLt; omega
  have h1 : tileMin b g ⟨c.val / 1024, hj⟩ ≤ g c := by
    have := tileMin_le_entry b g ⟨c.val / 1024, hj⟩ ⟨c.val % 1024, Nat.mod_lt _ (by norm_num)⟩
    rwa [tileCol_div_mod] at this
  have h2 : accMin b g 7 ≤ tileMinN b g (c.val / 1024) := accMin_le_tileMinN b g (by omega)
  rw [tileMinN_of_lt b g hj] at h2
  exact le_trans h2 h1

/-! ## A sequence of running extrema that follows the tiles

A sequence that starts as max b (tile 0) and takes in tile j + 1 at step j + 1 is the running maximum, so its value
after step 7 is the maximum of the whole row; likewise for min. -/

theorem eq_accMax_of_steps (b : EReal) (g : Fin 8192 → EReal) (acc : ℕ → EReal)
    (h0 : acc 0 = max b (tileMax b g ⟨0, by norm_num⟩))
    (hs : ∀ (j : ℕ) (h : j + 1 < 8), acc (j + 1) = max (acc j) (tileMax b g ⟨j + 1, h⟩)) :
    ∀ j, j < 8 → acc j = accMax b g j := by
  intro j
  induction j with
  | zero => intro _; rw [h0, accMax_zero, tileMaxN_of_lt b g (by norm_num : 0 < 8)]
  | succ j ih =>
    intro h
    rw [hs j h, accMax_succ, tileMaxN_of_lt b g h, ih (by omega)]

theorem fold_max_of_steps (b : EReal) (g : Fin 8192 → EReal) (acc : ℕ → EReal)
    (h0 : acc 0 = max b (tileMax b g ⟨0, by norm_num⟩))
    (hs : ∀ (j : ℕ) (h : j + 1 < 8), acc (j + 1) = max (acc j) (tileMax b g ⟨j + 1, h⟩)) :
    acc 7 = (Finset.univ : Finset (Fin 8192)).fold max b g := by
  rw [eq_accMax_of_steps b g acc h0 hs 7 (by norm_num), accMax_last]

theorem eq_accMin_of_steps (b : EReal) (g : Fin 8192 → EReal) (acc : ℕ → EReal)
    (h0 : acc 0 = min b (tileMin b g ⟨0, by norm_num⟩))
    (hs : ∀ (j : ℕ) (h : j + 1 < 8), acc (j + 1) = min (acc j) (tileMin b g ⟨j + 1, h⟩)) :
    ∀ j, j < 8 → acc j = accMin b g j := by
  intro j
  induction j with
  | zero => intro _; rw [h0, accMin_zero, tileMinN_of_lt b g (by norm_num : 0 < 8)]
  | succ j ih =>
    intro h
    rw [hs j h, accMin_succ, tileMinN_of_lt b g h, ih (by omega)]

theorem fold_min_of_steps (b : EReal) (g : Fin 8192 → EReal) (acc : ℕ → EReal)
    (h0 : acc 0 = min b (tileMin b g ⟨0, by norm_num⟩))
    (hs : ∀ (j : ℕ) (h : j + 1 < 8), acc (j + 1) = min (acc j) (tileMin b g ⟨j + 1, h⟩)) :
    acc 7 = (Finset.univ : Finset (Fin 8192)).fold min b g := by
  rw [eq_accMin_of_steps b g acc h0 hs 7 (by norm_num), accMin_last]

/-! ## The five statistics of a row from their tiles

The entry of column c that each statistic of row r folds over, named so that a tile's fold can be stated against it. -/

section Stats
variable (x : SX.Idx → EReal) (s : SN.Idx → EReal) (t p : SN.Idx → BitVec 32) (r : Fin 8192)

def selSameSame (c : Fin 8192) : EReal := if sameT t r c ∧ sameP p r c then dist x s r c else negInf
def selNotSame (c : Fin 8192) : EReal := if ¬(sameT t r c ∧ sameP p r c) then dist x s r c else posInf
def selDiffSame (c : Fin 8192) : EReal := if ¬sameT t r c ∧ sameP p r c then dist x s r c else negInf
def selDiffDiff (c : Fin 8192) : EReal := if ¬sameT t r c ∧ ¬sameP p r c then dist x s r c else posInf
def selSameDiff (c : Fin 8192) : EReal := if sameT t r c ∧ ¬sameP p r c then dist x s r c else negInf

theorem maxSameSame_eq : maxSameSame x s t p r = colMax (selSameSame x s t p r) := rfl
theorem minNotSame_eq : minNotSame x s t p r = colMin (selNotSame x s t p r) := rfl
theorem maxDiffSame_eq : maxDiffSame x s t p r = colMax (selDiffSame x s t p r) := rfl
theorem minDiffDiff_eq : minDiffDiff x s t p r = colMin (selDiffDiff x s t p r) := rfl
theorem maxSameDiff_eq : maxSameDiff x s t p r = colMax (selSameDiff x s t p r) := rfl

variable (acc : ℕ → EReal)

/-- A sequence that follows the tiles of the same-class same-part entries ends at maxSameSame. -/
theorem maxSameSame_of_steps
    (h0 : acc 0 = max negInf (tileMax negInf (selSameSame x s t p r) ⟨0, by norm_num⟩))
    (hs : ∀ (j : ℕ) (h : j + 1 < 8), acc (j + 1) = max (acc j) (tileMax negInf (selSameSame x s t p r) ⟨j + 1, h⟩)) :
    acc 7 = maxSameSame x s t p r :=
  fold_max_of_steps negInf _ acc h0 hs

theorem minNotSame_of_steps
    (h0 : acc 0 = min posInf (tileMin posInf (selNotSame x s t p r) ⟨0, by norm_num⟩))
    (hs : ∀ (j : ℕ) (h : j + 1 < 8), acc (j + 1) = min (acc j) (tileMin posInf (selNotSame x s t p r) ⟨j + 1, h⟩)) :
    acc 7 = minNotSame x s t p r :=
  fold_min_of_steps posInf _ acc h0 hs

theorem maxDiffSame_of_steps
    (h0 : acc 0 = max negInf (tileMax negInf (selDiffSame x s t p r) ⟨0, by norm_num⟩))
    (hs : ∀ (j : ℕ) (h : j + 1 < 8), acc (j + 1) = max (acc j) (tileMax negInf (selDiffSame x s t p r) ⟨j + 1, h⟩)) :
    acc 7 = maxDiffSame x s t p r :=
  fold_max_of_steps negInf _ acc h0 hs

theorem minDiffDiff_of_steps
    (h0 : acc 0 = min posInf (tileMin posInf (selDiffDiff x s t p r) ⟨0, by norm_num⟩))
    (hs : ∀ (j : ℕ) (h : j + 1 < 8), acc (j + 1) = min (acc j) (tileMin posInf (selDiffDiff x s t p r) ⟨j + 1, h⟩)) :
    acc 7 = minDiffDiff x s t p r :=
  fold_min_of_steps posInf _ acc h0 hs

theorem maxSameDiff_of_steps
    (h0 : acc 0 = max negInf (tileMax negInf (selSameDiff x s t p r) ⟨0, by norm_num⟩))
    (hs : ∀ (j : ℕ) (h : j + 1 < 8), acc (j + 1) = max (acc j) (tileMax negInf (selSameDiff x s t p r) ⟨j + 1, h⟩)) :
    acc 7 = maxSameDiff x s t p r :=
  fold_max_of_steps negInf _ acc h0 hs

end Stats

/-! ## The two neutral literals -/

/-- The word 0xFF800000 denotes -inf, the least extended real. -/
theorem negInf_eq_bot : negInf = (⊥ : EReal) := by
  simp [Idealize.ShloMosaic.Ideal.ofBits, Idealize.ShloMosaic.Ideal.ieee]
/-- The word 0x7F800000 denotes +inf, the greatest extended real. -/
theorem posInf_eq_top : posInf = (⊤ : EReal) := by
  simp [Idealize.ShloMosaic.Ideal.ofBits, Idealize.ShloMosaic.Ideal.ieee]
/-- -inf is neutral for max. -/
theorem max_negInf (x : EReal) : max negInf x = x := by
  rw [negInf_eq_bot]; exact max_eq_right bot_le
/-- +inf is neutral for min. -/
theorem min_posInf (x : EReal) : min posInf x = x := by
  rw [posInf_eq_top]; exact min_eq_right le_top

end Cert.HardPairs

end
-- ==== Proof.TilePayload.lean ====
/-
  The kernel body's pure values read at an index.

  One grid step works on a block of 256 rows and a tile of 1024 columns. It forms the 256 x 1024 tile of clamped
  distances d(a, q) = sqrt (max (s_a + s_q - 2 <x_a, x_q>) eps), the masks "same class" and "same part" from the labels,
  and for each of the five statistics the extremum over the tile's 1024 columns of the distances the statistic's
  condition selects (the neutral literal elsewhere), which it joins to the running extremum kept from the earlier tiles.
  Here each of these values is read at one row a: the new accumulator is max (min) of the old one and the fold of max
  (min) over q of "if condition (a, q) then d(a, q) else neutral".
-/
import proofs.«147969_j19104014532689_1_alg».proof.Proof.Gen.KernelIdeal.Skeleton
import proofs.«147969_j19104014532689_1_alg».proof.Proof.Spec
import proofs.«147969_j19104014532689_1_alg».proof.Proof.TileMath
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.TileValue

open Idealize.ShloMosaic Idealize.ShloMosaic.ValueIdx Idealize.SL.Sem
open Cert.KernelIdeal Cert.KernelIdeal.Gen Cert.HardPairs

variable [Cert.KernelIdeal.Facts]

/-! ## Layout operations at an index -/

/-- A vector of length a viewed as an a x 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column broadcast over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile of distances -/

/-- The clamped distance of row a of the row block and column q of the column tile. -/
def tileDist (x0 : Vec Ideal S256x128 .f32) (x1 : Vec Ideal S1024x128 .f32) (sr : Vec Ideal S256x1 .f32)
    (sc : Vec Ideal S1x1024 .f32) (a : Fin 256) (q : Fin 1024) : EReal :=
  Ideal.sqrt (max (sr (ix2 a 0) + sc (ix2 0 q) - two * ∑ k : Fin 128, x0 (ix2 a k) * x1 (ix2 q k)) eps)

/-- The left operand's index of the tile's matrix product keeps the result's row on axis 0 … -/
theorem gram_lhs0 (j : S256x1024.Idx) (kk : dot_S256x128_S1024x128_S256x1024_1_1_0_0_n_n.contr.Idx) : (dot_S256x128_S1024x128_S256x1024_1_1_0_0_n_n.lhsIdx j kk 0).val = (j 0).val := by
  unfold DotDims.lhsIdx
  rw [dif_neg (show ¬(0 : Fin S256x128.rank) ∈ dot_S256x128_S1024x128_S256x1024_1_1_0_0_n_n.lhsBatch by decide),
    dif_pos (show (0 : Fin S256x128.rank) ∈ dot_S256x128_S1024x128_S256x1024_1_1_0_0_n_n.lhsNonContracting by decide)]
  rfl
/-- … and reads the contraction position on axis 1. -/
theorem gram_lhs1 (j : S256x1024.Idx) (kk : dot_S256x128_S1024x128_S256x1024_1_1_0_0_n_n.contr.Idx) : (dot_S256x128_S1024x128_S256x1024_1_1_0_0_n_n.lhsIdx j kk 1).val = (kk ⟨0, by decide⟩).val :=
  dot_S256x128_S1024x128_S256x1024_1_1_0_0_n_n.lhsIdx_val_of_single rfl j kk
/-- The right operand's index keeps the result's column on axis 0 … -/
theorem gram_rhs0 (j : S256x1024.Idx) (kk : dot_S256x128_S1024x128_S256x1024_1_1_0_0_n_n.contr.Idx) : (dot_S256x128_S1024x128_S256x1024_1_1_0_0_n_n.rhsIdx j kk 0).val = (j 1).val := by
  unfold DotDims.rhsIdx
  rw [dif_neg (show ¬(0 : Fin S1024x128.rank) ∈ dot_S256x128_S1024x128_S256x1024_1_1_0_0_n_n.rhsBatch by decide),
    dif_pos (show (0 : Fin S1024x128.rank) ∈ dot_S256x128_S1024x128_S256x1024_1_1_0_0_n_n.rhsNonContracting by decide)]
  rfl
/-- … and reads the contraction position on axis 1. -/
theorem gram_rhs1 (j : S256x1024.Idx) (kk : dot_S256x128_S1024x128_S256x1024_1_1_0_0_n_n.contr.Idx) : (dot_S256x128_S1024x128_S256x1024_1_1_0_0_n_n.rhsIdx j kk 1).val = (kk ⟨0, by decide⟩).val :=
  dot_S256x128_S1024x128_S256x1024_1_1_0_0_n_n.rhsIdx_val_of_single rfl j kk

/-- The tile's matrix product contracts the second axis of both blocks: at (a, q) it is the inner product of row a of
    the row block and row q of the column block. -/
theorem tileGram_apply (y0 : FVec Ideal S256x128 .bf16) (y1 : FVec Ideal S1024x128 .bf16) (a : Fin 256) (q : Fin 1024) :
    matmul dot_S256x128_S1024x128_S256x1024_1_1_0_0_n_n none y0 y1 (constant S256x1024 .f32 0x00000000#32) (ix2 a q)
      = ∑ k : Fin 128, y0 (ix2 a k) * y1 (ix2 q k) := by
  simp only [matmul]
  rw [Ideal.matmul_constant_zero_apply, ← Equiv.sum_comp (contrEquiv1 dot_S256x128_S1024x128_S256x1024_1_1_0_0_n_n 128 rfl rfl).symm]
  refine Finset.sum_congr rfl fun k _ => ?_
  have hk := contrEquiv1_symm_val dot_S256x128_S1024x128_S256x1024_1_1_0_0_n_n 128 rfl rfl k
  have el : dot_S256x128_S1024x128_S256x1024_1_1_0_0_n_n.lhsIdx (ix2 a q) ((contrEquiv1 dot_S256x128_S1024x128_S256x1024_1_1_0_0_n_n 128 rfl rfl).symm k) = ix2 a k :=
    funext fun c => Fin.ext (by
      match c with
      | ⟨0, _⟩ => exact gram_lhs0 _ _
      | ⟨1, _⟩ => exact (gram_lhs1 _ _).trans hk)
  have er : dot_S256x128_S1024x128_S256x1024_1_1_0_0_n_n.rhsIdx (ix2 a q) ((contrEquiv1 dot_S256x128_S1024x128_S256x1024_1_1_0_0_n_n 128 rfl rfl).symm k) = ix2 q k :=
    funext fun c => Fin.ext (by
      match c with
      | ⟨0, _⟩ => exact gram_rhs0 _ _
      | ⟨1, _⟩ => exact (gram_rhs1 _ _).trans hk)
  rw [el, er]

/-- The tile of clamped distances at (a, q). -/
theorem pay10_apply (x0 : Vec Ideal S256x128 .f32) (x1 : Vec Ideal S1024x128 .f32) (sr : Vec Ideal S256x1 .f32)
    (sc : Vec Ideal S1x1024 .f32) (a : Fin 256) (q : Fin 1024) :
    k0_pay10 (F := Ideal) x0 x1 sr sc (ix2 a q) = tileDist x0 x1 sr sc a q := by
  unfold k0_pay10 tileDist
  simp only [shapeCast_self]
  have hA : broadcastTo S256x1024 sr broadcasts_S256x1_S256x1024 (ix2 a q) = sr (ix2 a 0) :=
    broadcastTo_a1_ab_apply sr _ a q
  have hB : broadcastTo S256x1024 sc broadcasts_S1x1024_S256x1024 (ix2 a q) = sc (ix2 0 q) :=
    broadcastTo_1b_ab_apply sc _ a q
  have hM := tileGram_apply (truncf .bf16 x0 bitsLt_bf16_f32) (truncf .bf16 x1 bitsLt_bf16_f32) a q
  show Ideal.sqrt (max (broadcastTo S256x1024 sr broadcasts_S256x1_S256x1024 (ix2 a q)
      + broadcastTo S256x1024 sc broadcasts_S1x1024_S256x1024 (ix2 a q)
      - two * matmul (F := Ideal) dot_S256x128_S1024x128_S256x1024_1_1_0_0_n_n none (truncf .bf16 x0 bitsLt_bf16_f32)
          (truncf .bf16 x1 bitsLt_bf16_f32) (constant S256x1024 .f32 0x00000000#32) (ix2 a q)) eps) = _
  rw [hA, hB, hM]
  rfl

/-! ## One-bit conditions -/

/-- The equality comparison is the bit 1 exactly when the words are equal. -/
theorem cmpi_eq_one {w : ℕ} (x y : BitVec w) : IntOp.cmpi .eq x y = 1#1 ↔ x = y := by
  unfold IntOp.cmpi
  show BitVec.ofBool (x == y) = 1#1 ↔ x = y
  cases hb : (x == y)
  · have hne : x ≠ y := by simpa using hb
    simp [hne]
  · have he : x = y := by simpa using hb
    simp [he]

/-- The conjunction of two bits is 1 exactly when both are. -/
theorem andi_eq_one (c d : BitVec 1) : IntOp.andi c d = 1#1 ↔ c = 1#1 ∧ d = 1#1 := by
  rcases BitVec.eq_zero_or_eq_one c with rfl | rfl <;> rcases BitVec.eq_zero_or_eq_one d with rfl | rfl <;> decide

/-- A bit flipped is 1 exactly when the bit is not. -/
theorem xori_one_eq_one (c : BitVec 1) : IntOp.xori c 1#1 = 1#1 ↔ ¬c = 1#1 := by
  rcases BitVec.eq_zero_or_eq_one c with rfl | rfl <;> decide

/-! ## The label masks at (a, q) -/

/-- The same-class mask compares the row's class label with the column's. -/
theorem pay11_apply (tr : Vec Ideal S256x1 .i32) (tc : Vec Ideal S1x1024 .i32) (a : Fin 256) (q : Fin 1024) :
    k0_pay11 (F := Ideal) tr tc (ix2 a q) = IntOp.cmpi .eq (tr (ix2 a 0)) (tc (ix2 0 q)) := by
  unfold k0_pay11
  simp only [shapeCast_self]
  show IntOp.cmpi .eq (broadcastTo S256x1024 tr broadcasts_S256x1_S256x1024 (ix2 a q))
      (broadcastTo S256x1024 tc broadcasts_S1x1024_S256x1024 (ix2 a q)) = _
  rw [broadcastTo_a1_ab_apply, broadcastTo_1b_ab_apply]

/-- The row's part label, repeated along the row. -/
theorem pay12_apply (pr : Vec Ideal S256x1 .i32) (a : Fin 256) (q : Fin 1024) :
    k0_pay12 (F := Ideal) pr (ix2 a q) = pr (ix2 a 0) := by
  unfold k0_pay12
  simp only [shapeCast_self]
  exact broadcastTo_a1_ab_apply pr _ a q

/-- The column's part label, repeated down the column. -/
theorem pay13_apply (pc : Vec Ideal S1x1024 .i32) (a : Fin 256) (q : Fin 1024) :
    k0_pay13 (F := Ideal) pc (ix2 a q) = pc (ix2 0 q) := by
  unfold k0_pay13
  simp only [shapeCast_self]
  exact broadcastTo_1b_ab_apply pc _ a q

section Masks
variable (tr : Vec Ideal S256x1 .i32) (tc : Vec Ideal S1x1024 .i32) (pr : Vec Ideal S256x1 .i32) (pc : Vec Ideal S1x1024 .i32)
  (a : Fin 256) (q : Fin 1024)

/-- The same-class bit is 1 exactly when the class labels agree. -/
theorem sameClass_iff : k0_pay11 (F := Ideal) tr tc (ix2 a q) = 1#1 ↔ tr (ix2 a 0) = tc (ix2 0 q) := by
  rw [pay11_apply, cmpi_eq_one]

/-- The same-part bit is 1 exactly when the part labels agree. -/
theorem samePart_iff :
    k0_pay14 (k0_pay12 (F := Ideal) pr) (k0_pay13 (F := Ideal) pc) (ix2 a q) = 1#1 ↔ pr (ix2 a 0) = pc (ix2 0 q) := by
  show IntOp.cmpi .eq (k0_pay12 (F := Ideal) pr (ix2 a q)) (k0_pay13 (F := Ideal) pc (ix2 a q)) = 1#1 ↔ _
  rw [pay12_apply, pay13_apply, cmpi_eq_one]

end Masks

/-! ## The extremum along a row of the tile -/

/-- A minimum taken over ONE axis is, at each kept index, the fold of min from the start value over that axis's
    coordinates, as for a maximum. -/
theorem multiReduction_minimumf_single {s t : Shape} {φ : FTy} {c : Fin s.rank} (src : FVec Ideal s φ) (acc : BitVec φ.bits)
    (h : s.Reduces [c] t) (hφ : FKind.Formats φ) (hacc : acc = FKind.minimumf.neutral φ hφ) (j : t.Idx) :
    multiReduction .minimumf [c] t src acc h hφ hacc j
      = (Finset.univ : Finset (Fin (s.size c))).fold min (FloatOps.ofBits φ acc) (src ∘ h.lift j) := by
  rw [multiReduction_minimumf_eq_fold]; exact h.fold_filter_drop_single _ _ src j

/-- Row a of the tile with the column coordinate q put back is the index (a, q). -/
theorem lift_row (a : Fin 256) (q : Fin 1024) : reduces_S256x1024_S256.lift (ix1 a) q = ix2 a q :=
  funext fun c => Fin.ext (by
    match c with
    | ⟨0, _⟩ => rfl
    | ⟨1, _⟩ => rfl)

/-- The masked maximum along row a, kept as a 256 x 1 column: the fold of max from -inf over the row's 1024 columns
    of the value where the mask bit is 1, of -inf elsewhere. -/
theorem maskedRowMax_apply (m : IVec S256x1024 1) (v : FVec Ideal S256x1024 .f32) (a : Fin 256) :
    shapeCast S256x1 (multiReduction .maximumf [1] S256
        (select m v (broadcast S256x1024 (Scalar.ofBits (F := Ideal) .f32 0xFF800000#32))) 0xFF800000#32
        reduces_S256x1024_S256 (.inl rfl) rfl) shapeCasts_S256_S256x1 (ix2 a 0)
      = (Finset.univ : Finset (Fin 1024)).fold max negInf (fun q => if m (ix2 a q) = 1#1 then v (ix2 a q) else negInf) := by
  refine (shapeCast_a_a1_apply _ shapeCasts_S256_S256x1 a 0).trans ?_
  refine (Ideal.multiReduction_maximumf_single _ _ reduces_S256x1024_S256 (.inl rfl) rfl (ix1 a)).trans ?_
  refine Finset.fold_congr fun q _ => ?_
  refine (congrArg (select m v _) (lift_row a q)).trans ?_
  rfl

/-- The masked minimum along row a, likewise from +inf. -/
theorem maskedRowMin_apply (m : IVec S256x1024 1) (v : FVec Ideal S256x1024 .f32) (a : Fin 256) :
    shapeCast S256x1 (multiReduction .minimumf [1] S256
        (select m v (broadcast S256x1024 (Scalar.ofBits (F := Ideal) .f32 0x7F800000#32))) 0x7F800000#32
        reduces_S256x1024_S256 (.inl rfl) rfl) shapeCasts_S256_S256x1 (ix2 a 0)
      = (Finset.univ : Finset (Fin 1024)).fold min posInf (fun q => if m (ix2 a q) = 1#1 then v (ix2 a q) else posInf) := by
  refine (shapeCast_a_a1_apply _ shapeCasts_S256_S256x1 a 0).trans ?_
  refine (multiReduction_minimumf_single _ _ reduces_S256x1024_S256 (.inl rfl) rfl (ix1 a)).trans ?_
  refine Finset.fold_congr fun q _ => ?_
  refine (congrArg (select m v _) (lift_row a q)).trans ?_
  rfl

/-! ## The five accumulators after one tile, at row a -/

section Acc
variable (x0 : Vec Ideal S256x128 .f32) (x1 : Vec Ideal S1024x128 .f32) (sr : Vec Ideal S256x1 .f32)
    (sc : Vec Ideal S1x1024 .f32) (tr : Vec Ideal S256x1 .i32) (tc : Vec Ideal S1x1024 .i32) (pr : Vec Ideal S256x1 .i32)
    (pc : Vec Ideal S1x1024 .i32) (old : Vec Ideal S256x1 .f32) (a : Fin 256)

/-- Accumulator 0: the running maximum over the columns of the same class and the same part. -/
theorem acc0_apply :
    k0_pay19 (F := Ideal) (k0_pay10 (F := Ideal) x0 x1 sr sc) (k0_pay11 (F := Ideal) tr tc) (k0_pay12 (F := Ideal) pr) (k0_pay13 (F := Ideal) pc) old (ix2 a 0)
      = max (old (ix2 a 0)) ((Finset.univ : Finset (Fin 1024)).fold max negInf (fun q =>
          if tr (ix2 a 0) = tc (ix2 0 q) ∧ pr (ix2 a 0) = pc (ix2 0 q) then tileDist x0 x1 sr sc a q else negInf)) := by
  unfold k0_pay19
  simp only [shapeCast_self]
  refine (congrArg (max (old (ix2 a 0))) (maskedRowMax_apply _ _ a)).trans ?_
  congr 1
  refine Finset.fold_congr fun q _ => ?_
  rw [pay10_apply]
  refine if_congr ?_ rfl rfl
  show IntOp.andi (k0_pay11 (F := Ideal) tr tc (ix2 a q))
      (k0_pay14 (k0_pay12 (F := Ideal) pr) (k0_pay13 (F := Ideal) pc) (ix2 a q)) = 1#1 ↔ _
  rw [andi_eq_one, sameClass_iff, samePart_iff]

/-- Accumulator 1: the running minimum over the columns not of the same class and part. -/
theorem acc1_apply :
    k0_pay1 (F := Ideal) (k0_pay20 (F := Ideal) (k0_pay10 (F := Ideal) x0 x1 sr sc) (k0_pay11 (F := Ideal) tr tc) (k0_pay12 (F := Ideal) pr) (k0_pay13 (F := Ideal) pc) old) (ix2 a 0)
      = min (old (ix2 a 0)) ((Finset.univ : Finset (Fin 1024)).fold min posInf (fun q =>
          if ¬(tr (ix2 a 0) = tc (ix2 0 q) ∧ pr (ix2 a 0) = pc (ix2 0 q)) then tileDist x0 x1 sr sc a q else posInf)) := by
  unfold k0_pay1 k0_pay20
  simp only [shapeCast_self]
  refine (congrArg (min (old (ix2 a 0))) (maskedRowMin_apply _ _ a)).trans ?_
  congr 1
  refine Finset.fold_congr fun q _ => ?_
  rw [pay10_apply]
  refine if_congr ?_ rfl rfl
  show IntOp.xori (IntOp.andi (k0_pay11 (F := Ideal) tr tc (ix2 a q))
      (k0_pay14 (k0_pay12 (F := Ideal) pr) (k0_pay13 (F := Ideal) pc) (ix2 a q))) 1#1 = 1#1 ↔ _
  rw [xori_one_eq_one, andi_eq_one, sameClass_iff, samePart_iff]

/-- Accumulator 2: the running maximum over the columns of a different class and the same part. -/
theorem acc2_apply :
    k0_pay2 (F := Ideal) (k0_pay16 (F := Ideal) (k0_pay10 (F := Ideal) x0 x1 sr sc) (k0_pay11 (F := Ideal) tr tc) (k0_pay12 (F := Ideal) pr) (k0_pay13 (F := Ideal) pc)) old (ix2 a 0)
      = max (old (ix2 a 0)) ((Finset.univ : Finset (Fin 1024)).fold max negInf (fun q =>
          if ¬tr (ix2 a 0) = tc (ix2 0 q) ∧ pr (ix2 a 0) = pc (ix2 0 q) then tileDist x0 x1 sr sc a q else negInf)) := by
  unfold k0_pay2 k0_pay16
  simp only [shapeCast_self]
  refine (congrArg (max (old (ix2 a 0))) (maskedRowMax_apply _ _ a)).trans ?_
  congr 1
  refine Finset.fold_congr fun q _ => ?_
  rw [pay10_apply]
  refine if_congr ?_ rfl rfl
  show IntOp.andi (IntOp.xori (k0_pay11 (F := Ideal) tr tc (ix2 a q)) 1#1)
      (k0_pay14 (k0_pay12 (F := Ideal) pr) (k0_pay13 (F := Ideal) pc) (ix2 a q)) = 1#1 ↔ _
  rw [andi_eq_one, xori_one_eq_one, sameClass_iff, samePart_iff]

/-- Accumulator 3: the running minimum over the columns of a different class and a different part. -/
theorem acc3_apply :
    k0_pay3 (F := Ideal) (k0_pay17 (F := Ideal) (k0_pay10 (F := Ideal) x0 x1 sr sc) (k0_pay11 (F := Ideal) tr tc) (k0_pay12 (F := Ideal) pr) (k0_pay13 (F := Ideal) pc)) old (ix2 a 0)
      = min (old (ix2 a 0)) ((Finset.univ : Finset (Fin 1024)).fold min posInf (fun q =>
          if ¬tr (ix2 a 0) = tc (ix2 0 q) ∧ ¬pr (ix2 a 0) = pc (ix2 0 q) then tileDist x0 x1 sr sc a q else posInf)) := by
  unfold k0_pay3 k0_pay17
  simp only [shapeCast_self]
  refine (congrArg (min (old (ix2 a 0))) (maskedRowMin_apply _ _ a)).trans ?_
  congr 1
  refine Finset.fold_congr fun q _ => ?_
  rw [pay10_apply]
  refine if_congr ?_ rfl rfl
  show IntOp.andi (IntOp.xori (k0_pay11 (F := Ideal) tr tc (ix2 a q)) 1#1)
      (IntOp.xori (k0_pay14 (k0_pay12 (F := Ideal) pr) (k0_pay13 (F := Ideal) pc) (ix2 a q)) 1#1) = 1#1 ↔ _
  rw [andi_eq_one, xori_one_eq_one, xori_one_eq_one, sameClass_iff, samePart_iff]

/-- Accumulator 4: the running maximum over the columns of the same class and a different part. -/
theorem acc4_apply :
    k0_pay4 (F := Ideal) (k0_pay18 (F := Ideal) (k0_pay10 (F := Ideal) x0 x1 sr sc) (k0_pay11 (F := Ideal) tr tc) (k0_pay12 (F := Ideal) pr) (k0_pay13 (F := Ideal) pc)) old (ix2 a 0)
      = max (old (ix2 a 0)) ((Finset.univ : Finset (Fin 1024)).fold max negInf (fun q =>
          if tr (ix2 a 0) = tc (ix2 0 q) ∧ ¬pr (ix2 a 0) = pc (ix2 0 q) then tileDist x0 x1 sr sc a q else negInf)) := by
  unfold k0_pay4 k0_pay18
  simp only [shapeCast_self]
  refine (congrArg (max (old (ix2 a 0))) (maskedRowMax_apply _ _ a)).trans ?_
  congr 1
  refine Finset.fold_congr fun q _ => ?_
  rw [pay10_apply]
  refine if_congr ?_ rfl rfl
  show IntOp.andi (k0_pay11 (F := Ideal) tr tc (ix2 a q))
      (IntOp.xori (k0_pay14 (k0_pay12 (F := Ideal) pr) (k0_pay13 (F := Ideal) pc) (ix2 a q)) 1#1) = 1#1 ↔ _
  rw [andi_eq_one, xori_one_eq_one, sameClass_iff, samePart_iff]

end Acc

/-! ## The fills that start the accumulators at the first column tile -/

theorem fill0_apply (a : Fin 256) : k0_pay5 (F := Ideal) (ix2 a 0) = negInf := by
  unfold k0_pay5; simp only [shapeCast_self]; rfl
theorem fill1_apply (a : Fin 256) : k0_pay6 (F := Ideal) (ix2 a 0) = posInf := by
  unfold k0_pay6; simp only [shapeCast_self]; rfl
theorem fill2_apply (a : Fin 256) : k0_pay7 (F := Ideal) (ix2 a 0) = negInf := by
  unfold k0_pay7; simp only [shapeCast_self]; rfl
theorem fill3_apply (a : Fin 256) : k0_pay8 (F := Ideal) (ix2 a 0) = posInf := by
  unfold k0_pay8; simp only [shapeCast_self]; rfl
theorem fill4_apply (a : Fin 256) : k0_pay9 (F := Ideal) (ix2 a 0) = negInf := by
  unfold k0_pay9; simp only [shapeCast_self]; rfl

/-! ## One grid step against the whole arrays

The blocks a grid step reads are restrictions of the whole arrays: row a of the row block is row r, and column q of
column tile j is column 1024 j + q. Then the tile's distances are the specification's, the tile's conditions are the
specification's, and each accumulator after the step is the old one joined with the tile's extremum of the entries the
statistic folds over. -/

section Row
variable (X : SX.Idx → EReal) (S : SN.Idx → EReal) (T P : SN.Idx → BitVec 32)

/-- The blocks of one grid step, at row a of the row block, are the whole arrays at row r and at column tile j. -/
structure Restricts (j : Fin 8) (r : Fin 8192) (a : Fin 256) (x0 : Vec Ideal S256x128 .f32) (x1 : Vec Ideal S1024x128 .f32)
    (sr : Vec Ideal S256x1 .f32) (sc : Vec Ideal S1x1024 .f32) (tr : Vec Ideal S256x1 .i32) (tc : Vec Ideal S1x1024 .i32)
    (pr : Vec Ideal S256x1 .i32) (pc : Vec Ideal S1x1024 .i32) : Prop where
  rows : ∀ k : Fin 128, x0 (ix2 a k) = X (ix2 r k)
  cols : ∀ (q : Fin 1024) (k : Fin 128), x1 (ix2 q k) = X (ix2 (tileCol j q) k)
  rowNorm : sr (ix2 a 0) = S (ix1 r)
  colNorm : ∀ q : Fin 1024, sc (ix2 0 q) = S (ix1 (tileCol j q))
  rowClass : tr (ix2 a 0) = T (ix1 r)
  colClass : ∀ q : Fin 1024, tc (ix2 0 q) = T (ix1 (tileCol j q))
  rowPart : pr (ix2 a 0) = P (ix1 r)
  colPart : ∀ q : Fin 1024, pc (ix2 0 q) = P (ix1 (tileCol j q))

variable {X S T P}
variable {j : Fin 8} {r : Fin 8192} {a : Fin 256} {x0 : Vec Ideal S256x128 .f32} {x1 : Vec Ideal S1024x128 .f32}
  {sr : Vec Ideal S256x1 .f32} {sc : Vec Ideal S1x1024 .f32} {tr : Vec Ideal S256x1 .i32} {tc : Vec Ideal S1x1024 .i32}
  {pr : Vec Ideal S256x1 .i32} {pc : Vec Ideal S1x1024 .i32}

/-- The tile's distance is the specification's. -/
theorem Restricts.tileDist_eq (h : Restricts X S T P j r a x0 x1 sr sc tr tc pr pc) (q : Fin 1024) :
    tileDist x0 x1 sr sc a q = Cert.HardPairs.dist X S r (tileCol j q) := by
  unfold tileDist Cert.HardPairs.dist gram
  rw [h.rowNorm, h.colNorm q]
  simp only [h.rows, h.cols q]

/-- The tile's class condition is the specification's. -/
theorem Restricts.sameT_iff (h : Restricts X S T P j r a x0 x1 sr sc tr tc pr pc) (q : Fin 1024) :
    tr (ix2 a 0) = tc (ix2 0 q) ↔ sameT T r (tileCol j q) := by
  unfold sameT; rw [h.rowClass, h.colClass q]

/-- The tile's part condition is the specification's. -/
theorem Restricts.sameP_iff (h : Restricts X S T P j r a x0 x1 sr sc tr tc pr pc) (q : Fin 1024) :
    pr (ix2 a 0) = pc (ix2 0 q) ↔ sameP P r (tileCol j q) := by
  unfold sameP; rw [h.rowPart, h.colPart q]

variable (old : Vec Ideal S256x1 .f32)

/-- Accumulator 0 after the step: the old value joined with tile j's maximum of the same-class same-part entries. -/
theorem Restricts.acc0_step (h : Restricts X S T P j r a x0 x1 sr sc tr tc pr pc) :
    k0_pay19 (F := Ideal) (k0_pay10 (F := Ideal) x0 x1 sr sc) (k0_pay11 (F := Ideal) tr tc) (k0_pay12 (F := Ideal) pr) (k0_pay13 (F := Ideal) pc) old (ix2 a 0)
      = max (old (ix2 a 0)) (tileMax negInf (selSameSame X S T P r) j) := by
  rw [acc0_apply]
  congr 1
  refine Finset.fold_congr fun q _ => ?_
  unfold selSameSame
  rw [h.tileDist_eq q]
  exact if_congr (and_congr (h.sameT_iff q) (h.sameP_iff q)) rfl rfl

/-- Accumulator 1 after the step: the old value joined with tile j's minimum of the entries not of the same class and part. -/
theorem Restricts.acc1_step (h : Restricts X S T P j r a x0 x1 sr sc tr tc pr pc) :
    k0_pay1 (F := Ideal) (k0_pay20 (F := Ideal) (k0_pay10 (F := Ideal) x0 x1 sr sc) (k0_pay11 (F := Ideal) tr tc) (k0_pay12 (F := Ideal) pr) (k0_pay13 (F := Ideal) pc) old) (ix2 a 0)
      = min (old (ix2 a 0)) (tileMin posInf (selNotSame X S T P r) j) := by
  rw [acc1_apply]
  congr 1
  refine Finset.fold_congr fun q _ => ?_
  unfold selNotSame
  rw [h.tileDist_eq q]
  exact if_congr (not_congr (and_congr (h.sameT_iff q) (h.sameP_iff q))) rfl rfl

/-- Accumulator 2 after the step: the old value joined with tile j's maximum of the different-class same-part entries. -/
theorem Restricts.acc2_step (h : Restricts X S T P j r a x0 x1 sr sc tr tc pr pc) :
    k0_pay2 (F := Ideal) (k0_pay16 (F := Ideal) (k0_pay10 (F := Ideal) x0 x1 sr sc) (k0_pay11 (F := Ideal) tr tc) (k0_pay12 (F := Ideal) pr) (k0_pay13 (F := Ideal) pc)) old (ix2 a 0)
      = max (old (ix2 a 0)) (tileMax negInf (selDiffSame X S T P r) j) := by
  rw [acc2_apply]
  congr 1
  refine Finset.fold_congr fun q _ => ?_
  unfold selDiffSame
  rw [h.tileDist_eq q]
  exact if_congr (and_congr (not_congr (h.sameT_iff q)) (h.sameP_iff q)) rfl rfl

/-- Accumulator 3 after the step: the old value joined with tile j's minimum of the different-class different-part entries. -/
theorem Restricts.acc3_step (h : Restricts X S T P j r a x0 x1 sr sc tr tc pr pc) :
    k0_pay3 (F := Ideal) (k0_pay17 (F := Ideal) (k0_pay10 (F := Ideal) x0 x1 sr sc) (k0_pay11 (F := Ideal) tr tc) (k0_pay12 (F := Ideal) pr) (k0_pay13 (F := Ideal) pc)) old (ix2 a 0)
      = min (old (ix2 a 0)) (tileMin posInf (selDiffDiff X S T P r) j) := by
  rw [acc3_apply]
  congr 1
  refine Finset.fold_congr fun q _ => ?_
  unfold selDiffDiff
  rw [h.tileDist_eq q]
  exact if_congr (and_congr (not_congr (h.sameT_iff q)) (not_congr (h.sameP_iff q))) rfl rfl

/-- Accumulator 4 after the step: the old value joined with tile j's maximum of the same-class different-part entries. -/
theorem Restricts.acc4_step (h : Restricts X S T P j r a x0 x1 sr sc tr tc pr pc) :
    k0_pay4 (F := Ideal) (k0_pay18 (F := Ideal) (k0_pay10 (F := Ideal) x0 x1 sr sc) (k0_pay11 (F := Ideal) tr tc) (k0_pay12 (F := Ideal) pr) (k0_pay13 (F := Ideal) pc)) old (ix2 a 0)
      = max (old (ix2 a 0)) (tileMax negInf (selSameDiff X S T P r) j) := by
  rw [acc4_apply]
  congr 1
  refine Finset.fold_congr fun q _ => ?_
  unfold selSameDiff
  rw [h.tileDist_eq q]
  exact if_congr (and_congr (h.sameT_iff q) (not_congr (h.sameP_iff q))) rfl rfl

end Row

end Cert.KernelIdeal.TileValue

end
-- ==== Proof.IdealPieces.lean ====
/-
  What each case of the body leaves in the five accumulators and in the output block, as the body's pure values of
  the blocks it read.
-/
import proofs.«147969_j19104014532689_1_alg».proof.Proof.IdealFrame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The zero offsets of a whole-buffer rectangle, however spelt. -/
theorem zeroOffsets2 : (![0, 0] : Fin 2 → Nat) = fun _ => 0 := funext fun a => by fin_cases a <;> rfl

/-! ## The first column tile: the accumulators are filled, then the tile is folded in -/

/-- At the first column tile the body leaves, in accumulator 0 (the maximum over the columns of the same class and part), the tile's extremum joined to the fill. -/
theorem sout0_A_0_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay19 (k0_pay10 x0 x1 x2 x3) (k0_pay11 x4 x5) (k0_pay12 x6) (k0_pay13 x7) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S256x1) zeroOffsets2, View.readCov_unit_zero (S := S256x1) _ zeroOffsets2]
  simp only [View.readAt_eq_ld, harg2.read_unread, harg3.read_unread, harg4.read_unread, harg5.read_unread, harg6.read_unread, harg7.read_unread, harg8.read_unread, harg9.read_unread, View.ld_unit_zero (S := S256x128) zeroOffsets2, View.ld_unit_zero (S := S1024x128) zeroOffsets2, View.ld_unit_zero (S := S256x1) zeroOffsets2, View.ld_unit_zero (S := S1x1024) zeroOffsets2]

/-- At the first column tile the body leaves, in accumulator 1 (the minimum over the columns not of the same class and part), the tile's extremum joined to the fill. -/
theorem sout0_A_1_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay1 (k0_pay20 (k0_pay10 x0 x1 x2 x3) (k0_pay11 x4 x5) (k0_pay12 x6) (k0_pay13 x7) (k0_pay6 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S256x1) zeroOffsets2, View.readCov_unit_zero (S := S256x1) _ zeroOffsets2]
  simp only [View.readAt_eq_ld, harg2.read_unread, harg3.read_unread, harg4.read_unread, harg5.read_unread, harg6.read_unread, harg7.read_unread, harg8.read_unread, harg9.read_unread, View.ld_unit_zero (S := S256x128) zeroOffsets2, View.ld_unit_zero (S := S1024x128) zeroOffsets2, View.ld_unit_zero (S := S256x1) zeroOffsets2, View.ld_unit_zero (S := S1x1024) zeroOffsets2]

/-- At the first column tile the body leaves, in accumulator 2 (the maximum over the columns of a different class and the same part), the tile's extremum joined to the fill. -/
theorem sout0_A_2_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay2 (k0_pay16 (k0_pay10 x0 x1 x2 x3) (k0_pay11 x4 x5) (k0_pay12 x6) (k0_pay13 x7)) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S256x1) zeroOffsets2, View.readCov_unit_zero (S := S256x1) _ zeroOffsets2]
  simp only [View.readAt_eq_ld, harg2.read_unread, harg3.read_unread, harg4.read_unread, harg5.read_unread, harg6.read_unread, harg7.read_unread, harg8.read_unread, harg9.read_unread, View.ld_unit_zero (S := S256x128) zeroOffsets2, View.ld_unit_zero (S := S1024x128) zeroOffsets2, View.ld_unit_zero (S := S256x1) zeroOffsets2, View.ld_unit_zero (S := S1x1024) zeroOffsets2]

/-- At the first column tile the body leaves, in accumulator 3 (the minimum over the columns of a different class and part), the tile's extremum joined to the fill. -/
theorem sout0_A_3_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay3 (k0_pay17 (k0_pay10 x0 x1 x2 x3) (k0_pay11 x4 x5) (k0_pay12 x6) (k0_pay13 x7)) (k0_pay8 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S256x1) zeroOffsets2, View.readCov_unit_zero (S := S256x1) _ zeroOffsets2]
  simp only [View.readAt_eq_ld, harg2.read_unread, harg3.read_unread, harg4.read_unread, harg5.read_unread, harg6.read_unread, harg7.read_unread, harg8.read_unread, harg9.read_unread, View.ld_unit_zero (S := S256x128) zeroOffsets2, View.ld_unit_zero (S := S1024x128) zeroOffsets2, View.ld_unit_zero (S := S256x1) zeroOffsets2, View.ld_unit_zero (S := S1x1024) zeroOffsets2]

/-- At the first column tile the body leaves, in accumulator 4 (the maximum over the columns of the same class and a different part), the tile's extremum joined to the fill. -/
theorem sout0_A_4_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay4 (k0_pay18 (k0_pay10 x0 x1 x2 x3) (k0_pay11 x4 x5) (k0_pay12 x6) (k0_pay13 x7)) (k0_pay9 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S256x1) zeroOffsets2, View.readCov_unit_zero (S := S256x1) _ zeroOffsets2]
  simp only [View.readAt_eq_ld, harg2.read_unread, harg3.read_unread, harg4.read_unread, harg5.read_unread, harg6.read_unread, harg7.read_unread, harg8.read_unread, harg9.read_unread, View.ld_unit_zero (S := S256x128) zeroOffsets2, View.ld_unit_zero (S := S1024x128) zeroOffsets2, View.ld_unit_zero (S := S256x1) zeroOffsets2, View.ld_unit_zero (S := S1x1024) zeroOffsets2]

/-! ## A middle column tile: the tile is folded into what the accumulators held -/

/-- At a middle column tile the body leaves, in accumulator 0 (the maximum over the columns of the same class and part), the tile's extremum joined to what the accumulator held. -/
theorem sout0_B_0_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay19 (k0_pay10 x0 x1 x2 x3) (k0_pay11 x4 x5) (k0_pay12 x6) (k0_pay13 x7) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_B
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At a middle column tile the body leaves, in accumulator 1 (the minimum over the columns not of the same class and part), the tile's extremum joined to what the accumulator held. -/
theorem sout0_B_1_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay1 (k0_pay20 (k0_pay10 x0 x1 x2 x3) (k0_pay11 x4 x5) (k0_pay12 x6) (k0_pay13 x7) xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_B
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At a middle column tile the body leaves, in accumulator 2 (the maximum over the columns of a different class and the same part), the tile's extremum joined to what the accumulator held. -/
theorem sout0_B_2_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay2 (k0_pay16 (k0_pay10 x0 x1 x2 x3) (k0_pay11 x4 x5) (k0_pay12 x6) (k0_pay13 x7)) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_B
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At a middle column tile the body leaves, in accumulator 3 (the minimum over the columns of a different class and part), the tile's extremum joined to what the accumulator held. -/
theorem sout0_B_3_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay3 (k0_pay17 (k0_pay10 x0 x1 x2 x3) (k0_pay11 x4 x5) (k0_pay12 x6) (k0_pay13 x7)) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_B
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At a middle column tile the body leaves, in accumulator 4 (the maximum over the columns of the same class and a different part), the tile's extremum joined to what the accumulator held. -/
theorem sout0_B_4_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : ¬cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay4 (k0_pay18 (k0_pay10 x0 x1 x2 x3) (k0_pay11 x4 x5) (k0_pay12 x6) (k0_pay13 x7)) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_B
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-! ## The last column tile: the same fold, then the copy into the output block -/

/-- At the last column tile the body leaves, in accumulator 0 (the maximum over the columns of the same class and part), the tile's extremum joined to what the accumulator held. -/
theorem sout0_C_0_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay19 (k0_pay10 x0 x1 x2 x3) (k0_pay11 x4 x5) (k0_pay12 x6) (k0_pay13 x7) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At the last column tile the body leaves, in accumulator 1 (the minimum over the columns not of the same class and part), the tile's extremum joined to what the accumulator held. -/
theorem sout0_C_1_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay1 (k0_pay20 (k0_pay10 x0 x1 x2 x3) (k0_pay11 x4 x5) (k0_pay12 x6) (k0_pay13 x7) xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At the last column tile the body leaves, in accumulator 2 (the maximum over the columns of a different class and the same part), the tile's extremum joined to what the accumulator held. -/
theorem sout0_C_2_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay2 (k0_pay16 (k0_pay10 x0 x1 x2 x3) (k0_pay11 x4 x5) (k0_pay12 x6) (k0_pay13 x7)) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At the last column tile the body leaves, in accumulator 3 (the minimum over the columns of a different class and part), the tile's extremum joined to what the accumulator held. -/
theorem sout0_C_3_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay3 (k0_pay17 (k0_pay10 x0 x1 x2 x3) (k0_pay11 x4 x5) (k0_pay12 x6) (k0_pay13 x7)) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- At the last column tile the body leaves, in accumulator 4 (the maximum over the columns of the same class and a different part), the tile's extremum joined to what the accumulator held. -/
theorem sout0_C_4_eq (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 = k0_pay4 (k0_pay18 (k0_pay10 x0 x1 x2 x3) (k0_pay11 x4 x5) (k0_pay12 x6) (k0_pay13 x7)) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  rw [View.canon_unit_zero (S := S256x1) zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-! ## Five column stores into the output block

The last column tile's body copies the five accumulators into the five columns of the 256 x 5 output block, one
column store each. Reading the block at (a, k) finds the k-th of them: the later stores lie in other columns. -/

section Cols

/-- Column 0 of the output block, after the five column stores, holds the first stored column. -/
theorem canon_cols_0 (p0 p1 p2 p3 p4 : Vec F S256x1 .f32) (inb0 : ∀ b, (![0, 0] : Fin 2 → ℕ) b + (![256, 1] : Fin 2 → ℕ) b ≤ S256x5.size b) (inb1 : ∀ b, (![0, 1] : Fin 2 → ℕ) b + (![256, 1] : Fin 2 → ℕ) b ≤ S256x5.size b) (inb2 : ∀ b, (![0, 2] : Fin 2 → ℕ) b + (![256, 1] : Fin 2 → ℕ) b ≤ S256x5.size b) (inb3 : ∀ b, (![0, 3] : Fin 2 → ℕ) b + (![256, 1] : Fin 2 → ℕ) b ≤ S256x5.size b) (inb4 : ∀ b, (![0, 4] : Fin 2 → ℕ) b + (![256, 1] : Fin 2 → ℕ) b ≤ S256x5.size b) (a : Fin 256) :
    View.canon [(⟨Rect.unit ![0, 4] ![256, 1] inb4, p4⟩ : View.Piece (Elt F) S256x5 .f32),
        (⟨Rect.unit ![0, 3] ![256, 1] inb3, p3⟩ : View.Piece (Elt F) S256x5 .f32),
        (⟨Rect.unit ![0, 2] ![256, 1] inb2, p2⟩ : View.Piece (Elt F) S256x5 .f32),
        (⟨Rect.unit ![0, 1] ![256, 1] inb1, p1⟩ : View.Piece (Elt F) S256x5 .f32),
        (⟨Rect.unit ![0, 0] ![256, 1] inb0, p0⟩ : View.Piece (Elt F) S256x5 .f32)] (ix2 a (0 : Fin 5)) = p0 (ix2 a (0 : Fin 1)) := by
  have h4 : ix2 a (0 : Fin 5) ∉ (Rect.unit (s := S256x5) ![0, 4] ![256, 1] inb4).set := by
    rw [Rect.mem_set_unit]
    intro h
    have h1 := h 1
    change 4 ≤ 0 ∧ 0 < 4 + 1 at h1
    omega
  rw [View.canon_cons_of_not_mem (⟨Rect.unit ![0, 4] ![256, 1] inb4, p4⟩ : View.Piece (Elt F) S256x5 .f32) _ h4]
  have h3 : ix2 a (0 : Fin 5) ∉ (Rect.unit (s := S256x5) ![0, 3] ![256, 1] inb3).set := by
    rw [Rect.mem_set_unit]
    intro h
    have h1 := h 1
    change 3 ≤ 0 ∧ 0 < 3 + 1 at h1
    omega
  rw [View.canon_cons_of_not_mem (⟨Rect.unit ![0, 3] ![256, 1] inb3, p3⟩ : View.Piece (Elt F) S256x5 .f32) _ h3]
  have h2 : ix2 a (0 : Fin 5) ∉ (Rect.unit (s := S256x5) ![0, 2] ![256, 1] inb2).set := by
    rw [Rect.mem_set_unit]
    intro h
    have h1 := h 1
    change 2 ≤ 0 ∧ 0 < 2 + 1 at h1
    omega
  rw [View.canon_cons_of_not_mem (⟨Rect.unit ![0, 2] ![256, 1] inb2, p2⟩ : View.Piece (Elt F) S256x5 .f32) _ h2]
  have h1 : ix2 a (0 : Fin 5) ∉ (Rect.unit (s := S256x5) ![0, 1] ![256, 1] inb1).set := by
    rw [Rect.mem_set_unit]
    intro h
    have h1 := h 1
    change 1 ≤ 0 ∧ 0 < 1 + 1 at h1
    omega
  rw [View.canon_cons_of_not_mem (⟨Rect.unit ![0, 1] ![256, 1] inb1, p1⟩ : View.Piece (Elt F) S256x5 .f32) _ h1]
  have e : ix2 a (0 : Fin 5) = (Rect.unit (s := S256x5) ![0, 0] ![256, 1] inb0).emb (ix2 a (0 : Fin 1)) :=
    funext fun b => Fin.ext (by
      match b with
      | ⟨0, _⟩ => show a.val = 0 + 1 * a.val; omega
      | ⟨1, _⟩ => show 0 = 0 + 1 * 0; omega)
  rw [e, View.canon_cons_emb]

/-- Column 1 of the output block, after the five column stores, holds the second stored column. -/
theorem canon_cols_1 (p0 p1 p2 p3 p4 : Vec F S256x1 .f32) (inb0 : ∀ b, (![0, 0] : Fin 2 → ℕ) b + (![256, 1] : Fin 2 → ℕ) b ≤ S256x5.size b) (inb1 : ∀ b, (![0, 1] : Fin 2 → ℕ) b + (![256, 1] : Fin 2 → ℕ) b ≤ S256x5.size b) (inb2 : ∀ b, (![0, 2] : Fin 2 → ℕ) b + (![256, 1] : Fin 2 → ℕ) b ≤ S256x5.size b) (inb3 : ∀ b, (![0, 3] : Fin 2 → ℕ) b + (![256, 1] : Fin 2 → ℕ) b ≤ S256x5.size b) (inb4 : ∀ b, (![0, 4] : Fin 2 → ℕ) b + (![256, 1] : Fin 2 → ℕ) b ≤ S256x5.size b) (a : Fin 256) :
    View.canon [(⟨Rect.unit ![0, 4] ![256, 1] inb4, p4⟩ : View.Piece (Elt F) S256x5 .f32),
        (⟨Rect.unit ![0, 3] ![256, 1] inb3, p3⟩ : View.Piece (Elt F) S256x5 .f32),
        (⟨Rect.unit ![0, 2] ![256, 1] inb2, p2⟩ : View.Piece (Elt F) S256x5 .f32),
        (⟨Rect.unit ![0, 1] ![256, 1] inb1, p1⟩ : View.Piece (Elt F) S256x5 .f32),
        (⟨Rect.unit ![0, 0] ![256, 1] inb0, p0⟩ : View.Piece (Elt F) S256x5 .f32)] (ix2 a (1 : Fin 5)) = p1 (ix2 a (0 : Fin 1)) := by
  have h4 : ix2 a (1 : Fin 5) ∉ (Rect.unit (s := S256x5) ![0, 4] ![256, 1] inb4).set := by
    rw [Rect.mem_set_unit]
    intro h
    have h1 := h 1
    change 4 ≤ 1 ∧ 1 < 4 + 1 at h1
    omega
  rw [View.canon_cons_of_not_mem (⟨Rect.unit ![0, 4] ![256, 1] inb4, p4⟩ : View.Piece (Elt F) S256x5 .f32) _ h4]
  have h3 : ix2 a (1 : Fin 5) ∉ (Rect.unit (s := S256x5) ![0, 3] ![256, 1] inb3).set := by
    rw [Rect.mem_set_unit]
    intro h
    have h1 := h 1
    change 3 ≤ 1 ∧ 1 < 3 + 1 at h1
    omega
  rw [View.canon_cons_of_not_mem (⟨Rect.unit ![0, 3] ![256, 1] inb3, p3⟩ : View.Piece (Elt F) S256x5 .f32) _ h3]
  have h2 : ix2 a (1 : Fin 5) ∉ (Rect.unit (s := S256x5) ![0, 2] ![256, 1] inb2).set := by
    rw [Rect.mem_set_unit]
    intro h
    have h1 := h 1
    change 2 ≤ 1 ∧ 1 < 2 + 1 at h1
    omega
  rw [View.canon_cons_of_not_mem (⟨Rect.unit ![0, 2] ![256, 1] inb2, p2⟩ : View.Piece (Elt F) S256x5 .f32) _ h2]
  have e : ix2 a (1 : Fin 5) = (Rect.unit (s := S256x5) ![0, 1] ![256, 1] inb1).emb (ix2 a (0 : Fin 1)) :=
    funext fun b => Fin.ext (by
      match b with
      | ⟨0, _⟩ => show a.val = 0 + 1 * a.val; omega
      | ⟨1, _⟩ => show 1 = 1 + 1 * 0; omega)
  rw [e, View.canon_cons_emb]

/-- Column 2 of the output block, after the five column stores, holds the third stored column. -/
theorem canon_cols_2 (p0 p1 p2 p3 p4 : Vec F S256x1 .f32) (inb0 : ∀ b, (![0, 0] : Fin 2 → ℕ) b + (![256, 1] : Fin 2 → ℕ) b ≤ S256x5.size b) (inb1 : ∀ b, (![0, 1] : Fin 2 → ℕ) b + (![256, 1] : Fin 2 → ℕ) b ≤ S256x5.size b) (inb2 : ∀ b, (![0, 2] : Fin 2 → ℕ) b + (![256, 1] : Fin 2 → ℕ) b ≤ S256x5.size b) (inb3 : ∀ b, (![0, 3] : Fin 2 → ℕ) b + (![256, 1] : Fin 2 → ℕ) b ≤ S256x5.size b) (inb4 : ∀ b, (![0, 4] : Fin 2 → ℕ) b + (![256, 1] : Fin 2 → ℕ) b ≤ S256x5.size b) (a : Fin 256) :
    View.canon [(⟨Rect.unit ![0, 4] ![256, 1] inb4, p4⟩ : View.Piece (Elt F) S256x5 .f32),
        (⟨Rect.unit ![0, 3] ![256, 1] inb3, p3⟩ : View.Piece (Elt F) S256x5 .f32),
        (⟨Rect.unit ![0, 2] ![256, 1] inb2, p2⟩ : View.Piece (Elt F) S256x5 .f32),
        (⟨Rect.unit ![0, 1] ![256, 1] inb1, p1⟩ : View.Piece (Elt F) S256x5 .f32),
        (⟨Rect.unit ![0, 0] ![256, 1] inb0, p0⟩ : View.Piece (Elt F) S256x5 .f32)] (ix2 a (2 : Fin 5)) = p2 (ix2 a (0 : Fin 1)) := by
  have h4 : ix2 a (2 : Fin 5) ∉ (Rect.unit (s := S256x5) ![0, 4] ![256, 1] inb4).set := by
    rw [Rect.mem_set_unit]
    intro h
    have h1 := h 1
    change 4 ≤ 2 ∧ 2 < 4 + 1 at h1
    omega
  rw [View.canon_cons_of_not_mem (⟨Rect.unit ![0, 4] ![256, 1] inb4, p4⟩ : View.Piece (Elt F) S256x5 .f32) _ h4]
  have h3 : ix2 a (2 : Fin 5) ∉ (Rect.unit (s := S256x5) ![0, 3] ![256, 1] inb3).set := by
    rw [Rect.mem_set_unit]
    intro h
    have h1 := h 1
    change 3 ≤ 2 ∧ 2 < 3 + 1 at h1
    omega
  rw [View.canon_cons_of_not_mem (⟨Rect.unit ![0, 3] ![256, 1] inb3, p3⟩ : View.Piece (Elt F) S256x5 .f32) _ h3]
  have e : ix2 a (2 : Fin 5) = (Rect.unit (s := S256x5) ![0, 2] ![256, 1] inb2).emb (ix2 a (0 : Fin 1)) :=
    funext fun b => Fin.ext (by
      match b with
      | ⟨0, _⟩ => show a.val = 0 + 1 * a.val; omega
      | ⟨1, _⟩ => show 2 = 2 + 1 * 0; omega)
  rw [e, View.canon_cons_emb]

/-- Column 3 of the output block, after the five column stores, holds the fourth stored column. -/
theorem canon_cols_3 (p0 p1 p2 p3 p4 : Vec F S256x1 .f32) (inb0 : ∀ b, (![0, 0] : Fin 2 → ℕ) b + (![256, 1] : Fin 2 → ℕ) b ≤ S256x5.size b) (inb1 : ∀ b, (![0, 1] : Fin 2 → ℕ) b + (![256, 1] : Fin 2 → ℕ) b ≤ S256x5.size b) (inb2 : ∀ b, (![0, 2] : Fin 2 → ℕ) b + (![256, 1] : Fin 2 → ℕ) b ≤ S256x5.size b) (inb3 : ∀ b, (![0, 3] : Fin 2 → ℕ) b + (![256, 1] : Fin 2 → ℕ) b ≤ S256x5.size b) (inb4 : ∀ b, (![0, 4] : Fin 2 → ℕ) b + (![256, 1] : Fin 2 → ℕ) b ≤ S256x5.size b) (a : Fin 256) :
    View.canon [(⟨Rect.unit ![0, 4] ![256, 1] inb4, p4⟩ : View.Piece (Elt F) S256x5 .f32),
        (⟨Rect.unit ![0, 3] ![256, 1] inb3, p3⟩ : View.Piece (Elt F) S256x5 .f32),
        (⟨Rect.unit ![0, 2] ![256, 1] inb2, p2⟩ : View.Piece (Elt F) S256x5 .f32),
        (⟨Rect.unit ![0, 1] ![256, 1] inb1, p1⟩ : View.Piece (Elt F) S256x5 .f32),
        (⟨Rect.unit ![0, 0] ![256, 1] inb0, p0⟩ : View.Piece (Elt F) S256x5 .f32)] (ix2 a (3 : Fin 5)) = p3 (ix2 a (0 : Fin 1)) := by
  have h4 : ix2 a (3 : Fin 5) ∉ (Rect.unit (s := S256x5) ![0, 4] ![256, 1] inb4).set := by
    rw [Rect.mem_set_unit]
    intro h
    have h1 := h 1
    change 4 ≤ 3 ∧ 3 < 4 + 1 at h1
    omega
  rw [View.canon_cons_of_not_mem (⟨Rect.unit ![0, 4] ![256, 1] inb4, p4⟩ : View.Piece (Elt F) S256x5 .f32) _ h4]
  have e : ix2 a (3 : Fin 5) = (Rect.unit (s := S256x5) ![0, 3] ![256, 1] inb3).emb (ix2 a (0 : Fin 1)) :=
    funext fun b => Fin.ext (by
      match b with
      | ⟨0, _⟩ => show a.val = 0 + 1 * a.val; omega
      | ⟨1, _⟩ => show 3 = 3 + 1 * 0; omega)
  rw [e, View.canon_cons_emb]

/-- Column 4 of the output block, after the five column stores, holds the fifth stored column. -/
theorem canon_cols_4 (p0 p1 p2 p3 p4 : Vec F S256x1 .f32) (inb0 : ∀ b, (![0, 0] : Fin 2 → ℕ) b + (![256, 1] : Fin 2 → ℕ) b ≤ S256x5.size b) (inb1 : ∀ b, (![0, 1] : Fin 2 → ℕ) b + (![256, 1] : Fin 2 → ℕ) b ≤ S256x5.size b) (inb2 : ∀ b, (![0, 2] : Fin 2 → ℕ) b + (![256, 1] : Fin 2 → ℕ) b ≤ S256x5.size b) (inb3 : ∀ b, (![0, 3] : Fin 2 → ℕ) b + (![256, 1] : Fin 2 → ℕ) b ≤ S256x5.size b) (inb4 : ∀ b, (![0, 4] : Fin 2 → ℕ) b + (![256, 1] : Fin 2 → ℕ) b ≤ S256x5.size b) (a : Fin 256) :
    View.canon [(⟨Rect.unit ![0, 4] ![256, 1] inb4, p4⟩ : View.Piece (Elt F) S256x5 .f32),
        (⟨Rect.unit ![0, 3] ![256, 1] inb3, p3⟩ : View.Piece (Elt F) S256x5 .f32),
        (⟨Rect.unit ![0, 2] ![256, 1] inb2, p2⟩ : View.Piece (Elt F) S256x5 .f32),
        (⟨Rect.unit ![0, 1] ![256, 1] inb1, p1⟩ : View.Piece (Elt F) S256x5 .f32),
        (⟨Rect.unit ![0, 0] ![256, 1] inb0, p0⟩ : View.Piece (Elt F) S256x5 .f32)] (ix2 a (4 : Fin 5)) = p4 (ix2 a (0 : Fin 1)) := by

  have e : ix2 a (4 : Fin 5) = (Rect.unit (s := S256x5) ![0, 4] ![256, 1] inb4).emb (ix2 a (0 : Fin 1)) :=
    funext fun b => Fin.ext (by
      match b with
      | ⟨0, _⟩ => show a.val = 0 + 1 * a.val; omega
      | ⟨1, _⟩ => show 4 = 4 + 1 * 0; omega)
  rw [e, View.canon_cons_emb]

end Cols

/-! ## The output block after the last column tile -/

/-- After the last column tile, column 0 of the output block is accumulator 0. -/
theorem out0_C_8_col0 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (a : Fin 256) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (0 : Fin 5))
      = sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (0 : Fin 1)) := by
  rw [sout0_C_0_eq]
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  refine (canon_cols_0 _ _ _ _ _ _ _ _ _ _ a).trans ?_
  rw [View.readCov_unit_zero (S := S256x1) _ zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- After the last column tile, column 1 of the output block is accumulator 1. -/
theorem out0_C_8_col1 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (a : Fin 256) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (1 : Fin 5))
      = sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (0 : Fin 1)) := by
  rw [sout0_C_1_eq]
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  refine (canon_cols_1 _ _ _ _ _ _ _ _ _ _ a).trans ?_
  rw [View.readCov_unit_zero (S := S256x1) _ zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- After the last column tile, column 2 of the output block is accumulator 2. -/
theorem out0_C_8_col2 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (a : Fin 256) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (2 : Fin 5))
      = sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (0 : Fin 1)) := by
  rw [sout0_C_2_eq]
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  refine (canon_cols_2 _ _ _ _ _ _ _ _ _ _ a).trans ?_
  rw [View.readCov_unit_zero (S := S256x1) _ zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- After the last column tile, column 3 of the output block is accumulator 3. -/
theorem out0_C_8_col3 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (a : Fin 256) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (3 : Fin 5))
      = sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (0 : Fin 1)) := by
  rw [sout0_C_3_eq]
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  refine (canon_cols_3 _ _ _ _ _ _ _ _ _ _ a).trans ?_
  rw [View.readCov_unit_zero (S := S256x1) _ zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

/-- After the last column tile, column 4 of the output block is accumulator 4. -/
theorem out0_C_8_col4 (c : Dev nD) (i : grid0.Coords) (arg2 : Memref sig .tc .vmem S256x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S256x1 .i32) (harg6 : arg6.IsWhole) (arg7 : Memref sig .tc .vmem S1x1024 .i32) (harg7 : arg7.IsWhole) (arg8 : Memref sig .tc .vmem S256x1 .i32) (harg8 : arg8.IsWhole) (arg9 : Memref sig .tc .vmem S1x1024 .i32) (harg9 : arg9.IsWhole) (arg10 : Memref sig .tc .vmem S256x5 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S256x1 .f32) (harg15 : arg15.IsWhole) (hc0 : ¬cond0_0 i) (hc1 : cond0_1 i) (x0 : Vec F S256x128 .f32) (x1 : Vec F S1024x128 .f32) (x2 : Vec F S256x1 .f32) (x3 : Vec F S1x1024 .f32) (x4 : Vec F S256x1 .i32) (x5 : Vec F S1x1024 .i32) (x6 : Vec F S256x1 .i32) (x7 : Vec F S1x1024 .i32) (xs0 : Vec F S256x1 .f32) (xs1 : Vec F S256x1 .f32) (xs2 : Vec F S256x1 .f32) (xs3 : Vec F S256x1 .f32) (xs4 : Vec F S256x1 .f32) (a : Fin 256) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (4 : Fin 5))
      = sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4 (ix2 a (0 : Fin 1)) := by
  rw [sout0_C_4_eq]
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 xs4)]
  unfold kernelRun0_C
  dsimp only
  sl_unfold_words
  refine (canon_cols_4 _ _ _ _ _ _ _ _ _ _ a).trans ?_
  rw [View.readCov_unit_zero (S := S256x1) _ zeroOffsets2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, View.ld_unit_zero (S := S256x128) zeroOffsets2, View.ld_unit_zero (S := S1024x128) zeroOffsets2, View.ld_unit_zero (S := S256x1) zeroOffsets2, View.ld_unit_zero (S := S1x1024) zeroOffsets2]

end Cert.KernelIdeal.Hand

end
-- ==== Proof.IdealRows.lean ====
/-
  The accumulators row by row: each grid step's blocks are restrictions of the whole arrays, so after the step of
  column tile j the five accumulators hold, at row a of the row block, the running extrema over tiles 0..j of the
  entries the five statistics fold over; after the last tile the output block holds the five statistics.
-/
import proofs.«147969_j19104014532689_1_alg».proof.Proof.IdealSetting
import proofs.«147969_j19104014532689_1_alg».proof.Proof.IdealFrame
import proofs.«147969_j19104014532689_1_alg».proof.Proof.IdealHostLines
import proofs.«147969_j19104014532689_1_alg».proof.Proof.TileMath
import proofs.«147969_j19104014532689_1_alg».proof.Proof.TilePayload
import proofs.«147969_j19104014532689_1_alg».proof.Proof.IdealPieces
import Idealize.ShloMosaic.Lib.Pipeline.Value

set_option maxRecDepth 16384

noncomputable section

namespace Cert.KernelIdeal.Hand

open Cert.KernelIdeal Cert.KernelIdeal.Gen Cert.HardPairs Cert.KernelIdeal.TileValue
open Idealize.ShloMosaic Idealize.ShloMosaic.TcCoe Idealize.ShloMosaic.ValueIdx

variable (m : (ℓ : Loc nD τ sig) → Buf (Elt Ideal) ℓ)

/-! ## Where a grid point's blocks sit in the whole arrays -/

theorem N_256 : cfg0.N = 256 := N_0

/-- The row of the table at position a of the row block of point t. -/
abbrev rowOf (t : Fin cfg0.N) (a : Fin 256) : Fin 8192 :=
  ⟨256 * (t.val / 8) + a.val, by have := t.isLt; have := a.isLt; have := N_256; omega⟩
/-- The column tile of point t. -/
abbrev tileOf (t : Fin cfg0.N) : Fin 8 := ⟨t.val % 8, Nat.mod_lt _ (by norm_num)⟩

/-- The windows over row blocks are indexed by the row block, the windows over column tiles by the column tile. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)

/-! ## The blocks read off the arrays -/

/-- The row block of the rows. -/
theorem iblk0_read (c : Dev nD) (t : Fin cfg0.N) (a : Fin 256) (k : Fin 128) :
    (iblk m c 0 t : Vec Ideal S256x128 .f32) (ix2 a k) = V m c main_v0 (ix2 (rowOf t a) k) := by
  have hi := idx0 t
  unfold iblk
  rw [View.read_apply]
  show V m c main_v0 _ = V m c main_v0 _
  refine congrArg (V m c main_v0) (funext fun ax => Fin.ext ?_)
  match ax with
  | ⟨0, _⟩ => show win0_0.index t 0 * 256 + 1 * a.val = 256 * (t.val / 8) + a.val; rw [hi.1]; omega
  | ⟨1, _⟩ => show win0_0.index t 1 * 128 + 1 * k.val = k.val; rw [hi.2]; omega

/-- The column tile's block of the rows. -/
theorem iblk1_read (c : Dev nD) (t : Fin cfg0.N) (q : Fin 1024) (k : Fin 128) :
    (iblk m c 1 t : Vec Ideal S1024x128 .f32) (ix2 q k) = V m c main_v0 (ix2 (tileCol (tileOf t) q) k) := by
  have hi := idx1 t
  unfold iblk
  rw [View.read_apply]
  show V m c main_v0 _ = V m c main_v0 _
  refine congrArg (V m c main_v0) (funext fun ax => Fin.ext ?_)
  match ax with
  | ⟨0, _⟩ => show win0_1.index t 0 * 1024 + 1 * q.val = 1024 * (t.val % 8) + q.val; rw [hi.1]; omega
  | ⟨1, _⟩ => show win0_1.index t 1 * 128 + 1 * k.val = k.val; rw [hi.2]; omega

theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
/-- The row block of the squared norms. -/
theorem iblk2_read (c : Dev nD) (t : Fin cfg0.N) (a : Fin 256) :
    (iblk m c 2 t : Vec Ideal S256x1 .f32) (ix2 a 0) = V m c main_v9 (ix2 (rowOf t a) 0) := by
  have hi := idx2 t
  unfold iblk
  rw [View.read_apply]
  show V m c main_v9 _ = V m c main_v9 _
  refine congrArg (V m c main_v9) (funext fun ax => Fin.ext ?_)
  match ax with
  | ⟨0, _⟩ => show win0_2.index t 0 * 256 + 1 * a.val = 256 * (t.val / 8) + a.val; rw [hi.1]; omega
  | ⟨1, _⟩ => show win0_2.index t 1 * 1 + 1 * 0 = 0; rw [hi.2]

theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
/-- The column tile of the squared norms. -/
theorem iblk3_read (c : Dev nD) (t : Fin cfg0.N) (q : Fin 1024) :
    (iblk m c 3 t : Vec Ideal S1x1024 .f32) (ix2 0 q) = V m c main_v10 (ix2 0 (tileCol (tileOf t) q)) := by
  have hi := idx3 t
  unfold iblk
  rw [View.read_apply]
  show V m c main_v10 _ = V m c main_v10 _
  refine congrArg (V m c main_v10) (funext fun ax => Fin.ext ?_)
  match ax with
  | ⟨0, _⟩ => show win0_3.index t 0 * 1 + 1 * 0 = 0; rw [hi.1]
  | ⟨1, _⟩ => show win0_3.index t 1 * 1024 + 1 * q.val = 1024 * (t.val % 8) + q.val; rw [hi.2]; omega

theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
/-- The row block of the class labels. -/
theorem iblk4_read (c : Dev nD) (t : Fin cfg0.N) (a : Fin 256) :
    (iblk m c 4 t : Vec Ideal S256x1 .i32) (ix2 a 0) = V m c main_v11 (ix2 (rowOf t a) 0) := by
  have hi := idx4 t
  unfold iblk
  rw [View.read_apply]
  show V m c main_v11 _ = V m c main_v11 _
  refine congrArg (V m c main_v11) (funext fun ax => Fin.ext ?_)
  match ax with
  | ⟨0, _⟩ => show win0_4.index t 0 * 256 + 1 * a.val = 256 * (t.val / 8) + a.val; rw [hi.1]; omega
  | ⟨1, _⟩ => show win0_4.index t 1 * 1 + 1 * 0 = 0; rw [hi.2]

theorem idx5 : ∀ t : Fin cfg0.N, win0_5.index t 0 = 0 ∧ win0_5.index t 1 = t.val % 8 :=
  (by decide +kernel : ∀ t : Fin grid0.N, win0_5.index t 0 = 0 ∧ win0_5.index t 1 = t.val % 8)
/-- The column tile of the class labels. -/
theorem iblk5_read (c : Dev nD) (t : Fin cfg0.N) (q : Fin 1024) :
    (iblk m c 5 t : Vec Ideal S1x1024 .i32) (ix2 0 q) = V m c main_v12 (ix2 0 (tileCol (tileOf t) q)) := by
  have hi := idx5 t
  unfold iblk
  rw [View.read_apply]
  show V m c main_v12 _ = V m c main_v12 _
  refine congrArg (V m c main_v12) (funext fun ax => Fin.ext ?_)
  match ax with
  | ⟨0, _⟩ => show win0_5.index t 0 * 1 + 1 * 0 = 0; rw [hi.1]
  | ⟨1, _⟩ => show win0_5.index t 1 * 1024 + 1 * q.val = 1024 * (t.val % 8) + q.val; rw [hi.2]; omega

theorem idx6 : ∀ t : Fin cfg0.N, win0_6.index t 0 = t.val / 8 ∧ win0_6.index t 1 = 0 :=
  (by decide +kernel : ∀ t : Fin grid0.N, win0_6.index t 0 = t.val / 8 ∧ win0_6.index t 1 = 0)
/-- The row block of the part labels. -/
theorem iblk6_read (c : Dev nD) (t : Fin cfg0.N) (a : Fin 256) :
    (iblk m c 6 t : Vec Ideal S256x1 .i32) (ix2 a 0) = V m c main_v13 (ix2 (rowOf t a) 0) := by
  have hi := idx6 t
  unfold iblk
  rw [View.read_apply]
  show V m c main_v13 _ = V m c main_v13 _
  refine congrArg (V m c main_v13) (funext fun ax => Fin.ext ?_)
  match ax with
  | ⟨0, _⟩ => show win0_6.index t 0 * 256 + 1 * a.val = 256 * (t.val / 8) + a.val; rw [hi.1]; omega
  | ⟨1, _⟩ => show win0_6.index t 1 * 1 + 1 * 0 = 0; rw [hi.2]

theorem idx7 : ∀ t : Fin cfg0.N, win0_7.index t 0 = 0 ∧ win0_7.index t 1 = t.val % 8 :=
  (by decide +kernel : ∀ t : Fin grid0.N, win0_7.index t 0 = 0 ∧ win0_7.index t 1 = t.val % 8)
/-- The column tile of the part labels. -/
theorem iblk7_read (c : Dev nD) (t : Fin cfg0.N) (q : Fin 1024) :
    (iblk m c 7 t : Vec Ideal S1x1024 .i32) (ix2 0 q) = V m c main_v14 (ix2 0 (tileCol (tileOf t) q)) := by
  have hi := idx7 t
  unfold iblk
  rw [View.read_apply]
  show V m c main_v14 _ = V m c main_v14 _
  refine congrArg (V m c main_v14) (funext fun ax => Fin.ext ?_)
  match ax with
  | ⟨0, _⟩ => show win0_7.index t 0 * 1 + 1 * 0 = 0; rw [hi.1]
  | ⟨1, _⟩ => show win0_7.index t 1 * 1024 + 1 * q.val = 1024 * (t.val % 8) + q.val; rw [hi.2]; omega

/-! ## One grid step's blocks are restrictions of the whole arrays -/

/-- At row a of point t's row block the eight blocks are the derived data at row rowOf t a and column tile tileOf t. -/
theorem restricts (c : Dev nD) (t : Fin cfg0.N) (a : Fin 256) :
    Restricts (rowsK m c) (sqK m c) (clsK m c) partsK (tileOf t) (rowOf t a) a
      (iblk m c 0 t) (iblk m c 1 t) (iblk m c 2 t) (iblk m c 3 t) (iblk m c 4 t) (iblk m c 5 t) (iblk m c 6 t) (iblk m c 7 t) where
  rows k := (iblk0_read m c t a k).trans (V_rows m c _ k)
  cols q k := (iblk1_read m c t q k).trans (V_rows m c _ k)
  rowNorm := (iblk2_read m c t a).trans (V_sqCol m c _)
  colNorm q := (iblk3_read m c t q).trans (V_sqRow m c _)
  rowClass := (iblk4_read m c t a).trans (V_clsCol m c _)
  colClass q := (iblk5_read m c t q).trans (V_clsRow m c _)
  rowPart := (iblk6_read m c t a).trans (V_partsCol m c _)
  colPart q := (iblk7_read m c t q).trans (V_partsRow m c _)

/-! ## The running extremum at a point's column tile

The running extremum after tile n % 8, restated for a point number n: at the first tile of a row block it starts from
the neutral value; at a later tile it takes the tile into what the point before left. -/

theorem accMax_mod_first (b : EReal) (g : Fin 8192 → EReal) (n : ℕ) (h0 : n % 8 = 0) :
    accMax b g (n % 8) = max b (tileMax b g ⟨n % 8, Nat.mod_lt _ (by norm_num)⟩) := by
  have e : (⟨n % 8, Nat.mod_lt _ (by norm_num)⟩ : Fin 8) = ⟨0, by norm_num⟩ := Fin.ext h0
  rw [e, h0, accMax_zero, tileMaxN_of_lt b g (by norm_num : 0 < 8)]

theorem accMax_mod_next (b : EReal) (g : Fin 8192 → EReal) (n : ℕ) (h0 : ¬(n + 1) % 8 = 0) :
    accMax b g ((n + 1) % 8) = max (accMax b g (n % 8)) (tileMax b g ⟨(n + 1) % 8, Nat.mod_lt _ (by norm_num)⟩) := by
  have e : (n + 1) % 8 = n % 8 + 1 := by omega
  have e' : (⟨(n + 1) % 8, Nat.mod_lt _ (by norm_num)⟩ : Fin 8) = ⟨n % 8 + 1, by omega⟩ := Fin.ext e
  rw [e', e, accMax_succ, tileMaxN_of_lt b g (by omega : n % 8 + 1 < 8)]

theorem accMin_mod_first (b : EReal) (g : Fin 8192 → EReal) (n : ℕ) (h0 : n % 8 = 0) :
    accMin b g (n % 8) = min b (tileMin b g ⟨n % 8, Nat.mod_lt _ (by norm_num)⟩) := by
  have e : (⟨n % 8, Nat.mod_lt _ (by norm_num)⟩ : Fin 8) = ⟨0, by norm_num⟩ := Fin.ext h0
  rw [e, h0, accMin_zero, tileMinN_of_lt b g (by norm_num : 0 < 8)]

theorem accMin_mod_next (b : EReal) (g : Fin 8192 → EReal) (n : ℕ) (h0 : ¬(n + 1) % 8 = 0) :
    accMin b g ((n + 1) % 8) = min (accMin b g (n % 8)) (tileMin b g ⟨(n + 1) % 8, Nat.mod_lt _ (by norm_num)⟩) := by
  have e : (n + 1) % 8 = n % 8 + 1 := by omega
  have e' : (⟨(n + 1) % 8, Nat.mod_lt _ (by norm_num)⟩ : Fin 8) = ⟨n % 8 + 1, by omega⟩ := Fin.ext e
  rw [e', e, accMin_succ, tileMinN_of_lt b g (by omega : n % 8 + 1 < 8)]

/-- Within a row block the point before works on the same rows. -/
theorem rowOf_pred (n : ℕ) (hn : n + 1 < cfg0.N) (h0 : ¬(n + 1) % 8 = 0) (a : Fin 256) :
    rowOf ⟨n, Nat.lt_of_succ_lt hn⟩ a = rowOf ⟨n + 1, hn⟩ a :=
  Fin.ext (by show 256 * (n / 8) + a.val = 256 * ((n + 1) / 8) + a.val; omega)

/-! ## The five accumulators, point by point -/

/-- Accumulator 0 after a point of the first column tile: the neutral value joined with the tile's extremum of the
    entries of same class and same part. -/
theorem acc0_first (c : Dev nD) (t : Fin cfg0.N) (h0 : t.val % 8 = 0) (a : Fin 256) :
    (outsAt0 m c t.val t.isLt).2.1 (ix2 a 0)
      = max negInf (tileMax negInf (selSameSame (rowsK m c) (sqK m c) (clsK m c) partsK (rowOf t a)) (tileOf t)) := by
  rw [outsAt0_A m c t h0]
  show sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t) (ix2 a 0) = _
  refine (congrFun (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t)) (ix2 a 0)).trans ?_
  refine ((restricts m c t a).acc0_step _).trans ?_
  rw [fill0_apply]

/-- Accumulator 0 after a later point of the row block: what the point before left joined with the tile's extremum. -/
theorem acc0_next (c : Dev nD) (t : Fin cfg0.N) (h0 : ¬t.val % 8 = 0) (a : Fin 256) :
    (outsAt0 m c t.val t.isLt).2.1 (ix2 a 0)
      = max ((outsAt0 m c (t.val - 1) (Nat.lt_of_le_of_lt (Nat.sub_le _ _) t.isLt)).2.1 (ix2 a 0))
          (tileMax negInf (selSameSame (rowsK m c) (sqK m c) (clsK m c) partsK (rowOf t a)) (tileOf t)) := by
  by_cases h1 : t.val % 8 = 7
  · rw [outsAt0_C m c t h0 h1]
    show sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc0_step _
  · rw [outsAt0_B m c t h0 h1]
    show sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc0_step _

theorem acc0_at_nat (c : Dev nD) (n : ℕ) : ∀ (hn : n < cfg0.N) (a : Fin 256),
    (outsAt0 m c n hn).2.1 (ix2 a 0) = accMax negInf (selSameSame (rowsK m c) (sqK m c) (clsK m c) partsK (rowOf ⟨n, hn⟩ a)) (n % 8) := by
  induction n with
  | zero =>
    intro hn a
    exact (acc0_first m c ⟨0, hn⟩ (Nat.zero_mod 8) a).trans (accMax_mod_first _ _ 0 (Nat.zero_mod 8)).symm
  | succ n ih =>
    intro hn a
    by_cases h0 : (n + 1) % 8 = 0
    · exact (acc0_first m c ⟨n + 1, hn⟩ h0 a).trans (accMax_mod_first _ _ (n + 1) h0).symm
    · refine (acc0_next m c ⟨n + 1, hn⟩ h0 a).trans ?_
      rw [accMax_mod_next _ _ n h0, ← rowOf_pred n hn h0 a]
      exact congrArg (fun v => max v _) (ih (Nat.lt_of_succ_lt hn) a)

/-- Accumulator 0 after point t, at row a of the row block: the running extremum over column tiles 0 .. t % 8 of the
    entries of same class and same part of row rowOf t a. -/
theorem acc0_at (c : Dev nD) (t : Fin cfg0.N) (a : Fin 256) :
    (outsAt0 m c t.val t.isLt).2.1 (ix2 a 0) = accMax negInf (selSameSame (rowsK m c) (sqK m c) (clsK m c) partsK (rowOf t a)) (t.val % 8) :=
  acc0_at_nat m c t.val t.isLt a

/-- Accumulator 1 after a point of the first column tile: the neutral value joined with the tile's extremum of the
    entries of not of the same class and part. -/
theorem acc1_first (c : Dev nD) (t : Fin cfg0.N) (h0 : t.val % 8 = 0) (a : Fin 256) :
    (outsAt0 m c t.val t.isLt).2.2.1 (ix2 a 0)
      = min posInf (tileMin posInf (selNotSame (rowsK m c) (sqK m c) (clsK m c) partsK (rowOf t a)) (tileOf t)) := by
  rw [outsAt0_A m c t h0]
  show sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t) (ix2 a 0) = _
  refine (congrFun (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t)) (ix2 a 0)).trans ?_
  refine ((restricts m c t a).acc1_step _).trans ?_
  rw [fill1_apply]

/-- Accumulator 1 after a later point of the row block: what the point before left joined with the tile's extremum. -/
theorem acc1_next (c : Dev nD) (t : Fin cfg0.N) (h0 : ¬t.val % 8 = 0) (a : Fin 256) :
    (outsAt0 m c t.val t.isLt).2.2.1 (ix2 a 0)
      = min ((outsAt0 m c (t.val - 1) (Nat.lt_of_le_of_lt (Nat.sub_le _ _) t.isLt)).2.2.1 (ix2 a 0))
          (tileMin posInf (selNotSame (rowsK m c) (sqK m c) (clsK m c) partsK (rowOf t a)) (tileOf t)) := by
  by_cases h1 : t.val % 8 = 7
  · rw [outsAt0_C m c t h0 h1]
    show sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc1_step _
  · rw [outsAt0_B m c t h0 h1]
    show sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc1_step _

theorem acc1_at_nat (c : Dev nD) (n : ℕ) : ∀ (hn : n < cfg0.N) (a : Fin 256),
    (outsAt0 m c n hn).2.2.1 (ix2 a 0) = accMin posInf (selNotSame (rowsK m c) (sqK m c) (clsK m c) partsK (rowOf ⟨n, hn⟩ a)) (n % 8) := by
  induction n with
  | zero =>
    intro hn a
    exact (acc1_first m c ⟨0, hn⟩ (Nat.zero_mod 8) a).trans (accMin_mod_first _ _ 0 (Nat.zero_mod 8)).symm
  | succ n ih =>
    intro hn a
    by_cases h0 : (n + 1) % 8 = 0
    · exact (acc1_first m c ⟨n + 1, hn⟩ h0 a).trans (accMin_mod_first _ _ (n + 1) h0).symm
    · refine (acc1_next m c ⟨n + 1, hn⟩ h0 a).trans ?_
      rw [accMin_mod_next _ _ n h0, ← rowOf_pred n hn h0 a]
      exact congrArg (fun v => min v _) (ih (Nat.lt_of_succ_lt hn) a)

/-- Accumulator 1 after point t, at row a of the row block: the running extremum over column tiles 0 .. t % 8 of the
    entries of not of the same class and part of row rowOf t a. -/
theorem acc1_at (c : Dev nD) (t : Fin cfg0.N) (a : Fin 256) :
    (outsAt0 m c t.val t.isLt).2.2.1 (ix2 a 0) = accMin posInf (selNotSame (rowsK m c) (sqK m c) (clsK m c) partsK (rowOf t a)) (t.val % 8) :=
  acc1_at_nat m c t.val t.isLt a

/-- Accumulator 2 after a point of the first column tile: the neutral value joined with the tile's extremum of the
    entries of different class and same part. -/
theorem acc2_first (c : Dev nD) (t : Fin cfg0.N) (h0 : t.val % 8 = 0) (a : Fin 256) :
    (outsAt0 m c t.val t.isLt).2.2.2.1 (ix2 a 0)
      = max negInf (tileMax negInf (selDiffSame (rowsK m c) (sqK m c) (clsK m c) partsK (rowOf t a)) (tileOf t)) := by
  rw [outsAt0_A m c t h0]
  show sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t) (ix2 a 0) = _
  refine (congrFun (sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t)) (ix2 a 0)).trans ?_
  refine ((restricts m c t a).acc2_step _).trans ?_
  rw [fill2_apply]

/-- Accumulator 2 after a later point of the row block: what the point before left joined with the tile's extremum. -/
theorem acc2_next (c : Dev nD) (t : Fin cfg0.N) (h0 : ¬t.val % 8 = 0) (a : Fin 256) :
    (outsAt0 m c t.val t.isLt).2.2.2.1 (ix2 a 0)
      = max ((outsAt0 m c (t.val - 1) (Nat.lt_of_le_of_lt (Nat.sub_le _ _) t.isLt)).2.2.2.1 (ix2 a 0))
          (tileMax negInf (selDiffSame (rowsK m c) (sqK m c) (clsK m c) partsK (rowOf t a)) (tileOf t)) := by
  by_cases h1 : t.val % 8 = 7
  · rw [outsAt0_C m c t h0 h1]
    show sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc2_step _
  · rw [outsAt0_B m c t h0 h1]
    show sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc2_step _

theorem acc2_at_nat (c : Dev nD) (n : ℕ) : ∀ (hn : n < cfg0.N) (a : Fin 256),
    (outsAt0 m c n hn).2.2.2.1 (ix2 a 0) = accMax negInf (selDiffSame (rowsK m c) (sqK m c) (clsK m c) partsK (rowOf ⟨n, hn⟩ a)) (n % 8) := by
  induction n with
  | zero =>
    intro hn a
    exact (acc2_first m c ⟨0, hn⟩ (Nat.zero_mod 8) a).trans (accMax_mod_first _ _ 0 (Nat.zero_mod 8)).symm
  | succ n ih =>
    intro hn a
    by_cases h0 : (n + 1) % 8 = 0
    · exact (acc2_first m c ⟨n + 1, hn⟩ h0 a).trans (accMax_mod_first _ _ (n + 1) h0).symm
    · refine (acc2_next m c ⟨n + 1, hn⟩ h0 a).trans ?_
      rw [accMax_mod_next _ _ n h0, ← rowOf_pred n hn h0 a]
      exact congrArg (fun v => max v _) (ih (Nat.lt_of_succ_lt hn) a)

/-- Accumulator 2 after point t, at row a of the row block: the running extremum over column tiles 0 .. t % 8 of the
    entries of different class and same part of row rowOf t a. -/
theorem acc2_at (c : Dev nD) (t : Fin cfg0.N) (a : Fin 256) :
    (outsAt0 m c t.val t.isLt).2.2.2.1 (ix2 a 0) = accMax negInf (selDiffSame (rowsK m c) (sqK m c) (clsK m c) partsK (rowOf t a)) (t.val % 8) :=
  acc2_at_nat m c t.val t.isLt a

/-- Accumulator 3 after a point of the first column tile: the neutral value joined with the tile's extremum of the
    entries of different class and different part. -/
theorem acc3_first (c : Dev nD) (t : Fin cfg0.N) (h0 : t.val % 8 = 0) (a : Fin 256) :
    (outsAt0 m c t.val t.isLt).2.2.2.2.1 (ix2 a 0)
      = min posInf (tileMin posInf (selDiffDiff (rowsK m c) (sqK m c) (clsK m c) partsK (rowOf t a)) (tileOf t)) := by
  rw [outsAt0_A m c t h0]
  show sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t) (ix2 a 0) = _
  refine (congrFun (sout0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t)) (ix2 a 0)).trans ?_
  refine ((restricts m c t a).acc3_step _).trans ?_
  rw [fill3_apply]

/-- Accumulator 3 after a later point of the row block: what the point before left joined with the tile's extremum. -/
theorem acc3_next (c : Dev nD) (t : Fin cfg0.N) (h0 : ¬t.val % 8 = 0) (a : Fin 256) :
    (outsAt0 m c t.val t.isLt).2.2.2.2.1 (ix2 a 0)
      = min ((outsAt0 m c (t.val - 1) (Nat.lt_of_le_of_lt (Nat.sub_le _ _) t.isLt)).2.2.2.2.1 (ix2 a 0))
          (tileMin posInf (selDiffDiff (rowsK m c) (sqK m c) (clsK m c) partsK (rowOf t a)) (tileOf t)) := by
  by_cases h1 : t.val % 8 = 7
  · rw [outsAt0_C m c t h0 h1]
    show sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc3_step _
  · rw [outsAt0_B m c t h0 h1]
    show sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc3_step _

theorem acc3_at_nat (c : Dev nD) (n : ℕ) : ∀ (hn : n < cfg0.N) (a : Fin 256),
    (outsAt0 m c n hn).2.2.2.2.1 (ix2 a 0) = accMin posInf (selDiffDiff (rowsK m c) (sqK m c) (clsK m c) partsK (rowOf ⟨n, hn⟩ a)) (n % 8) := by
  induction n with
  | zero =>
    intro hn a
    exact (acc3_first m c ⟨0, hn⟩ (Nat.zero_mod 8) a).trans (accMin_mod_first _ _ 0 (Nat.zero_mod 8)).symm
  | succ n ih =>
    intro hn a
    by_cases h0 : (n + 1) % 8 = 0
    · exact (acc3_first m c ⟨n + 1, hn⟩ h0 a).trans (accMin_mod_first _ _ (n + 1) h0).symm
    · refine (acc3_next m c ⟨n + 1, hn⟩ h0 a).trans ?_
      rw [accMin_mod_next _ _ n h0, ← rowOf_pred n hn h0 a]
      exact congrArg (fun v => min v _) (ih (Nat.lt_of_succ_lt hn) a)

/-- Accumulator 3 after point t, at row a of the row block: the running extremum over column tiles 0 .. t % 8 of the
    entries of different class and different part of row rowOf t a. -/
theorem acc3_at (c : Dev nD) (t : Fin cfg0.N) (a : Fin 256) :
    (outsAt0 m c t.val t.isLt).2.2.2.2.1 (ix2 a 0) = accMin posInf (selDiffDiff (rowsK m c) (sqK m c) (clsK m c) partsK (rowOf t a)) (t.val % 8) :=
  acc3_at_nat m c t.val t.isLt a

/-- Accumulator 4 after a point of the first column tile: the neutral value joined with the tile's extremum of the
    entries of same class and different part. -/
theorem acc4_first (c : Dev nD) (t : Fin cfg0.N) (h0 : t.val % 8 = 0) (a : Fin 256) :
    (outsAt0 m c t.val t.isLt).2.2.2.2.2 (ix2 a 0)
      = max negInf (tileMax negInf (selSameDiff (rowsK m c) (sqK m c) (clsK m c) partsK (rowOf t a)) (tileOf t)) := by
  rw [outsAt0_A m c t h0]
  show sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t) (ix2 a 0) = _
  refine (congrFun (sout0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => not7_of_0 h0 ((hcond0_1 t).mp h)) (iblk m c 0 t) (iblk m c 1 t) (iblk m c 2 t) (iblk m c 3 t) (iblk m c 4 t) (iblk m c 5 t) (iblk m c 6 t) (iblk m c 7 t)) (ix2 a 0)).trans ?_
  refine ((restricts m c t a).acc4_step _).trans ?_
  rw [fill4_apply]

/-- Accumulator 4 after a later point of the row block: what the point before left joined with the tile's extremum. -/
theorem acc4_next (c : Dev nD) (t : Fin cfg0.N) (h0 : ¬t.val % 8 = 0) (a : Fin 256) :
    (outsAt0 m c t.val t.isLt).2.2.2.2.2 (ix2 a 0)
      = max ((outsAt0 m c (t.val - 1) (Nat.lt_of_le_of_lt (Nat.sub_le _ _) t.isLt)).2.2.2.2.2 (ix2 a 0))
          (tileMax negInf (selSameDiff (rowsK m c) (sqK m c) (clsK m c) partsK (rowOf t a)) (tileOf t)) := by
  by_cases h1 : t.val % 8 = 7
  · rw [outsAt0_C m c t h0 h1]
    show sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc4_step _
  · rw [outsAt0_B m c t h0 h1]
    show sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 a 0) = _
    refine (congrFun (sout0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 a 0)).trans ?_
    exact (restricts m c t a).acc4_step _

theorem acc4_at_nat (c : Dev nD) (n : ℕ) : ∀ (hn : n < cfg0.N) (a : Fin 256),
    (outsAt0 m c n hn).2.2.2.2.2 (ix2 a 0) = accMax negInf (selSameDiff (rowsK m c) (sqK m c) (clsK m c) partsK (rowOf ⟨n, hn⟩ a)) (n % 8) := by
  induction n with
  | zero =>
    intro hn a
    exact (acc4_first m c ⟨0, hn⟩ (Nat.zero_mod 8) a).trans (accMax_mod_first _ _ 0 (Nat.zero_mod 8)).symm
  | succ n ih =>
    intro hn a
    by_cases h0 : (n + 1) % 8 = 0
    · exact (acc4_first m c ⟨n + 1, hn⟩ h0 a).trans (accMax_mod_first _ _ (n + 1) h0).symm
    · refine (acc4_next m c ⟨n + 1, hn⟩ h0 a).trans ?_
      rw [accMax_mod_next _ _ n h0, ← rowOf_pred n hn h0 a]
      exact congrArg (fun v => max v _) (ih (Nat.lt_of_succ_lt hn) a)

/-- Accumulator 4 after point t, at row a of the row block: the running extremum over column tiles 0 .. t % 8 of the
    entries of same class and different part of row rowOf t a. -/
theorem acc4_at (c : Dev nD) (t : Fin cfg0.N) (a : Fin 256) :
    (outsAt0 m c t.val t.isLt).2.2.2.2.2 (ix2 a 0) = accMax negInf (selSameDiff (rowsK m c) (sqK m c) (clsK m c) partsK (rowOf t a)) (t.val % 8) :=
  acc4_at_nat m c t.val t.isLt a

/-! ## The output block at the last column tile -/

/-- At the last column tile column 0 of the output block is accumulator 0. -/
theorem out_col0 (c : Dev nD) (t : Fin cfg0.N) (h7 : t.val % 8 = 7) (a : Fin 256) :
    (outsAt0 m c t.val t.isLt).1 (ix2 a 0) = (outsAt0 m c t.val t.isLt).2.1 (ix2 a 0) := by
  have h0 : ¬t.val % 8 = 0 := by omega
  rw [outsAt0_C m c t h0 h7]
  exact out0_C_8_col0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 a

/-- At the last column tile column 1 of the output block is accumulator 1. -/
theorem out_col1 (c : Dev nD) (t : Fin cfg0.N) (h7 : t.val % 8 = 7) (a : Fin 256) :
    (outsAt0 m c t.val t.isLt).1 (ix2 a 1) = (outsAt0 m c t.val t.isLt).2.2.1 (ix2 a 0) := by
  have h0 : ¬t.val % 8 = 0 := by omega
  rw [outsAt0_C m c t h0 h7]
  exact out0_C_8_col1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 a

/-- At the last column tile column 2 of the output block is accumulator 2. -/
theorem out_col2 (c : Dev nD) (t : Fin cfg0.N) (h7 : t.val % 8 = 7) (a : Fin 256) :
    (outsAt0 m c t.val t.isLt).1 (ix2 a 2) = (outsAt0 m c t.val t.isLt).2.2.2.1 (ix2 a 0) := by
  have h0 : ¬t.val % 8 = 0 := by omega
  rw [outsAt0_C m c t h0 h7]
  exact out0_C_8_col2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 a

/-- At the last column tile column 3 of the output block is accumulator 3. -/
theorem out_col3 (c : Dev nD) (t : Fin cfg0.N) (h7 : t.val % 8 = 7) (a : Fin 256) :
    (outsAt0 m c t.val t.isLt).1 (ix2 a 3) = (outsAt0 m c t.val t.isLt).2.2.2.2.1 (ix2 a 0) := by
  have h0 : ¬t.val % 8 = 0 := by omega
  rw [outsAt0_C m c t h0 h7]
  exact out0_C_8_col3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 a

/-- At the last column tile column 4 of the output block is accumulator 4. -/
theorem out_col4 (c : Dev nD) (t : Fin cfg0.N) (h7 : t.val % 8 = 7) (a : Fin 256) :
    (outsAt0 m c t.val t.isLt).1 (ix2 a 4) = (outsAt0 m c t.val t.isLt).2.2.2.2.2 (ix2 a 0) := by
  have h0 : ¬t.val % 8 = 0 := by omega
  rw [outsAt0_C m c t h0 h7]
  exact out0_C_8_col4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 a

/-- At the last column tile the output block holds the five statistics of its 256 rows. -/
theorem out_last (c : Dev nD) (t : Fin cfg0.N) (h7 : t.val % 8 = 7) (a : Fin 256) (k : Fin 5) :
    (outsAt0 m c t.val t.isLt).1 (ix2 a k) = stats (rowsK m c) (sqK m c) (clsK m c) partsK (rowOf t a) k := by
  match k with
  | ⟨0, _⟩ =>
    refine (out_col0 m c t h7 a).trans ?_
    rw [acc0_at m c t a, h7, accMax_last]
    rfl
  | ⟨1, _⟩ =>
    refine (out_col1 m c t h7 a).trans ?_
    rw [acc1_at m c t a, h7, accMin_last]
    rfl
  | ⟨2, _⟩ =>
    refine (out_col2 m c t h7 a).trans ?_
    rw [acc2_at m c t a, h7, accMax_last]
    rfl
  | ⟨3, _⟩ =>
    refine (out_col3 m c t h7 a).trans ?_
    rw [acc3_at m c t a, h7, accMin_last]
    rfl
  | ⟨4, _⟩ =>
    refine (out_col4 m c t h7 a).trans ?_
    rw [acc4_at m c t a, h7, accMax_last]
    rfl

end Cert.KernelIdeal.Hand

end
-- ==== Proof.RefDist.lean ====
/-
  The reference's distance table and its label masks, read at one entry (r, c).

  The table entry is the clamped distance d(r,c) of the rows and their squared norms; the two comparison tables are
  1 exactly where the class labels, respectively the part labels, of rows r and c agree; each of the five masks is 1
  exactly where its condition on the labels holds, and a masked entry is the distance where the mask is 1 and the
  neutral literal elsewhere.
-/
import proofs.«147969_j19104014532689_1_alg».proof.Proof.Gen.ReferenceIdeal.Read
import proofs.«147969_j19104014532689_1_alg».proof.Proof.Spec

noncomputable section

namespace Cert.ReferenceIdeal.RefDist

open Cert.ReferenceIdeal Cert.ReferenceIdeal.Gen Cert.ReferenceIdeal.Read Idealize.ShloMosaic Idealize.ShloMosaic.ValueIdx
open Cert.HardPairs

/-! ## One-bit words -/

/-- A conjunction of one-bit words is 1 exactly when both are. -/
theorem andi_one (a b : BitVec 1) : IntOp.andi a b = 1#1 ↔ a = 1#1 ∧ b = 1#1 := by
  rcases BitVec.eq_zero_or_eq_one a with h | h <;> rcases BitVec.eq_zero_or_eq_one b with h' | h' <;> subst h <;> subst h' <;> decide

/-- The complement of a one-bit word is 1 exactly when the word is not. -/
theorem not_one (a : BitVec 1) : ~~~a = 1#1 ↔ ¬ a = 1#1 := by
  rcases BitVec.eq_zero_or_eq_one a with h | h <;> subst h <;> decide

/-- A selection on a one-bit word that is 1 exactly when P holds is the conditional on P. -/
theorem select_of_iff {α : Type} (w : BitVec 1) (P : Prop) [Decidable P] (h : w = 1#1 ↔ P) (a b : α) :
    Scalar.select w a b = if P then a else b := by
  unfold Scalar.select
  by_cases hp : P
  · rw [if_pos hp]; exact if_pos (h.2 hp)
  · rw [if_neg hp]; exact if_neg (fun e => hp (h.1 e))

/-! ## The distance -/

variable (x0 : (⟨S2048x4x128, .f32⟩ : BufTy).Contents (Elt Ideal)) (x1 : (⟨S2048, .i32⟩ : BufTy).Contents (Elt Ideal))

/-- The squared norms broadcast along the columns: entry (r, c) is s_r. -/
theorem v11_read (r c : Fin 8192) : val_main_v11 (F := Ideal) x0 (ix2 r c) = val_main_v8 (F := Ideal) x0 (ix1 r) := by
  rw [val_main_v11_apply, val_main_v9_apply]
  exact congrArg _ (funext fun a => match a with | ⟨0, _⟩ => rfl)

/-- The squared norms broadcast along the rows: entry (r, c) is s_c. -/
theorem v12_read (r c : Fin 8192) : val_main_v12 (F := Ideal) x0 (ix2 r c) = val_main_v8 (F := Ideal) x0 (ix1 c) := by
  rw [val_main_v12_apply, val_main_v10_apply]
  exact congrArg _ (funext fun a => match a with | ⟨0, _⟩ => rfl)

/-- The product of the rows with their transpose: entry (r, c) is the inner product of rows r and c. -/
theorem v15_read (r c : Fin 8192) :
    val_main_v15 (F := Ideal) x0 (ix2 r c) = gram (val_main_v0 (F := Ideal) x0) r c := by
  rw [val_main_v15_apply]
  unfold gram
  refine Finset.sum_congr rfl fun k _ => ?_
  rw [val_main_v14_apply]
  refine congrArg₂ (· * ·) (congrArg _ ?_) (congrArg _ ?_)
  · funext a; match a with | ⟨0, _⟩ => rfl | ⟨1, _⟩ => rfl
  · funext a; match a with | ⟨0, _⟩ => rfl | ⟨1, _⟩ => rfl

/-- The distance table's entry (r, c) is d(r,c). -/
theorem v20_read (r c : Fin 8192) :
    val_main_v20 (F := Ideal) x0 (ix2 r c) = Cert.HardPairs.dist (val_main_v0 (F := Ideal) x0) (val_main_v8 (F := Ideal) x0) r c := by
  rw [val_main_v20_apply, val_main_v19_apply, val_main_v18_apply, val_main_v13_apply, val_main_v17_apply,
    v11_read, v12_read, v15_read, val_main_call0_v1_apply, val_main_call0_v0_apply, val_main_cst_1_apply,
    val_main_v16_apply, val_main_cst_0_apply]
  unfold Cert.HardPairs.dist
  simp only [Ideal.hostUnary_sqrt_def, Ideal.maximumf_def, Ideal.subf_def, Ideal.addf_def, Ideal.mulf_def, Ideal.ofBits_def]
  rw [max_comm]

/-! ## The label comparisons and the five masks -/

/-- The class-label comparison table is 1 at (r, c) exactly when rows r and c carry the same class label. -/
theorem v25_iff (r c : Fin 8192) :
    val_main_v25 (F := Ideal) x1 (ix2 r c) = 1#1 ↔ sameT (val_main_v2 (F := Ideal) x1) r c := by
  have e : val_main_v25 (F := Ideal) x1 (ix2 r c)
      = IntOp.cmpi .eq (val_main_v2 (F := Ideal) x1 (ix1 r)) (val_main_v2 (F := Ideal) x1 (ix1 c)) := by
    rw [val_main_v25_apply, val_main_v23_apply, val_main_v21_apply, val_main_v24_apply, val_main_v22_apply]
    exact congrArg₂ _ (congrArg _ (funext fun a => match a with | ⟨0, _⟩ => rfl))
      (congrArg _ (funext fun a => match a with | ⟨0, _⟩ => rfl))
  rw [e]; unfold sameT; exact IntOp.cmpi_eq

/-- The part-label comparison table is 1 at (r, c) exactly when rows r and c carry the same part label. -/
theorem v30_iff (r c : Fin 8192) :
    val_main_v30 (F := Ideal) (ix2 r c) = 1#1 ↔ sameP (val_main_v6 (F := Ideal)) r c := by
  have e : val_main_v30 (F := Ideal) (ix2 r c)
      = IntOp.cmpi .eq (val_main_v6 (F := Ideal) (ix1 r)) (val_main_v6 (F := Ideal) (ix1 c)) := by
    rw [val_main_v30_apply, val_main_v28_apply, val_main_v26_apply, val_main_v29_apply, val_main_v27_apply]
    exact congrArg₂ _ (congrArg _ (funext fun a => match a with | ⟨0, _⟩ => rfl))
      (congrArg _ (funext fun a => match a with | ⟨0, _⟩ => rfl))
  rw [e]; unfold sameP; exact IntOp.cmpi_eq

/-- Same class and same part. -/
theorem v31_iff (r c : Fin 8192) : val_main_v31 (F := Ideal) x1 (ix2 r c) = 1#1
    ↔ sameT (val_main_v2 (F := Ideal) x1) r c ∧ sameP (val_main_v6 (F := Ideal)) r c := by
  rw [val_main_v31_apply, andi_one, v25_iff, v30_iff]

/-- Not (same class and same part). -/
theorem v41_iff (r c : Fin 8192) : val_main_v41 (F := Ideal) x1 (ix2 r c) = 1#1
    ↔ ¬(sameT (val_main_v2 (F := Ideal) x1) r c ∧ sameP (val_main_v6 (F := Ideal)) r c) := by
  rw [val_main_v41_apply, not_one, v31_iff]

/-- Different class and same part. -/
theorem v33_iff (r c : Fin 8192) : val_main_v33 (F := Ideal) x1 (ix2 r c) = 1#1
    ↔ ¬sameT (val_main_v2 (F := Ideal) x1) r c ∧ sameP (val_main_v6 (F := Ideal)) r c := by
  rw [val_main_v33_apply, andi_one, val_main_v32_apply, not_one, v25_iff, v30_iff]

/-- Different class and different part. -/
theorem v38_iff (r c : Fin 8192) : val_main_v38 (F := Ideal) x1 (ix2 r c) = 1#1
    ↔ ¬sameT (val_main_v2 (F := Ideal) x1) r c ∧ ¬sameP (val_main_v6 (F := Ideal)) r c := by
  rw [val_main_v38_apply, andi_one, val_main_v36_apply, val_main_v37_apply, not_one, not_one, v25_iff, v30_iff]

/-- Same class and different part. -/
theorem v35_iff (r c : Fin 8192) : val_main_v35 (F := Ideal) x1 (ix2 r c) = 1#1
    ↔ sameT (val_main_v2 (F := Ideal) x1) r c ∧ ¬sameP (val_main_v6 (F := Ideal)) r c := by
  rw [val_main_v35_apply, andi_one, val_main_v34_apply, not_one, v25_iff, v30_iff]

/-! ## The five masked tables -/

/-- d(r,c) where class and part agree, -inf elsewhere. -/
theorem v39_read (r c : Fin 8192) : val_main_v39 (F := Ideal) x0 x1 (ix2 r c)
    = if sameT (val_main_v2 (F := Ideal) x1) r c ∧ sameP (val_main_v6 (F := Ideal)) r c
      then Cert.HardPairs.dist (val_main_v0 (F := Ideal) x0) (val_main_v8 (F := Ideal) x0) r c else negInf := by
  rw [val_main_v39_apply, v20_read, val_main_call1_v1_apply, val_main_call1_v0_apply, val_main_cst_2_apply]
  exact select_of_iff _ _ (v31_iff x1 r c) _ _

/-- d(r,c) where class or part differ, +inf elsewhere. -/
theorem v42_read (r c : Fin 8192) : val_main_v42 (F := Ideal) x0 x1 (ix2 r c)
    = if ¬(sameT (val_main_v2 (F := Ideal) x1) r c ∧ sameP (val_main_v6 (F := Ideal)) r c)
      then Cert.HardPairs.dist (val_main_v0 (F := Ideal) x0) (val_main_v8 (F := Ideal) x0) r c else posInf := by
  rw [val_main_v42_apply, v20_read, val_main_call2_v1_apply, val_main_call2_v0_apply, val_main_cst_4_apply]
  exact select_of_iff _ _ (v41_iff x1 r c) _ _

/-- d(r,c) where the class differs and the part agrees, -inf elsewhere. -/
theorem v44_read (r c : Fin 8192) : val_main_v44 (F := Ideal) x0 x1 (ix2 r c)
    = if ¬sameT (val_main_v2 (F := Ideal) x1) r c ∧ sameP (val_main_v6 (F := Ideal)) r c
      then Cert.HardPairs.dist (val_main_v0 (F := Ideal) x0) (val_main_v8 (F := Ideal) x0) r c else negInf := by
  rw [val_main_v44_apply, v20_read, val_main_call3_v1_apply, val_main_call3_v0_apply, val_main_cst_6_apply]
  exact select_of_iff _ _ (v33_iff x1 r c) _ _

/-- d(r,c) where class and part both differ, +inf elsewhere. -/
theorem v46_read (r c : Fin 8192) : val_main_v46 (F := Ideal) x0 x1 (ix2 r c)
    = if ¬sameT (val_main_v2 (F := Ideal) x1) r c ∧ ¬sameP (val_main_v6 (F := Ideal)) r c
      then Cert.HardPairs.dist (val_main_v0 (F := Ideal) x0) (val_main_v8 (F := Ideal) x0) r c else posInf := by
  rw [val_main_v46_apply, v20_read, val_main_call4_v1_apply, val_main_call4_v0_apply, val_main_cst_8_apply]
  exact select_of_iff _ _ (v38_iff x1 r c) _ _

/-- d(r,c) where the class agrees and the part differs, -inf elsewhere. -/
theorem v48_read (r c : Fin 8192) : val_main_v48 (F := Ideal) x0 x1 (ix2 r c)
    = if sameT (val_main_v2 (F := Ideal) x1) r c ∧ ¬sameP (val_main_v6 (F := Ideal)) r c
      then Cert.HardPairs.dist (val_main_v0 (F := Ideal) x0) (val_main_v8 (F := Ideal) x0) r c else negInf := by
  rw [val_main_v48_apply, v20_read, val_main_call5_v1_apply, val_main_call5_v0_apply, val_main_cst_10_apply]
  exact select_of_iff _ _ (v35_iff x1 r c) _ _

end Cert.ReferenceIdeal.RefDist

end
-- ==== Proof.RefStats.lean ====
/-
  The reference's result read as the loss of the five extremal-distance vectors of the specification.

  Each of the reference's row-wise maxima and minima over the columns is a fold of max (min) from its neutral literal
  over the 8192 columns of a masked distance table; entry by entry the masked table is the specification's masked
  distance, so the five reduced vectors are the specification's five vectors. The reference's remaining operations
  are the specification's loss of those vectors, word for word.
-/
import proofs.«147969_j19104014532689_1_alg».proof.Proof.Gen.ReferenceIdeal.Read
import proofs.«147969_j19104014532689_1_alg».proof.Proof.Spec
import proofs.«147969_j19104014532689_1_alg».proof.Proof.RefDist

noncomputable section

namespace Cert.ReferenceIdeal.RefStats

open Cert.ReferenceIdeal Cert.ReferenceIdeal.Gen Cert.ReferenceIdeal.Read Cert.ReferenceIdeal.RefDist
open Idealize.ShloMosaic Idealize.ShloMosaic.TcCoe Idealize.SL.Sem Idealize.ShloMosaic.ValueIdx
open Cert.HardPairs

/-! ## A reduction along the columns is a fold over the columns -/

/-- Dropping the column axis of the square table leaves the row axis. -/
theorem red_cols : S8192x8192.Reduces [1] S8192 := by decide

/-- The table index over row r with column k inserted is (r, k). -/
theorem lift_ix (r k : Fin 8192) : red_cols.lift (ix1 r) k = ix2 r k := by
  funext a
  match a with
  | ⟨0, _⟩ => rfl
  | ⟨1, _⟩ => rfl

/-- A row-wise maximum from -inf is the fold of max over the row's entries. -/
theorem reduce_max (y : (⟨S8192x8192, .f32⟩ : BufTy).Contents (Elt Ideal)) (r : Fin 8192) :
    Host.reduce FloatOps.maximumf y (constant (F := Ideal) S_ .f32 0xFF800000#32) reducesTo_S8192x8192_S8192_d1 h_S_ (ix1 r)
      = colMax (fun c => y (ix2 r c)) := by
  refine (Host.reduce_eq_fold_single _ y _ reducesTo_S8192x8192_S8192_d1 red_cols h_S_ (ix1 r)).trans ?_
  unfold colMax
  exact Finset.fold_congr (fun k _ => congrArg y (lift_ix r k))

/-- A row-wise minimum from +inf is the fold of min over the row's entries. -/
theorem reduce_min (y : (⟨S8192x8192, .f32⟩ : BufTy).Contents (Elt Ideal)) (r : Fin 8192) :
    Host.reduce FloatOps.minimumf y (constant (F := Ideal) S_ .f32 0x7F800000#32) reducesTo_S8192x8192_S8192_d1 h_S_ (ix1 r)
      = colMin (fun c => y (ix2 r c)) := by
  refine (Host.reduce_eq_fold_single _ y _ reducesTo_S8192x8192_S8192_d1 red_cols h_S_ (ix1 r)).trans ?_
  unfold colMin
  exact Finset.fold_congr (fun k _ => congrArg y (lift_ix r k))

/-! ## The five reduced vectors -/

variable (x0 : (⟨S2048x4x128, .f32⟩ : BufTy).Contents (Elt Ideal)) (x1 : (⟨S2048, .i32⟩ : BufTy).Contents (Elt Ideal))

theorem v40_read (r : Fin 8192) : val_main_v40 (F := Ideal) x0 x1 (ix1 r)
    = maxSameSame (val_main_v0 (F := Ideal) x0) (val_main_v8 (F := Ideal) x0) (val_main_v2 (F := Ideal) x1) (val_main_v6 (F := Ideal)) r := by
  unfold val_main_v40 val_main_cst_3 maxSameSame
  refine (reduce_max _ r).trans (congrArg colMax (funext fun c => ?_))
  exact v39_read x0 x1 r c

theorem v43_read (r : Fin 8192) : val_main_v43 (F := Ideal) x0 x1 (ix1 r)
    = minNotSame (val_main_v0 (F := Ideal) x0) (val_main_v8 (F := Ideal) x0) (val_main_v2 (F := Ideal) x1) (val_main_v6 (F := Ideal)) r := by
  unfold val_main_v43 val_main_cst_5 minNotSame
  refine (reduce_min _ r).trans (congrArg colMin (funext fun c => ?_))
  exact v42_read x0 x1 r c

theorem v45_read (r : Fin 8192) : val_main_v45 (F := Ideal) x0 x1 (ix1 r)
    = maxDiffSame (val_main_v0 (F := Ideal) x0) (val_main_v8 (F := Ideal) x0) (val_main_v2 (F := Ideal) x1) (val_main_v6 (F := Ideal)) r := by
  unfold val_main_v45 val_main_cst_7 maxDiffSame
  refine (reduce_max _ r).trans (congrArg colMax (funext fun c => ?_))
  exact v44_read x0 x1 r c

theorem v47_read (r : Fin 8192) : val_main_v47 (F := Ideal) x0 x1 (ix1 r)
    = minDiffDiff (val_main_v0 (F := Ideal) x0) (val_main_v8 (F := Ideal) x0) (val_main_v2 (F := Ideal) x1) (val_main_v6 (F := Ideal)) r := by
  unfold val_main_v47 val_main_cst_9 minDiffDiff
  refine (reduce_min _ r).trans (congrArg colMin (funext fun c => ?_))
  exact v46_read x0 x1 r c

theorem v49_read (r : Fin 8192) : val_main_v49 (F := Ideal) x0 x1 (ix1 r)
    = maxSameDiff (val_main_v0 (F := Ideal) x0) (val_main_v8 (F := Ideal) x0) (val_main_v2 (F := Ideal) x1) (val_main_v6 (F := Ideal)) r := by
  unfold val_main_v49 val_main_cst_11 maxSameDiff
  refine (reduce_max _ r).trans (congrArg colMax (funext fun c => ?_))
  exact v48_read x0 x1 r c

/-! ## The loss -/

/-- The second minimum over the entries of different class and different part is the first one again. -/
theorem v51_eq : val_main_v51 (F := Ideal) x0 x1 = val_main_v47 (F := Ideal) x0 x1 := rfl

/-- The reference's closing operations are the loss of the five reduced vectors. -/
theorem v71_loss : val_main_v71 (F := Ideal) x0 x1
    = loss bcast_S_S8192 reducesTo_S8192_S_d0 h_S_ (val_main_v40 (F := Ideal) x0 x1) (val_main_v43 (F := Ideal) x0 x1)
        (val_main_v45 (F := Ideal) x0 x1) (val_main_v47 (F := Ideal) x0 x1) (val_main_v49 (F := Ideal) x0 x1) := by
  unfold val_main_v71 val_main_v64 val_main_v70 val_main_v57 val_main_v63 val_main_v56 val_main_v62 val_main_v69
    val_main_v55 val_main_v61 val_main_v68 val_main_v54 val_main_v60 val_main_v67 val_main_v52 val_main_v58 val_main_v65
  rw [v51_eq]
  generalize val_main_v40 (F := Ideal) x0 x1 = a0
  generalize val_main_v43 (F := Ideal) x0 x1 = a1
  generalize val_main_v45 (F := Ideal) x0 x1 = a2
  generalize val_main_v47 (F := Ideal) x0 x1 = a3
  generalize val_main_v49 (F := Ideal) x0 x1 = a4
  rfl

/-- The reference's result is the loss of the specification's five vectors of the data derived from the arguments. -/
theorem result_eq (m : (ℓ : Loc nD τ sig) → Buf (Elt Ideal) ℓ) (c : Dev nD) :
    Cert.ReferenceIdeal.Value.res_main_v71 (F := Ideal) m c
      = Cert.HardPairs.loss bcast_S_S8192 reducesTo_S8192_S_d0 h_S_
          (fun i => Cert.HardPairs.maxSameSame
            (Cert.HardPairs.rowsOf shapeCasts_S2048x4x128_S8192x128 (m ((c.tc : Thread nD τ).loc main_arg0)))
            (Cert.HardPairs.sqOf reducesTo_S8192x128_S8192_d1 h_S_ (Cert.HardPairs.rowsOf shapeCasts_S2048x4x128_S8192x128 (m ((c.tc : Thread nD τ).loc main_arg0))))
            (Cert.HardPairs.clsOf bcast_S2048_S2048x4_0 shapeCasts_S2048x4_S8192 (m ((c.tc : Thread nD τ).loc main_arg1)))
            (Cert.HardPairs.partsOf shapeCasts_S4_S1x4 bcast_S1x4_S2048x4_0_1 shapeCasts_S2048x4_S8192) (i 0))
          (fun i => Cert.HardPairs.minNotSame
            (Cert.HardPairs.rowsOf shapeCasts_S2048x4x128_S8192x128 (m ((c.tc : Thread nD τ).loc main_arg0)))
            (Cert.HardPairs.sqOf reducesTo_S8192x128_S8192_d1 h_S_ (Cert.HardPairs.rowsOf shapeCasts_S2048x4x128_S8192x128 (m ((c.tc : Thread nD τ).loc main_arg0))))
            (Cert.HardPairs.clsOf bcast_S2048_S2048x4_0 shapeCasts_S2048x4_S8192 (m ((c.tc : Thread nD τ).loc main_arg1)))
            (Cert.HardPairs.partsOf shapeCasts_S4_S1x4 bcast_S1x4_S2048x4_0_1 shapeCasts_S2048x4_S8192) (i 0))
          (fun i => Cert.HardPairs.maxDiffSame
            (Cert.HardPairs.rowsOf shapeCasts_S2048x4x128_S8192x128 (m ((c.tc : Thread nD τ).loc main_arg0)))
            (Cert.HardPairs.sqOf reducesTo_S8192x128_S8192_d1 h_S_ (Cert.HardPairs.rowsOf shapeCasts_S2048x4x128_S8192x128 (m ((c.tc : Thread nD τ).loc main_arg0))))
            (Cert.HardPairs.clsOf bcast_S2048_S2048x4_0 shapeCasts_S2048x4_S8192 (m ((c.tc : Thread nD τ).loc main_arg1)))
            (Cert.HardPairs.partsOf shapeCasts_S4_S1x4 bcast_S1x4_S2048x4_0_1 shapeCasts_S2048x4_S8192) (i 0))
          (fun i => Cert.HardPairs.minDiffDiff
            (Cert.HardPairs.rowsOf shapeCasts_S2048x4x128_S8192x128 (m ((c.tc : Thread nD τ).loc main_arg0)))
            (Cert.HardPairs.sqOf reducesTo_S8192x128_S8192_d1 h_S_ (Cert.HardPairs.rowsOf shapeCasts_S2048x4x128_S8192x128 (m ((c.tc : Thread nD τ).loc main_arg0))))
            (Cert.HardPairs.clsOf bcast_S2048_S2048x4_0 shapeCasts_S2048x4_S8192 (m ((c.tc : Thread nD τ).loc main_arg1)))
            (Cert.HardPairs.partsOf shapeCasts_S4_S1x4 bcast_S1x4_S2048x4_0_1 shapeCasts_S2048x4_S8192) (i 0))
          (fun i => Cert.HardPairs.maxSameDiff
            (Cert.HardPairs.rowsOf shapeCasts_S2048x4x128_S8192x128 (m ((c.tc : Thread nD τ).loc main_arg0)))
            (Cert.HardPairs.sqOf reducesTo_S8192x128_S8192_d1 h_S_ (Cert.HardPairs.rowsOf shapeCasts_S2048x4x128_S8192x128 (m ((c.tc : Thread nD τ).loc main_arg0))))
            (Cert.HardPairs.clsOf bcast_S2048_S2048x4_0 shapeCasts_S2048x4_S8192 (m ((c.tc : Thread nD τ).loc main_arg1)))
            (Cert.HardPairs.partsOf shapeCasts_S4_S1x4 bcast_S1x4_S2048x4_0_1 shapeCasts_S2048x4_S8192) (i 0)) := by
  refine (val_main_v71_eq m c).trans ?_
  generalize m ((c.tc : Thread nD τ).loc main_arg0) = a0
  generalize m ((c.tc : Thread nD τ).loc main_arg1) = a1
  refine (v71_loss a0 a1).trans ?_
  have e0 : Cert.HardPairs.rowsOf shapeCasts_S2048x4x128_S8192x128 a0 = val_main_v0 (F := Ideal) a0 := rfl
  have e8 : Cert.HardPairs.sqOf reducesTo_S8192x128_S8192_d1 h_S_ (val_main_v0 (F := Ideal) a0) = val_main_v8 (F := Ideal) a0 := rfl
  have e2 : Cert.HardPairs.clsOf bcast_S2048_S2048x4_0 shapeCasts_S2048x4_S8192 a1 = val_main_v2 (F := Ideal) a1 := rfl
  have e6 : Cert.HardPairs.partsOf shapeCasts_S4_S1x4 bcast_S1x4_S2048x4_0_1 shapeCasts_S2048x4_S8192 = val_main_v6 (F := Ideal) := rfl
  rw [e0, e8, e2, e6]
  have h40 : val_main_v40 (F := Ideal) a0 a1 = fun i => maxSameSame (val_main_v0 (F := Ideal) a0) (val_main_v8 (F := Ideal) a0) (val_main_v2 (F := Ideal) a1) (val_main_v6 (F := Ideal)) (i 0) :=
    funext fun i => (congrArg (val_main_v40 (F := Ideal) a0 a1) (eq_ix1 i)).trans (v40_read a0 a1 (i 0))
  have h43 : val_main_v43 (F := Ideal) a0 a1 = fun i => minNotSame (val_main_v0 (F := Ideal) a0) (val_main_v8 (F := Ideal) a0) (val_main_v2 (F := Ideal) a1) (val_main_v6 (F := Ideal)) (i 0) :=
    funext fun i => (congrArg (val_main_v43 (F := Ideal) a0 a1) (eq_ix1 i)).trans (v43_read a0 a1 (i 0))
  have h45 : val_main_v45 (F := Ideal) a0 a1 = fun i => maxDiffSame (val_main_v0 (F := Ideal) a0) (val_main_v8 (F := Ideal) a0) (val_main_v2 (F := Ideal) a1) (val_main_v6 (F := Ideal)) (i 0) :=
    funext fun i => (congrArg (val_main_v45 (F := Ideal) a0 a1) (eq_ix1 i)).trans (v45_read a0 a1 (i 0))
  have h47 : val_main_v47 (F := Ideal) a0 a1 = fun i => minDiffDiff (val_main_v0 (F := Ideal) a0) (val_main_v8 (F := Ideal) a0) (val_main_v2 (F := Ideal) a1) (val_main_v6 (F := Ideal)) (i 0) :=
    funext fun i => (congrArg (val_main_v47 (F := Ideal) a0 a1) (eq_ix1 i)).trans (v47_read a0 a1 (i 0))
  have h49 : val_main_v49 (F := Ideal) a0 a1 = fun i => maxSameDiff (val_main_v0 (F := Ideal) a0) (val_main_v8 (F := Ideal) a0) (val_main_v2 (F := Ideal) a1) (val_main_v6 (F := Ideal)) (i 0) :=
    funext fun i => (congrArg (val_main_v49 (F := Ideal) a0 a1) (eq_ix1 i)).trans (v49_read a0 a1 (i 0))
  rw [h40, h43, h45, h47, h49]

end Cert.ReferenceIdeal.RefStats

end
-- ==== Proof.lean ====
/-
  The kernel mines, for each of 8192 rows x_r (the [2048, 4, 128] input reshaped), five extremal clamped distances
  d(r,c) = sqrt (max (|x_r|² + |x_c|² − 2 <x_r, x_c>) eps) over the columns c selected by class and part labels, and
  returns a sum of three means of hinge terms of them. It computes the extrema tile by tile — row blocks of 256, column
  tiles of 1024 — keeping five running maxima / minima across the 8 column tiles of a row block, and writes them out at
  the last tile; the reference takes each extremum over all 8192 columns at once. A maximum (minimum) over 8192 columns is
  the maximum (minimum) over the 8 tiles of the tiles' maxima (minima): max and min are associative, commutative and
  idempotent on the extended reals, so no finiteness is needed and the precondition is never opened. The products inside
  the kernel's tile are taken after a change of float format, which is the identity on extended reals; both programs then
  apply the same last host lines to the five vectors.

  The row array is handed to the kernel through two windows (a row block and a column block of the same array), so the
  run of @main is proved with that array's buffer dealt to the two windows in halves.
-/
import proofs.«147969_j19104014532689_1_alg».proof.Defs
import proofs.«147969_j19104014532689_1_alg».proof.Proof.Gen.Kernel
import proofs.«147969_j19104014532689_1_alg».proof.Proof.Gen.KernelIdeal
import proofs.«147969_j19104014532689_1_alg».proof.Proof.Gen.ReferenceIdeal
import proofs.«147969_j19104014532689_1_alg».proof.Proof.Gen.Pre_finite_inputs
import proofs.«147969_j19104014532689_1_alg».proof.Proof.BitsMain
import proofs.«147969_j19104014532689_1_alg».proof.Proof.IdealMain
import proofs.«147969_j19104014532689_1_alg».proof.Proof.IdealHostLines
import proofs.«147969_j19104014532689_1_alg».proof.Proof.IdealTable
import proofs.«147969_j19104014532689_1_alg».proof.Proof.IdealRows
import proofs.«147969_j19104014532689_1_alg».proof.Proof.RefStats
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program as printed runs to the end and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal.Hand in
/-- The kernel's result: the lines after the region applied to the output array, which holds the five statistics of
    every row. -/
theorem kernel_result (m : (ℓ : Loc Cert.KernelIdeal.nD Cert.KernelIdeal.τ Cert.KernelIdeal.sig) → Buf (Elt Ideal) ℓ) (c : Dev Cert.KernelIdeal.nD) :
    StableHlo.after (Cert.KernelIdeal.Hand.tail (F := Ideal)).flatten (VN m c) (Proc.devRef .tc Cert.KernelIdeal.main_v45)
      = Cert.HardPairs.loss Cert.KernelIdeal.Gen.bcast_S_S8192 Cert.KernelIdeal.Gen.reducesTo_S8192_S_d0 Cert.KernelIdeal.Gen.h_S_
          (fun i => Cert.HardPairs.maxSameSame (rowsK m c) (sqK m c) (clsK m c) partsK (i 0))
          (fun i => Cert.HardPairs.minNotSame (rowsK m c) (sqK m c) (clsK m c) partsK (i 0))
          (fun i => Cert.HardPairs.maxDiffSame (rowsK m c) (sqK m c) (clsK m c) partsK (i 0))
          (fun i => Cert.HardPairs.minDiffDiff (rowsK m c) (sqK m c) (clsK m c) partsK (i 0))
          (fun i => Cert.HardPairs.maxSameDiff (rowsK m c) (sqK m c) (clsK m c) partsK (i 0)) := by
  have hT : VN m c (Proc.devRef .tc Cert.KernelIdeal.main_v15) = statsTable (rowsK m c) (sqK m c) (clsK m c) partsK :=
    (show VN m c (Proc.devRef .tc Cert.KernelIdeal.main_v15) = (dats m 0 c).arrAt 8 Cert.KernelIdeal.cfg0.N from
      Function.update_self (Proc.devRef (τ := Cert.KernelIdeal.τ) .tc Cert.KernelIdeal.main_v15) _ (V0 m c)).trans
      (table_eq m c _ _ _ _ (out_last m c))
  rw [tail_result, hT]
  rfl

/-- At the ideal instance, from memories agreeing on the arguments, both programs end with the loss of the same five
    vectors of statistics. -/
theorem algebraic : Cert.algebraic_KernelIdeal_ReferenceIdeal := by
  intro m ρ m' ρ' _ hagree
  refine ⟨fun c => Cert.HardPairs.loss Cert.KernelIdeal.Gen.bcast_S_S8192 Cert.KernelIdeal.Gen.reducesTo_S8192_S_d0 Cert.KernelIdeal.Gen.h_S_
          (fun i => Cert.HardPairs.maxSameSame (Cert.KernelIdeal.Hand.rowsK m c) (Cert.KernelIdeal.Hand.sqK m c) (Cert.KernelIdeal.Hand.clsK m c) Cert.KernelIdeal.Hand.partsK (i 0))
          (fun i => Cert.HardPairs.minNotSame (Cert.KernelIdeal.Hand.rowsK m c) (Cert.KernelIdeal.Hand.sqK m c) (Cert.KernelIdeal.Hand.clsK m c) Cert.KernelIdeal.Hand.partsK (i 0))
          (fun i => Cert.HardPairs.maxDiffSame (Cert.KernelIdeal.Hand.rowsK m c) (Cert.KernelIdeal.Hand.sqK m c) (Cert.KernelIdeal.Hand.clsK m c) Cert.KernelIdeal.Hand.partsK (i 0))
          (fun i => Cert.HardPairs.minDiffDiff (Cert.KernelIdeal.Hand.rowsK m c) (Cert.KernelIdeal.Hand.sqK m c) (Cert.KernelIdeal.Hand.clsK m c) Cert.KernelIdeal.Hand.partsK (i 0))
          (fun i => Cert.HardPairs.maxSameDiff (Cert.KernelIdeal.Hand.rowsK m c) (Cert.KernelIdeal.Hand.sqK m c) (Cert.KernelIdeal.Hand.clsK m c) Cert.KernelIdeal.Hand.partsK (i 0)), ?_, ?_⟩
  · refine (θ_run Cert.KernelIdeal.defs _ _).mono (fun r h c => ⟨?_, ?_, ?_⟩) (Cert.KernelIdeal.Hand.run_main m ρ)
    · exact ((h c).2 Cert.KernelIdeal.main_v45 Cert.KernelIdeal.Hand.restRef_v45).trans (kernel_result m c)
    · exact ((h c).2 Cert.KernelIdeal.main_arg0 Cert.KernelIdeal.Hand.restRef_arg0).trans (Cert.KernelIdeal.Hand.end_arg0 m c)
    · exact ((h c).2 Cert.KernelIdeal.main_arg1 Cert.KernelIdeal.Hand.restRef_arg1).trans (Cert.KernelIdeal.Hand.end_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.RefStats.result_eq m' c, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
